-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1 : Shape := ⟨2, ![1, 1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part4 {F : FTy → Type} [FloatOps F] (main_arg15 : FVec F S1x1 .f32) (main_arg16 : FVec F S1 .f32) (main_v63 : IVec S_ 1) (main_v67 : IVec S_ 1) : IVec S_ 1 :=
  let main_v68 : IVec S_ 1 := andi main_v63 main_v67
  let main_v69 : FVec F S1x1 .f32 := Host.absf main_arg15
  let main_cst_26 : FVec F S_ .f32 := constant S_ .f32 0x7F800000#32
  let main_v70 : FVec F S1x1 .f32 := broadcastInDim S1x1 ![] bcast_S_S1x1 main_cst_26
  let main_v71 : IVec S1x1 1 := cmpf .olt main_v69 main_v70
  let main_c_27 : IVec S_ 1 := constantI S_ 1 1#1
  let main_v72 : IVec S_ 1 := (fun x v => Host.reduce IntOp.andi x v reducesTo_S1x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S128 .f32) (main_arg13 : FVec F S128 .f32) (main_arg14 : FVec F S128 .f32) (main_arg15 : FVec F S1x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128x1 .f32) (main_arg9 : FVec F S1 .f32) (main_arg10 : FVec F S128x1 .f32) (main_arg11 : FVec F S128 .f32) (main_arg12 : FVec F S128 .f32) (main_arg13 : FVec F S128 .f32) (main_arg14 : FVec F S128 .f32) (main_arg15 : FVec F S1x1 .f32) (main_arg16 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_arg10 : FVec F S128x1 .f32) (main_arg11 : FVec F S128 .f32) (main_arg12 : FVec F S128 .f32) (main_arg13 : FVec F S128 .f32) (main_arg14 : FVec F S128 .f32) (main_arg15 : FVec F S1x1 .f32) (main_arg16 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S128x128 .f32) (main_arg6 : FVec F S128 .f32) (main_arg7 : FVec F S128x128 .f32) (main_arg8 : FVec F S128x1 .f32) (main_arg9 : FVec F S1 .f32) (main_arg10 : FVec F S128x1 .f32) (main_arg11 : FVec F S128 .f32) (main_arg12 : FVec F S128 .f32) (main_arg13 : FVec F S128 .f32) (main_arg14 : FVec F S128 .f32) (main_arg15 : FVec F S1x1 .f32) (main_arg16 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1 : Shape := ⟨2, ![1, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S5000x1 : Shape := ⟨2, ![5000, 1]⟩

abbrev nBuf : Space → Nat
  | .hbm => 125
  | .vmem => 49
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S128x1, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x1, .f32⟩
  | .hbm, ⟨16, _⟩ => ⟨S1, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S1600000x1, .f32⟩
  | .hbm, ⟨23, _⟩ => ⟨S_, .f32⟩
  | .hbm, ⟨24, _⟩ => ⟨S100000x1, .f32⟩
  | .hbm, ⟨25, _⟩ => ⟨S1600000x1, .i32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .f32⟩
  | .hbm, ⟨30, _⟩ => ⟨S_, .f32⟩
  | .hbm, ⟨31, _⟩ => ⟨S100000x1, .f32⟩
  | .hbm, ⟨32, _⟩ => ⟨S100000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S1x128, .f32⟩
  | .hbm, ⟨49, _⟩ => ⟨S100000x128, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S_, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S_, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S100000x128, .f32⟩
  | .hbm, ⟨107, _⟩ => ⟨S_, .i32⟩
  | .hbm, ⟨108, _⟩ => ⟨S1600000, .i32⟩
  | .hbm, ⟨109, _⟩ => ⟨S1600000, .i1⟩
  | .hbm, ⟨110, _⟩ => ⟨S_, .i32⟩
  | .hbm, ⟨111, _⟩ => ⟨S1600000, .i32⟩
  | .hbm, ⟨112, _⟩ => ⟨S1600000, .i32⟩
  | .hbm, ⟨113, _⟩ => ⟨S1600000, .i32⟩
  | .hbm, ⟨114, _⟩ => ⟨S1600000x1, .i32⟩
  | .hbm, ⟨115, _⟩ => ⟨S1600000x128, .f32⟩
  | .hbm, ⟨116, _⟩ => ⟨S_, .f32⟩
  | .hbm, ⟨117, _⟩ => ⟨S100000x128, .f32⟩
  | .hbm, ⟨118, _⟩ => ⟨S1600000x1, .i32⟩
  | .hbm, ⟨119, _⟩ => ⟨S100000x128, .f32⟩
  | .hbm, ⟨120, _⟩ => ⟨S100000x128, .f32⟩
  | .hbm, ⟨121, _⟩ => ⟨S100000x128, .f32⟩
  | .hbm, ⟨122, _⟩ => ⟨S1x1, .f32⟩
  | .hbm, ⟨123, _⟩ => ⟨S1x1, .f32⟩
  | .hbm, ⟨124, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x1, .f32⟩
  | .local _ .vmem, ⟨43, _⟩ => ⟨S1x1, .f32⟩
  | .local _ .vmem, ⟨44, _⟩ => ⟨S128x1, .f32⟩
  | .local _ .vmem, ⟨45, _⟩ => ⟨S1x1, .f32⟩
  | .local _ .vmem, ⟨46, _⟩ => ⟨S1x1, .f32⟩
  | .local _ .vmem, ⟨47, _⟩ => ⟨S5000x1, .f32⟩
  | .local _ .vmem, ⟨48, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26_0 : Ref sig .tc := ⟨.hbm, 50, rfl⟩
abbrev main_v26_1 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56_0 : Ref sig .tc := ⟨.hbm, 87, rfl⟩
abbrev main_v56_1 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_14 : Ref sig .tc := ⟨.hbm, 107, rfl⟩
abbrev main_v72 : Ref sig .tc := ⟨.hbm, 108, rfl⟩
abbrev main_v73 : Ref sig .tc := ⟨.hbm, 109, rfl⟩
abbrev main_c_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg5_0 : Ref sig .tc := ⟨.vmem, 45, rfl⟩
abbrev cc6_stg6_0 : Ref sig .tc := ⟨.vmem, 46, rfl⟩
abbrev cc6_stg7_0 : Ref sig .tc := ⟨.vmem, 47, rfl⟩
abbrev cc6_stg7_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem3_0 : DmaSem sig := 43
abbrev cc6_sem4_0 : DmaSem sig := 44
abbrev cc6_sem5_0 : DmaSem sig := 45
abbrev cc6_sem6_0 : DmaSem sig := 46
abbrev cc6_sem7_0 : DmaSem sig := 47
abbrev cc6_sem7_1 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S128 : S5000x128.Reduces [0] S128
  bcast_S_S1x128 : S_.BroadcastsInDim S1x128 (![] : Fin 0 → Fin S1x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x1.size a ≤ S128x1.size a
  hwx6_2 : ∀ i : grid6.Coords, EltTy.bits .f32 = 32 ∨ (Rect.block (s := S128x1) S128x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x1.size a ≤ S128x1.size a
  hwx6_4 : ∀ i : grid6.Coords, EltTy.bits .f32 = 32 ∨ (Rect.block (s := S128x1) S128x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1.size a ≤ S1x1.size a
  hwx6_5 : ∀ i : grid6.Coords, EltTy.bits .f32 = 32 ∨ (Rect.block (s := S1x1) S1x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x1.size a ≤ S100000x1.size a
  hwx6_7 : ∀ i : grid6.Coords, EltTy.bits .f32 = 32 ∨ (Rect.block (s := S100000x1) S5000x1.size (cc6_transform_7 i) (hinb6_7 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v55) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v70) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v71) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v83) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg8) S128x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v84) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg10) S128x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg15) S1x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v85) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v86) S5000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1 : Shape := ⟨2, ![1, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩

abbrev nBuf : Space → Nat
  | .hbm => 189
  | .vmem => 0
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S64x128, .f32⟩
  | 5 => ⟨S128x128, .f32⟩
  | 6 => ⟨S128, .f32⟩
  | 7 => ⟨S128x128, .f32⟩
  | 8 => ⟨S128x1, .f32⟩
  | 9 => ⟨S1, .f32⟩
  | 10 => ⟨S128x1, .f32⟩
  | 11 => ⟨S128, .f32⟩
  | 12 => ⟨S128, .f32⟩
  | 13 => ⟨S128, .f32⟩
  | 14 => ⟨S128, .f32⟩
  | 15 => ⟨S1x1, .f32⟩
  | 16 => ⟨S1, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S_, .f32⟩
  | 35 => ⟨S1600000x1, .f32⟩
  | 36 => ⟨S_, .f32⟩
  | 37 => ⟨S100000x1, .f32⟩
  | 38 => ⟨S1600000x1, .i32⟩
  | 39 => ⟨S100000x1, .f32⟩
  | 40 => ⟨S_, .f32⟩
  | 41 => ⟨S100000x1, .f32⟩
  | 42 => ⟨S100000x1, .f32⟩
  | 43 => ⟨S100000x64, .f32⟩
  | 44 => ⟨S100000x64, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .f32⟩
  | 93 => ⟨S_, .f32⟩
  | 94 => ⟨S100000x128, .f32⟩
  | 95 => ⟨S1600000x1, .i32⟩
  | 96 => ⟨S100000x128, .f32⟩
  | 97 => ⟨S_, .f32⟩
  | 98 => ⟨S1600000x1, .f32⟩
  | 99 => ⟨S_, .f32⟩
  | 100 => ⟨S100000x1, .f32⟩
  | 101 => ⟨S1600000x1, .i32⟩
  | 102 => ⟨S100000x1, .f32⟩
  | 103 => ⟨S_, .f32⟩
  | 104 => ⟨S100000x1, .f32⟩
  | 105 => ⟨S100000x1, .f32⟩
  | 106 => ⟨S100000x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S100000x128, .f32⟩
  | 113 => ⟨S100000x128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S100000x128, .f32⟩
  | 123 => ⟨S_, .f32⟩
  | 124 => ⟨S128, .f32⟩
  | 125 => ⟨S_, .f32⟩
  | 126 => ⟨S128, .f32⟩
  | 127 => ⟨S128, .f32⟩
  | _ => ⟨S100000x64, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S128, .f32⟩
  | 5 => ⟨S128, .f32⟩
  | 6 => ⟨S128, .f32⟩
  | 7 => ⟨S1x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000x1, .f32⟩
  | 34 => ⟨S_, .f32⟩
  | 35 => ⟨S100000x1, .f32⟩
  | 36 => ⟨S1600000x1, .i32⟩
  | 37 => ⟨S100000x1, .f32⟩
  | 38 => ⟨S_, .f32⟩
  | 39 => ⟨S100000x1, .f32⟩
  | 40 => ⟨S100000x1, .f32⟩
  | 41 => ⟨S100000x128, .f32⟩
  | 42 => ⟨S100000x128, .f32⟩
  | 43 => ⟨S100000x1, .f32⟩
  | 44 => ⟨S1x1, .f32⟩
  | 45 => ⟨S100000x1, .f32⟩
  | 46 => ⟨S100000x1, .f32⟩
  | 47 => ⟨S100000x1, .f32⟩
  | 48 => ⟨S100000x1, .f32⟩
  | 49 => ⟨S100000x1, .f32⟩
  | 50 => ⟨S1x1, .f32⟩
  | 51 => ⟨S100000x1, .f32⟩
  | 52 => ⟨S100000x1, .f32⟩
  | 53 => ⟨S100000x1, .f32⟩
  | 54 => ⟨S100000x1, .f32⟩
  | 55 => ⟨S_, .f32⟩
  | 56 => ⟨S100000x1, .f32⟩
  | 57 => ⟨S100000x1, .f32⟩
  | 58 => ⟨S_, .f32⟩
  | 59 => ⟨S100000x1, .f32⟩
  | 60 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_cst_7 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call0_cst : Ref sig .tc := ⟨.hbm, 81, rfl⟩
abbrev main_call0_v0 : Ref sig .tc := ⟨.hbm, 82, rfl⟩
abbrev main_v53 : Ref sig .tc := ⟨.hbm, 83, rfl⟩
abbrev main_c_9 : Ref sig .tc := ⟨.hbm, 84, rfl⟩
abbrev main_v54 : Ref sig .tc := ⟨.hbm, 85, rfl⟩
abbrev main_v55 : Ref sig .tc := ⟨.hbm, 86, rfl⟩
abbrev main_c_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_14 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_17 : Ref sig .tc := ⟨.hbm, 123, rfl⟩
abbrev main_v85 : Ref sig .tc := ⟨.hbm, 124, rfl⟩
abbrev main_cst_18 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call1_cst : Ref sig .tc := ⟨.hbm, 144, rfl⟩
abbrev main_call1_v0 : Ref sig .tc := ⟨.hbm, 145, rfl⟩
abbrev main_v103 : Ref sig .tc := ⟨.hbm, 146, rfl⟩
abbrev main_c_20 : Ref sig .tc := ⟨.hbm, 147, rfl⟩
abbrev main_v104 : Ref sig .tc := ⟨.hbm, 148, rfl⟩
abbrev main_v105 : Ref sig .tc := ⟨.hbm, 149, rfl⟩
abbrev main_c_21 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_22 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_23 : Ref sig .tc := ⟨.hbm, 160, rfl⟩
abbrev main_v114 : Ref sig .tc := ⟨.hbm, 161, rfl⟩
abbrev main_cst_24 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_25 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_26 : Ref sig .tc := ⟨.hbm, 183, rfl⟩
abbrev main_v134 : Ref sig .tc := ⟨.hbm, 184, rfl⟩
abbrev main_v135 : Ref sig .tc := ⟨.hbm, 185, rfl⟩
abbrev main_cst_27 : Ref sig .tc := ⟨.hbm, 186, rfl⟩
abbrev main_v136 : Ref sig .tc := ⟨.hbm, 187, rfl⟩
abbrev main_v137 : Ref sig .tc := ⟨.hbm, 188, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  dot_S100000x1_S1x1_S100000x1_1_0_0_1_n_n_wf : DotDims.WF S100000x1 S1x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def dot_S100000x1_S1x1_S100000x1_1_0_0_1_n_n : DotDims S100000x1 S1x1 S100000x1 where
  lhsContracting := [1]
  rhsContracting := [0]
  lhsNonContracting := [0]
  rhsNonContracting := [1]
  lhsBatch := []
  rhsBatch := []
  wf := dot_S100000x1_S1x1_S100000x1_1_0_0_1_n_n_wf

class Facts : Prop extends Facts₀ where

variable [Facts]
-- ==== Proof.KernelRun.lean ====
/-
  The idealized kernel's run with its result named: every weakly fair execution of @main terminates, nothing
  faulting, the argument arrays end as launched, and the result buffer ends at what the last region's write-backs
  leave of it — the last boundary's contents in the fold of the buffer contents through @main's host stretches
  and regions.
-/
import proofs.«109389_j1769526526168_1_alg».proof.Proof.Gen.KernelIdeal.Frame

set_option maxRecDepth 16384

noncomputable section

namespace Cert.KernelIdeal.RunValue

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run, with the result buffer read against the last boundary's contents. -/
theorem run_value : θ_run defs (onTc (τ := τ) (main (F := F))) ⟨m, fun _ => 0, ρ⟩ (fun r => ∀ c : Dev nD,
      r.2.mem ((c.tc : Thread nD τ).loc main_v86) = W12 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v86 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.RunValue

end
-- ==== Proof.KernelSkips.lean ====
/-
  A buffer that a stretch of host operations does not write and that a region reads only through an input window, or not at all, holds at the later boundary what it held at the earlier one: the index arrays and the reciprocal neighbour count (written once, before the first region), and each layer's output while later segments read it.
-/
import proofs.«109389_j1769526526168_1_alg».proof.Proof.Gen.KernelIdeal.Frame
import Idealize.ShloMosaic.Lib.StableHlo.Run

set_option maxRecDepth 16384

noncomputable section

namespace Cert.KernelIdeal.Skips

open Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem W5_v1_eq_W1 (c : Dev nD) :
    W5 (F := F) m ρ c (Proc.devRef .tc main_v1) = W1 m ρ c (Proc.devRef .tc main_v1) :=
  calc W5 (F := F) m ρ c (Proc.devRef .tc main_v1)
    _ = W4 m ρ c (Proc.devRef .tc main_v1) := W5_of_ne m ρ c main_v1 (by decide)
    _ = W3 m ρ c (Proc.devRef .tc main_v1) := by
          show StableHlo.after hostOps2 (W3 m ρ c) (Proc.devRef .tc main_v1) = _
          simp only [hostOps2]
          after_results_simp
    _ = W2 m ρ c (Proc.devRef .tc main_v1) := W3_of_ne m ρ c main_v1 (by decide)
    _ = W1 m ρ c (Proc.devRef .tc main_v1) := W2_of_ne m ρ c main_v1 (by decide)

theorem W5_v3_eq_W1 (c : Dev nD) :
    W5 (F := F) m ρ c (Proc.devRef .tc main_v3) = W1 m ρ c (Proc.devRef .tc main_v3) :=
  calc W5 (F := F) m ρ c (Proc.devRef .tc main_v3)
    _ = W4 m ρ c (Proc.devRef .tc main_v3) := W5_of_ne m ρ c main_v3 (by decide)
    _ = W3 m ρ c (Proc.devRef .tc main_v3) := by
          show StableHlo.after hostOps2 (W3 m ρ c) (Proc.devRef .tc main_v3) = _
          simp only [hostOps2]
          after_results_simp
    _ = W2 m ρ c (Proc.devRef .tc main_v3) := W3_of_ne m ρ c main_v3 (by decide)
    _ = W1 m ρ c (Proc.devRef .tc main_v3) := W2_of_ne m ρ c main_v3 (by decide)

theorem W5_v11_eq_W1 (c : Dev nD) :
    W5 (F := F) m ρ c (Proc.devRef .tc main_v11) = W1 m ρ c (Proc.devRef .tc main_v11) :=
  calc W5 (F := F) m ρ c (Proc.devRef .tc main_v11)
    _ = W4 m ρ c (Proc.devRef .tc main_v11) := W5_of_ne m ρ c main_v11 (by decide)
    _ = W3 m ρ c (Proc.devRef .tc main_v11) := by
          show StableHlo.after hostOps2 (W3 m ρ c) (Proc.devRef .tc main_v11) = _
          simp only [hostOps2]
          after_results_simp
    _ = W2 m ρ c (Proc.devRef .tc main_v11) := W3_of_ne m ρ c main_v11 (by decide)
    _ = W1 m ρ c (Proc.devRef .tc main_v11) := W2_of_ne m ρ c main_v11 (by decide)

theorem W10_v1_eq_W5 (c : Dev nD) :
    W10 (F := F) m ρ c (Proc.devRef .tc main_v1) = W5 m ρ c (Proc.devRef .tc main_v1) :=
  calc W10 (F := F) m ρ c (Proc.devRef .tc main_v1)
    _ = W9 m ρ c (Proc.devRef .tc main_v1) := W10_of_ne m ρ c main_v1 (by decide)
    _ = W8 m ρ c (Proc.devRef .tc main_v1) := by
          show StableHlo.after hostOps5 (W8 m ρ c) (Proc.devRef .tc main_v1) = _
          simp only [hostOps5]
          after_results_simp
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := by
          show StableHlo.after hostOps3 (W5 m ρ c) (Proc.devRef .tc main_v1) = _
          simp only [hostOps3]
          after_results_simp

theorem W10_v3_eq_W5 (c : Dev nD) :
    W10 (F := F) m ρ c (Proc.devRef .tc main_v3) = W5 m ρ c (Proc.devRef .tc main_v3) :=
  calc W10 (F := F) m ρ c (Proc.devRef .tc main_v3)
    _ = W9 m ρ c (Proc.devRef .tc main_v3) := W10_of_ne m ρ c main_v3 (by decide)
    _ = W8 m ρ c (Proc.devRef .tc main_v3) := by
          show StableHlo.after hostOps5 (W8 m ρ c) (Proc.devRef .tc main_v3) = _
          simp only [hostOps5]
          after_results_simp
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := by
          show StableHlo.after hostOps3 (W5 m ρ c) (Proc.devRef .tc main_v3) = _
          simp only [hostOps3]
          after_results_simp

theorem W10_v11_eq_W5 (c : Dev nD) :
    W10 (F := F) m ρ c (Proc.devRef .tc main_v11) = W5 m ρ c (Proc.devRef .tc main_v11) :=
  calc W10 (F := F) m ρ c (Proc.devRef .tc main_v11)
    _ = W9 m ρ c (Proc.devRef .tc main_v11) := W10_of_ne m ρ c main_v11 (by decide)
    _ = W8 m ρ c (Proc.devRef .tc main_v11) := by
          show StableHlo.after hostOps5 (W8 m ρ c) (Proc.devRef .tc main_v11) = _
          simp only [hostOps5]
          after_results_simp
    _ = W7 m ρ c (Proc.devRef .tc main_v11) := W8_of_ne m ρ c main_v11 (by decide)
    _ = W6 m ρ c (Proc.devRef .tc main_v11) := W7_of_ne m ρ c main_v11 (by decide)
    _ = W5 m ρ c (Proc.devRef .tc main_v11) := by
          show StableHlo.after hostOps3 (W5 m ρ c) (Proc.devRef .tc main_v11) = _
          simp only [hostOps3]
          after_results_simp

theorem W4_v25_eq_W2 (c : Dev nD) :
    W4 (F := F) m ρ c (Proc.devRef .tc main_v25) = W2 m ρ c (Proc.devRef .tc main_v25) :=
  calc W4 (F := F) m ρ c (Proc.devRef .tc main_v25)
    _ = W3 m ρ c (Proc.devRef .tc main_v25) := by
          show StableHlo.after hostOps2 (W3 m ρ c) (Proc.devRef .tc main_v25) = _
          simp only [hostOps2]
          after_results_simp
    _ = W2 m ρ c (Proc.devRef .tc main_v25) := (W3_arr m ρ c 0).trans (((dat1 (V2 m ρ) c).arrAt_in 0 rfl _).trans (A_eq1 (V2 m ρ) c 0))

theorem W6_v41_eq_W5 (c : Dev nD) :
    W6 (F := F) m ρ c (Proc.devRef .tc main_v41) = W5 m ρ c (Proc.devRef .tc main_v41) :=
  calc W6 (F := F) m ρ c (Proc.devRef .tc main_v41)
    _ = W5 m ρ c (Proc.devRef .tc main_v41) := by
          show StableHlo.after hostOps3 (W5 m ρ c) (Proc.devRef .tc main_v41) = _
          simp only [hostOps3]
          after_results_simp

theorem W9_v55_eq_W7 (c : Dev nD) :
    W9 (F := F) m ρ c (Proc.devRef .tc main_v55) = W7 m ρ c (Proc.devRef .tc main_v55) :=
  calc W9 (F := F) m ρ c (Proc.devRef .tc main_v55)
    _ = W8 m ρ c (Proc.devRef .tc main_v55) := by
          show StableHlo.after hostOps5 (W8 m ρ c) (Proc.devRef .tc main_v55) = _
          simp only [hostOps5]
          after_results_simp
    _ = W7 m ρ c (Proc.devRef .tc main_v55) := (W8_arr m ρ c 0).trans (((dat4 (V7 m ρ) c).arrAt_in 0 rfl _).trans (A_eq4 (V7 m ρ) c 0))

theorem W11_v71_eq_W10 (c : Dev nD) :
    W11 (F := F) m ρ c (Proc.devRef .tc main_v71) = W10 m ρ c (Proc.devRef .tc main_v71) :=
  calc W11 (F := F) m ρ c (Proc.devRef .tc main_v71)
    _ = W10 m ρ c (Proc.devRef .tc main_v71) := by
          show StableHlo.after hostOps6 (W10 m ρ c) (Proc.devRef .tc main_v71) = _
          simp only [hostOps6]
          after_results_simp

end Cert.KernelIdeal.Skips

end
-- ==== Proof.KernelArgSkips.lean ====
/-
  The argument arrays at the boundaries where a region or a host stretch reads them: no host operation and no region writes an argument, so each holds its launch contents there.
-/
import proofs.«109389_j1769526526168_1_alg».proof.Proof.Gen.KernelIdeal.Frame
import Idealize.ShloMosaic.Lib.StableHlo.Run

set_option maxRecDepth 16384

noncomputable section

namespace Cert.KernelIdeal.ArgSkips

open Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem W1_arg0_eq_W0 (c : Dev nD) :
    W1 (F := F) m ρ c (Proc.devRef .tc main_arg0) = W0 m ρ c (Proc.devRef .tc main_arg0) :=
  calc W1 (F := F) m ρ c (Proc.devRef .tc main_arg0)
    _ = W0 m ρ c (Proc.devRef .tc main_arg0) := by
          show StableHlo.after hostOps0 (W0 m ρ c) (Proc.devRef .tc main_arg0) = _
          simp only [hostOps0]
          after_results_simp

theorem W1_arg2_eq_W0 (c : Dev nD) :
    W1 (F := F) m ρ c (Proc.devRef .tc main_arg2) = W0 m ρ c (Proc.devRef .tc main_arg2) :=
  calc W1 (F := F) m ρ c (Proc.devRef .tc main_arg2)
    _ = W0 m ρ c (Proc.devRef .tc main_arg2) := by
          show StableHlo.after hostOps0 (W0 m ρ c) (Proc.devRef .tc main_arg2) = _
          simp only [hostOps0]
          after_results_simp

theorem W1_arg4_eq_W0 (c : Dev nD) :
    W1 (F := F) m ρ c (Proc.devRef .tc main_arg4) = W0 m ρ c (Proc.devRef .tc main_arg4) :=
  calc W1 (F := F) m ρ c (Proc.devRef .tc main_arg4)
    _ = W0 m ρ c (Proc.devRef .tc main_arg4) := by
          show StableHlo.after hostOps0 (W0 m ρ c) (Proc.devRef .tc main_arg4) = _
          simp only [hostOps0]
          after_results_simp

theorem W3_arg11_eq_W0 (c : Dev nD) :
    W3 (F := F) m ρ c (Proc.devRef .tc main_arg11) = W0 m ρ c (Proc.devRef .tc main_arg11) :=
  calc W3 (F := F) m ρ c (Proc.devRef .tc main_arg11)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := by
          show StableHlo.after hostOps0 (W0 m ρ c) (Proc.devRef .tc main_arg11) = _
          simp only [hostOps0]
          after_results_simp

theorem W3_arg12_eq_W0 (c : Dev nD) :
    W3 (F := F) m ρ c (Proc.devRef .tc main_arg12) = W0 m ρ c (Proc.devRef .tc main_arg12) :=
  calc W3 (F := F) m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := by
          show StableHlo.after hostOps0 (W0 m ρ c) (Proc.devRef .tc main_arg12) = _
          simp only [hostOps0]
          after_results_simp

theorem W5_arg6_eq_W0 (c : Dev nD) :
    W5 (F := F) m ρ c (Proc.devRef .tc main_arg6) = W0 m ρ c (Proc.devRef .tc main_arg6) :=
  calc W5 (F := F) m ρ c (Proc.devRef .tc main_arg6)
    _ = W4 m ρ c (Proc.devRef .tc main_arg6) := W5_of_ne m ρ c main_arg6 (by decide)
    _ = W3 m ρ c (Proc.devRef .tc main_arg6) := by
          show StableHlo.after hostOps2 (W3 m ρ c) (Proc.devRef .tc main_arg6) = _
          simp only [hostOps2]
          after_results_simp
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := by
          show StableHlo.after hostOps0 (W0 m ρ c) (Proc.devRef .tc main_arg6) = _
          simp only [hostOps0]
          after_results_simp

theorem W6_arg5_eq_W0 (c : Dev nD) :
    W6 (F := F) m ρ c (Proc.devRef .tc main_arg5) = W0 m ρ c (Proc.devRef .tc main_arg5) :=
  calc W6 (F := F) m ρ c (Proc.devRef .tc main_arg5)
    _ = W5 m ρ c (Proc.devRef .tc main_arg5) := by
          show StableHlo.after hostOps3 (W5 m ρ c) (Proc.devRef .tc main_arg5) = _
          simp only [hostOps3]
          after_results_simp
    _ = W4 m ρ c (Proc.devRef .tc main_arg5) := W5_of_ne m ρ c main_arg5 (by decide)
    _ = W3 m ρ c (Proc.devRef .tc main_arg5) := by
          show StableHlo.after hostOps2 (W3 m ρ c) (Proc.devRef .tc main_arg5) = _
          simp only [hostOps2]
          after_results_simp
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := by
          show StableHlo.after hostOps0 (W0 m ρ c) (Proc.devRef .tc main_arg5) = _
          simp only [hostOps0]
          after_results_simp

theorem W6_arg7_eq_W0 (c : Dev nD) :
    W6 (F := F) m ρ c (Proc.devRef .tc main_arg7) = W0 m ρ c (Proc.devRef .tc main_arg7) :=
  calc W6 (F := F) m ρ c (Proc.devRef .tc main_arg7)
    _ = W5 m ρ c (Proc.devRef .tc main_arg7) := by
          show StableHlo.after hostOps3 (W5 m ρ c) (Proc.devRef .tc main_arg7) = _
          simp only [hostOps3]
          after_results_simp
    _ = W4 m ρ c (Proc.devRef .tc main_arg7) := W5_of_ne m ρ c main_arg7 (by decide)
    _ = W3 m ρ c (Proc.devRef .tc main_arg7) := by
          show StableHlo.after hostOps2 (W3 m ρ c) (Proc.devRef .tc main_arg7) = _
          simp only [hostOps2]
          after_results_simp
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := by
          show StableHlo.after hostOps0 (W0 m ρ c) (Proc.devRef .tc main_arg7) = _
          simp only [hostOps0]
          after_results_simp

theorem W8_arg13_eq_W0 (c : Dev nD) :
    W8 (F := F) m ρ c (Proc.devRef .tc main_arg13) = W0 m ρ c (Proc.devRef .tc main_arg13) :=
  calc W8 (F := F) m ρ c (Proc.devRef .tc main_arg13)
    _ = W7 m ρ c (Proc.devRef .tc main_arg13) := W8_of_ne m ρ c main_arg13 (by decide)
    _ = W6 m ρ c (Proc.devRef .tc main_arg13) := W7_of_ne m ρ c main_arg13 (by decide)
    _ = W5 m ρ c (Proc.devRef .tc main_arg13) := by
          show StableHlo.after hostOps3 (W5 m ρ c) (Proc.devRef .tc main_arg13) = _
          simp only [hostOps3]
          after_results_simp
    _ = W4 m ρ c (Proc.devRef .tc main_arg13) := W5_of_ne m ρ c main_arg13 (by decide)
    _ = W3 m ρ c (Proc.devRef .tc main_arg13) := by
          show StableHlo.after hostOps2 (W3 m ρ c) (Proc.devRef .tc main_arg13) = _
          simp only [hostOps2]
          after_results_simp
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := by
          show StableHlo.after hostOps0 (W0 m ρ c) (Proc.devRef .tc main_arg13) = _
          simp only [hostOps0]
          after_results_simp

theorem W8_arg14_eq_W0 (c : Dev nD) :
    W8 (F := F) m ρ c (Proc.devRef .tc main_arg14) = W0 m ρ c (Proc.devRef .tc main_arg14) :=
  calc W8 (F := F) m ρ c (Proc.devRef .tc main_arg14)
    _ = W7 m ρ c (Proc.devRef .tc main_arg14) := W8_of_ne m ρ c main_arg14 (by decide)
    _ = W6 m ρ c (Proc.devRef .tc main_arg14) := W7_of_ne m ρ c main_arg14 (by decide)
    _ = W5 m ρ c (Proc.devRef .tc main_arg14) := by
          show StableHlo.after hostOps3 (W5 m ρ c) (Proc.devRef .tc main_arg14) = _
          simp only [hostOps3]
          after_results_simp
    _ = W4 m ρ c (Proc.devRef .tc main_arg14) := W5_of_ne m ρ c main_arg14 (by decide)
    _ = W3 m ρ c (Proc.devRef .tc main_arg14) := by
          show StableHlo.after hostOps2 (W3 m ρ c) (Proc.devRef .tc main_arg14) = _
          simp only [hostOps2]
          after_results_simp
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := by
          show StableHlo.after hostOps0 (W0 m ρ c) (Proc.devRef .tc main_arg14) = _
          simp only [hostOps0]
          after_results_simp

theorem W10_arg9_eq_W0 (c : Dev nD) :
    W10 (F := F) m ρ c (Proc.devRef .tc main_arg9) = W0 m ρ c (Proc.devRef .tc main_arg9) :=
  calc W10 (F := F) m ρ c (Proc.devRef .tc main_arg9)
    _ = W9 m ρ c (Proc.devRef .tc main_arg9) := W10_of_ne m ρ c main_arg9 (by decide)
    _ = W8 m ρ c (Proc.devRef .tc main_arg9) := by
          show StableHlo.after hostOps5 (W8 m ρ c) (Proc.devRef .tc main_arg9) = _
          simp only [hostOps5]
          after_results_simp
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := by
          show StableHlo.after hostOps3 (W5 m ρ c) (Proc.devRef .tc main_arg9) = _
          simp only [hostOps3]
          after_results_simp
    _ = W4 m ρ c (Proc.devRef .tc main_arg9) := W5_of_ne m ρ c main_arg9 (by decide)
    _ = W3 m ρ c (Proc.devRef .tc main_arg9) := by
          show StableHlo.after hostOps2 (W3 m ρ c) (Proc.devRef .tc main_arg9) = _
          simp only [hostOps2]
          after_results_simp
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := by
          show StableHlo.after hostOps0 (W0 m ρ c) (Proc.devRef .tc main_arg9) = _
          simp only [hostOps0]
          after_results_simp

theorem W10_arg16_eq_W0 (c : Dev nD) :
    W10 (F := F) m ρ c (Proc.devRef .tc main_arg16) = W0 m ρ c (Proc.devRef .tc main_arg16) :=
  calc W10 (F := F) m ρ c (Proc.devRef .tc main_arg16)
    _ = W9 m ρ c (Proc.devRef .tc main_arg16) := W10_of_ne m ρ c main_arg16 (by decide)
    _ = W8 m ρ c (Proc.devRef .tc main_arg16) := by
          show StableHlo.after hostOps5 (W8 m ρ c) (Proc.devRef .tc main_arg16) = _
          simp only [hostOps5]
          after_results_simp
    _ = W7 m ρ c (Proc.devRef .tc main_arg16) := W8_of_ne m ρ c main_arg16 (by decide)
    _ = W6 m ρ c (Proc.devRef .tc main_arg16) := W7_of_ne m ρ c main_arg16 (by decide)
    _ = W5 m ρ c (Proc.devRef .tc main_arg16) := by
          show StableHlo.after hostOps3 (W5 m ρ c) (Proc.devRef .tc main_arg16) = _
          simp only [hostOps3]
          after_results_simp
    _ = W4 m ρ c (Proc.devRef .tc main_arg16) := W5_of_ne m ρ c main_arg16 (by decide)
    _ = W3 m ρ c (Proc.devRef .tc main_arg16) := by
          show StableHlo.after hostOps2 (W3 m ρ c) (Proc.devRef .tc main_arg16) = _
          simp only [hostOps2]
          after_results_simp
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := by
          show StableHlo.after hostOps0 (W0 m ρ c) (Proc.devRef .tc main_arg16) = _
          simp only [hostOps0]
          after_results_simp

theorem W11_arg8_eq_W0 (c : Dev nD) :
    W11 (F := F) m ρ c (Proc.devRef .tc main_arg8) = W0 m ρ c (Proc.devRef .tc main_arg8) :=
  calc W11 (F := F) m ρ c (Proc.devRef .tc main_arg8)
    _ = W10 m ρ c (Proc.devRef .tc main_arg8) := by
          show StableHlo.after hostOps6 (W10 m ρ c) (Proc.devRef .tc main_arg8) = _
          simp only [hostOps6]
          after_results_simp
    _ = W9 m ρ c (Proc.devRef .tc main_arg8) := W10_of_ne m ρ c main_arg8 (by decide)
    _ = W8 m ρ c (Proc.devRef .tc main_arg8) := by
          show StableHlo.after hostOps5 (W8 m ρ c) (Proc.devRef .tc main_arg8) = _
          simp only [hostOps5]
          after_results_simp
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := by
          show StableHlo.after hostOps3 (W5 m ρ c) (Proc.devRef .tc main_arg8) = _
          simp only [hostOps3]
          after_results_simp
    _ = W4 m ρ c (Proc.devRef .tc main_arg8) := W5_of_ne m ρ c main_arg8 (by decide)
    _ = W3 m ρ c (Proc.devRef .tc main_arg8) := by
          show StableHlo.after hostOps2 (W3 m ρ c) (Proc.devRef .tc main_arg8) = _
          simp only [hostOps2]
          after_results_simp
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by
          show StableHlo.after hostOps0 (W0 m ρ c) (Proc.devRef .tc main_arg8) = _
          simp only [hostOps0]
          after_results_simp

theorem W11_arg10_eq_W0 (c : Dev nD) :
    W11 (F := F) m ρ c (Proc.devRef .tc main_arg10) = W0 m ρ c (Proc.devRef .tc main_arg10) :=
  calc W11 (F := F) m ρ c (Proc.devRef .tc main_arg10)
    _ = W10 m ρ c (Proc.devRef .tc main_arg10) := by
          show StableHlo.after hostOps6 (W10 m ρ c) (Proc.devRef .tc main_arg10) = _
          simp only [hostOps6]
          after_results_simp
    _ = W9 m ρ c (Proc.devRef .tc main_arg10) := W10_of_ne m ρ c main_arg10 (by decide)
    _ = W8 m ρ c (Proc.devRef .tc main_arg10) := by
          show StableHlo.after hostOps5 (W8 m ρ c) (Proc.devRef .tc main_arg10) = _
          simp only [hostOps5]
          after_results_simp
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := by
          show StableHlo.after hostOps3 (W5 m ρ c) (Proc.devRef .tc main_arg10) = _
          simp only [hostOps3]
          after_results_simp
    _ = W4 m ρ c (Proc.devRef .tc main_arg10) := W5_of_ne m ρ c main_arg10 (by decide)
    _ = W3 m ρ c (Proc.devRef .tc main_arg10) := by
          show StableHlo.after hostOps2 (W3 m ρ c) (Proc.devRef .tc main_arg10) = _
          simp only [hostOps2]
          after_results_simp
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := by
          show StableHlo.after hostOps0 (W0 m ρ c) (Proc.devRef .tc main_arg10) = _
          simp only [hostOps0]
          after_results_simp

theorem W11_arg15_eq_W0 (c : Dev nD) :
    W11 (F := F) m ρ c (Proc.devRef .tc main_arg15) = W0 m ρ c (Proc.devRef .tc main_arg15) :=
  calc W11 (F := F) m ρ c (Proc.devRef .tc main_arg15)
    _ = W10 m ρ c (Proc.devRef .tc main_arg15) := by
          show StableHlo.after hostOps6 (W10 m ρ c) (Proc.devRef .tc main_arg15) = _
          simp only [hostOps6]
          after_results_simp
    _ = W9 m ρ c (Proc.devRef .tc main_arg15) := W10_of_ne m ρ c main_arg15 (by decide)
    _ = W8 m ρ c (Proc.devRef .tc main_arg15) := by
          show StableHlo.after hostOps5 (W8 m ρ c) (Proc.devRef .tc main_arg15) = _
          simp only [hostOps5]
          after_results_simp
    _ = W7 m ρ c (Proc.devRef .tc main_arg15) := W8_of_ne m ρ c main_arg15 (by decide)
    _ = W6 m ρ c (Proc.devRef .tc main_arg15) := W7_of_ne m ρ c main_arg15 (by decide)
    _ = W5 m ρ c (Proc.devRef .tc main_arg15) := by
          show StableHlo.after hostOps3 (W5 m ρ c) (Proc.devRef .tc main_arg15) = _
          simp only [hostOps3]
          after_results_simp
    _ = W4 m ρ c (Proc.devRef .tc main_arg15) := W5_of_ne m ρ c main_arg15 (by decide)
    _ = W3 m ρ c (Proc.devRef .tc main_arg15) := by
          show StableHlo.after hostOps2 (W3 m ρ c) (Proc.devRef .tc main_arg15) = _
          simp only [hostOps2]
          after_results_simp
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := by
          show StableHlo.after hostOps0 (W0 m ρ c) (Proc.devRef .tc main_arg15) = _
          simp only [hostOps0]
          after_results_simp

end Cert.KernelIdeal.ArgSkips

end
-- ==== Proof.KernelAgg.lean ====
/-
  The kernel's mean aggregation over incoming edges, as functions of the edge index array and a feature array.

  Row 0 of the 2×E index array holds the edge sources and row 1 the destinations. A source below zero is wrapped
  by the number of nodes. The aggregation gathers the feature rows at the sources, adds each gathered row into the
  row of its destination (an accumulating scatter into zeros), and multiplies row i by 1 / max(countᵢ, 1), where
  countᵢ is the number of edges into node i, itself an accumulating scatter of ones into zeros.
-/
import proofs.«109389_j1769526526168_1_alg».proof.KernelIdeal
import proofs.«109389_j1769526526168_1_alg».proof.Proof.Gen.KernelIdeal
import Idealize.ShloMosaic.PureOps.Ideal

noncomputable section

namespace Cert.KernelIdeal.Agg

open Cert.KernelIdeal Idealize.ShloMosaic
open Cert.KernelIdeal.Facts₀ Cert.KernelIdeal.Facts

/-- The edge index array. -/
abbrev EI := IVec S2x1600000 32

/-- The edge sources: row 0 of the index array. -/
def srcK (ei : EI) : IVec S1600000 32 := fun i =>
  shapeCast main_v1.ty.shape (extractStridedSlice S1x1600000 ![0, 0] ei slices_S2x1600000_S1x1600000_0_0)
    shapeCasts_S1x1600000_S1600000 i

/-- The edge destinations: row 1 of the index array. -/
def dstK (ei : EI) : IVec S1600000 32 := fun i =>
  shapeCast main_v3.ty.shape (extractStridedSlice S1x1600000 ![1, 0] ei slices_S2x1600000_S1x1600000_1_0)
    shapeCasts_S1x1600000_S1600000 i

/-- max(count, 1) per node, the count an accumulating scatter of ones. -/
def maxCntK (ei : EI) : FVec Ideal S100000x1 .f32 :=
  maximumf
    (Host.scatterAdd scatter_S100000x1_S1600000x1_S1600000x1_1_0_0_1
      (broadcastInDim S100000x1 ![] bcast_S_S100000x1 (constant (F := Ideal) S_ .f32 0#32))
      (broadcastInDim S1600000x1 ![0] bcast_S1600000_S1600000x1_0 (dstK ei))
      (broadcastInDim S1600000x1 ![] bcast_S_S1600000x1 (constant (F := Ideal) S_ .f32 1065353216#32)))
    (broadcastInDim S100000x1 ![] bcast_S_S100000x1 (constant (F := Ideal) S_ .f32 1065353216#32))

/-- 1 / max(count, 1) per node. -/
def invK (ei : EI) : FVec Ideal S100000x1 .f32 :=
  Host.divf (broadcastInDim S100000x1 ![] bcast_S_S100000x1 (constant (F := Ideal) S_ .f32 1065353216#32)) (maxCntK ei)

/-- The sources with the negative ones wrapped by the number of nodes. -/
def wrapSrcK (ei : EI) : IVec S1600000 32 :=
  select (cmpi .slt (srcK ei) (broadcastInDim S1600000 ![] bcast_S_S1600000 (constantI S_ 32 0#32)))
    (addi (srcK ei) (broadcastInDim S1600000 ![] bcast_S_S1600000 (constantI S_ 32 100000#32)))
    (srcK ei)

/-- The summed neighbour rows of a 64-column feature array. -/
def segSum64 (ei : EI) (f : FVec Ideal S100000x64 .f32) :
    FVec Ideal S100000x64 .f32 :=
  Host.scatterAdd scatter_S100000x64_S1600000x1_S1600000x64_1_0_0_1
    (broadcastInDim S100000x64 ![] bcast_S_S100000x64 (constant (F := Ideal) S_ .f32 0#32))
    (broadcastInDim S1600000x1 ![0] bcast_S1600000_S1600000x1_0 (dstK ei))
    (Host.gather gather_S100000x64_S1600000x1_S1600000x64_1_0_n_n_0_1_164 f
      (broadcastInDim S1600000x1 ![0] bcast_S1600000_S1600000x1_0 (wrapSrcK ei)))

/-- The mean aggregation of a 64-column feature array: the summed neighbour rows times 1 / max(count, 1). -/
def aggK64 (ei : EI) (f : FVec Ideal S100000x64 .f32) :
    FVec Ideal S100000x64 .f32 :=
  mulf (segSum64 ei f) (broadcastInDim S100000x64 ![0, 1] bcast_S100000x1_S100000x64_0_1 (invK ei))

/-- The summed neighbour rows of a 128-column feature array. -/
def segSum128 (ei : EI) (f : FVec Ideal S100000x128 .f32) :
    FVec Ideal S100000x128 .f32 :=
  Host.scatterAdd scatter_S100000x128_S1600000x1_S1600000x128_1_0_0_1
    (broadcastInDim S100000x128 ![] bcast_S_S100000x128 (constant (F := Ideal) S_ .f32 0#32))
    (broadcastInDim S1600000x1 ![0] bcast_S1600000_S1600000x1_0 (dstK ei))
    (Host.gather gather_S100000x128_S1600000x1_S1600000x128_1_0_n_n_0_1_1128 f
      (broadcastInDim S1600000x1 ![0] bcast_S1600000_S1600000x1_0 (wrapSrcK ei)))

/-- The mean aggregation of a 128-column feature array. -/
def aggK128 (ei : EI) (f : FVec Ideal S100000x128 .f32) :
    FVec Ideal S100000x128 .f32 :=
  mulf (segSum128 ei f) (broadcastInDim S100000x128 ![0, 1] bcast_S100000x1_S100000x128_0_1 (invK ei))

end Cert.KernelIdeal.Agg

end
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«109389_j1769526526168_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«109389_j1769526526168_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LayerSpec.lean ====
/-
  The layers of a three-layer mean-aggregation graph network as whole-array functions on the extended reals.

  * `linear A X Wl Wr b`: row i is A[i,:]·Wl + X[i,:]·Wr + b — the dense half of a layer (the neighbour mean A and
    the node's own features X, each through its weight matrix, plus the bias row), in the order
    (A·Wl + X·Wr) + b.
  * `colSum H`, `colSumSq H`: per column, the sum of the entries and of their squares over all rows (the two
    moments a batch normalisation needs).
  * `scaleShiftRelu H sc sh`: H[i,j]·sc[j] + sh[j] clamped below at 0.
  * `headSigmoid L wf bf`: the logistic function of L[i,0]·wf + bf (a 1×1 linear head and a sigmoid).
-/
import Idealize.ShloMosaic.PureOps.Ideal
import Idealize.ShloMosaic.PureOps.Ideal.Laws
import Idealize.ShloMosaic.Lib.ValueIdx
import proofs.«109389_j1769526526168_1_alg».proof.Proof.LibMatProd

noncomputable section

namespace Cert.Sage

open Idealize.ShloMosaic Idealize.ShloMosaic.ValueIdx Cert.Lib.MatProd

/-- An r×n array of extended reals. -/
abbrev Arr (r n : Nat) := (⟨2, ![r, n]⟩ : Shape).Idx → EReal

variable {r k n : Nat}

/-- The column of an index of an r×n array, as a `Fin n`. -/
def colOf (i : (⟨2, ![r, n]⟩ : Shape).Idx) : Fin n := ⟨(i 1).val, idx2_lt1 i⟩
/-- The row of an index of an r×n array, as a `Fin r`. -/
def rowOf (i : (⟨2, ![r, n]⟩ : Shape).Idx) : Fin r := ⟨(i 0).val, idx2_lt0 i⟩

@[simp] theorem colOf_ix2 (p : Fin r) (q : Fin n) : colOf (ix2 p q) = q := rfl
@[simp] theorem rowOf_ix2 (p : Fin r) (q : Fin n) : rowOf (ix2 p q) = p := rfl

/-- A·Wl + X·Wr + b, row by row. -/
def linear (A X : Arr r k) (Wl Wr : Arr k n) (b : Arr 1 n) : Arr r n :=
  fun i => (matProd A Wl i + matProd X Wr i) + b (ix2 0 (colOf i))

theorem linear_apply (A X : Arr r k) (Wl Wr : Arr k n) (b : Arr 1 n) (p : Fin r) (q : Fin n) :
    linear A X Wl Wr b (ix2 p q)
      = ((∑ j : Fin k, A (ix2 p j) * Wl (ix2 j q)) + ∑ j : Fin k, X (ix2 p j) * Wr (ix2 j q)) + b (ix2 0 q) := by
  unfold linear; rw [matProd_apply, matProd_apply]; rfl

/-- Per column, the sum over all rows. -/
def colSum (H : Arr r n) : Arr 1 n := fun j => ∑ p : Fin r, H (ix2 p (colOf j))
/-- Per column, the sum of the squares over all rows. -/
def colSumSq (H : Arr r n) : Arr 1 n := fun j => ∑ p : Fin r, H (ix2 p (colOf j)) * H (ix2 p (colOf j))

theorem colSum_apply (H : Arr r n) (q : Fin n) : colSum H (ix2 0 q) = ∑ p : Fin r, H (ix2 p q) := rfl
theorem colSumSq_apply (H : Arr r n) (q : Fin n) :
    colSumSq H (ix2 0 q) = ∑ p : Fin r, H (ix2 p q) * H (ix2 p q) := rfl

/-- H·sc + sh per column, clamped below at 0. -/
def scaleShiftRelu (H : Arr r n) (sc sh : Arr 1 n) : Arr r n :=
  fun i => max (H i * sc (ix2 0 (colOf i)) + sh (ix2 0 (colOf i))) 0

theorem scaleShiftRelu_apply (H : Arr r n) (sc sh : Arr 1 n) (p : Fin r) (q : Fin n) :
    scaleShiftRelu H sc sh (ix2 p q) = max (H (ix2 p q) * sc (ix2 0 q) + sh (ix2 0 q)) 0 := rfl

/-- The logistic function of L·wf + bf, entry by entry (wf and bf are 1×1). -/
def headSigmoid (L : Arr r 1) (wf bf : Arr 1 1) : Arr r 1 :=
  fun i => Ideal.logistic (L i * wf (ix2 0 0) + bf (ix2 0 0))

theorem headSigmoid_apply (L : Arr r 1) (wf bf : Arr 1 1) (p : Fin r) :
    headSigmoid L wf bf (ix2 p 0) = Ideal.logistic (L (ix2 p 0) * wf (ix2 0 0) + bf (ix2 0 0)) := rfl

end Cert.Sage

end
-- ==== Proof.SageConsts.lean ====
/-
  The float words the two programs spell, as the extended reals they denote: zero, one, the row count 100000
  (exactly representable), and the variance offset, the single-precision neighbour of 10⁻⁵, which is the positive
  dyadic rational 10995116 / 2⁴⁰.
-/
import Idealize.ShloMosaic.PureOps.Ideal

noncomputable section

namespace Cert.SageConsts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

/-- The divisor of both programs' means: the number of rows. -/
theorem ofBits_rows : Ideal.ofBits .f32 0x47C35000#32 = ((100000 : ℝ) : EReal) := by
  simp [Ideal.ofBits, Ideal.ieee, -EReal.coe_mul]; norm_num

/-- The variance offset as a real number. -/
def eps : ℝ := 10995116 / 2 ^ 40

theorem eps_pos : 0 < eps := by unfold eps; positivity

theorem ofBits_eps : Ideal.ofBits .f32 0x3727C5AC#32 = ((eps : ℝ) : EReal) := by
  simp [Ideal.ofBits, Ideal.ieee, -EReal.coe_mul, eps]; norm_num

end Cert.SageConsts

end
-- ==== Proof.SageAlgebra.lean ====
/-
  The algebra that joins the two spellings of a mean-aggregation graph network with batch normalisation, on the
  extended reals.

  One spelling (the kernel's) forms per column the sum s and the sum of squares ss over the N = 100000 rows, the
  mean μ = s/N, the variance ss/N − μ², the scale g·(variance + ε)^(−1/2) and the shift β − μ·scale, and returns
  max(h·scale + shift, 0). The other (the reference's) forms μ, the variance as the mean of (h − μ)², and returns
  max((h − μ)·(variance + ε)^(−1/2)·g + β, 0). On REAL entries the two variances are one number — the mean of the
  squared deviations is the mean of the squares minus the squared mean, since the divisor N is the number of rows —,
  it is nonnegative, so variance + ε is positive and its inverse square root is a real; the rest is the
  distributive law, which holds on the reals (it fails at the infinities, which is why every step carries the
  fact that the entries are real).

  The dense half of a layer differs only in the order of a sum, (A·Wl + X·Wr) + b against (A·Wl + b) + X·Wr, and
  the 1×1 head in a sum over a one-element index set; neither needs the entries real.
-/
import proofs.«109389_j1769526526168_1_alg».proof.Proof.LibIdealSums
import proofs.«109389_j1769526526168_1_alg».proof.Proof.LibRowVector
import proofs.«109389_j1769526526168_1_alg».proof.Proof.LayerSpec
import proofs.«109389_j1769526526168_1_alg».proof.Proof.SageConsts

noncomputable section

namespace Cert.Sage

open Idealize.ShloMosaic Idealize.ShloMosaic.ValueIdx Cert.Lib.MatProd Cert.Lib.IdealSums Cert.Lib.RowVector
open Cert.SageConsts

/-- A vector of n extended reals. -/
abbrev Vec1 (n : Nat) := (⟨1, ![n]⟩ : Shape).Idx → EReal

/-- Every entry is a real number. -/
def AllReal {ι : Type} (a : ι → EReal) : Prop := ∀ i, IsReal (a i)

/-- The row count as both programs spell it, and the variance offset. -/
def rowsW : EReal := Ideal.ofBits .f32 0x47C35000#32
def epsW : EReal := Ideal.ofBits .f32 0x3727C5AC#32
theorem rowsW_eq : rowsW = ((100000 : ℝ) : EReal) := ofBits_rows
theorem epsW_eq : epsW = ((eps : ℝ) : EReal) := ofBits_eps

variable {r k n : Nat}

/-! ## Realness is kept by every layer -/

theorem matProd_allReal (A : Arr r k) (B : Arr k n) (hA : AllReal A) (hB : AllReal B) : AllReal (matProd A B) :=
  fun _ => IsReal.sum _ fun _ _ => (hA _).mul (hB _)

theorem linear_allReal (A X : Arr r k) (Wl Wr : Arr k n) (b : Arr 1 n) (hA : AllReal A) (hX : AllReal X)
    (hWl : AllReal Wl) (hWr : AllReal Wr) (hb : AllReal b) : AllReal (linear A X Wl Wr b) :=
  fun i => ((matProd_allReal A Wl hA hWl i).add (matProd_allReal X Wr hX hWr i)).add (hb _)

theorem asRow_allReal (v : Vec1 n) (hv : AllReal v) : AllReal (asRow v) := fun _ => hv _

theorem isReal_max_zero {x : EReal} (hx : IsReal x) : IsReal (max x 0) := by
  rcases le_total x 0 with h | h
  · rw [max_eq_right h]; exact isReal_zero
  · rw [max_eq_left h]; exact hx

/-! ## The dense half: the order of the three summands -/

/-- (A·Wl + b) + X·Wr, the reference's order. -/
def refLinear (A X : Arr r k) (Wl Wr : Arr k n) (b : Vec1 n) : Arr r n :=
  fun i => (matProd A Wl i + b (ix1 (colOf i))) + matProd X Wr i

theorem linear_eq_refLinear (A X : Arr r k) (Wl Wr : Arr k n) (b : Vec1 n) :
    linear A X Wl Wr (asRow b) = refLinear A X Wl Wr b := by
  funext i
  unfold linear refLinear
  rw [add_right_comm]
  rfl

/-! ## Batch normalisation -/

/-- The kernel's scale row: g·(ss/N − (s/N)² + ε)^(−1/2). -/
def bnScale (s ss g : Arr 1 n) : Arr 1 n := fun j =>
  g j * Ideal.rsqrt ((Ideal.div (ss j) rowsW - Ideal.div (s j) rowsW * Ideal.div (s j) rowsW) + epsW)

/-- The kernel's shift row: β − (s/N)·scale. -/
def bnShift (s ss g be : Arr 1 n) : Arr 1 n := fun j =>
  be j - Ideal.div (s j) rowsW * bnScale s ss g j

/-- The reference's normalisation, scale, shift and clamp at an entry. -/
def refBnRelu (H : Arr r n) (g be : Vec1 n) : Arr r n := fun i =>
  max ((H i - Ideal.div (∑ p : Fin r, H (ix2 p (colOf i))) rowsW)
        * Ideal.rsqrt (Ideal.div (∑ p : Fin r,
            (H (ix2 p (colOf i)) - Ideal.div (∑ p' : Fin r, H (ix2 p' (colOf i))) rowsW)
              * (H (ix2 p (colOf i)) - Ideal.div (∑ p' : Fin r, H (ix2 p' (colOf i))) rowsW)) rowsW + epsW)
        * g (ix1 (colOf i)) + be (ix1 (colOf i))) 0

/-- The mean of the squared deviations from the mean is the mean of the squares minus the squared mean, when the
    divisor is the number of terms. -/
theorem var_identity {ι : Type} [Fintype ι] (h : ι → ℝ) (N : ℝ) (hN : N = Fintype.card ι) (hN0 : N ≠ 0) :
    (∑ p, (h p - (∑ p, h p) / N) * (h p - (∑ p, h p) / N)) / N
      = (∑ p, h p * h p) / N - ((∑ p, h p) / N) * ((∑ p, h p) / N) := by
  have e : ∀ p, (h p - (∑ p, h p) / N) * (h p - (∑ p, h p) / N)
      = h p * h p - 2 * ((∑ p, h p) / N) * h p + ((∑ p, h p) / N) * ((∑ p, h p) / N) := fun p => by ring
  simp only [e, Finset.sum_add_distrib, Finset.sum_sub_distrib, ← Finset.mul_sum, Finset.sum_const,
    Finset.card_univ, nsmul_eq_mul, ← hN]
  field_simp
  ring

/-- The variance is nonnegative (it is a mean of squares). -/
theorem var_nonneg {ι : Type} [Fintype ι] (h : ι → ℝ) (N : ℝ) (hN : 0 < N) (μ : ℝ) :
    0 ≤ (∑ p, (h p - μ) * (h p - μ)) / N :=
  div_nonneg (Finset.sum_nonneg fun p _ => mul_self_nonneg _) hN.le

/-! ## The two normalisations agree on real entries -/

/-- On real entries the kernel's scale-and-shift form of batch normalisation is the reference's centred form, and
    the result is real. -/
theorem bn_eq_aux (H : Arr 100000 n) (g be : Vec1 n) (hH : AllReal H) (hg : AllReal g) (hbe : AllReal be)
    (i : (⟨2, ![100000, n]⟩ : Shape).Idx) :
    scaleShiftRelu H (bnScale (colSum H) (colSumSq H) (asRow g))
        (bnShift (colSum H) (colSumSq H) (asRow g) (asRow be)) i = refBnRelu H g be i
      ∧ IsReal (refBnRelu H g be i) := by
  obtain ⟨p, q, rfl⟩ : ∃ (p : Fin 100000) (q : Fin n), i = ix2 p q := ⟨i 0, i 1, eq_ix2 i⟩
  unfold AllReal IsReal at hH hg hbe
  choose h hh using hH
  obtain ⟨γ, hγ⟩ := hg (ix1 q)
  obtain ⟨β, hβ⟩ := hbe (ix1 q)
  have hN : (100000 : ℝ) ≠ 0 := by norm_num
  have hcard : (100000 : ℝ) = Fintype.card (Fin 100000) := by simp
  have hvar := var_identity (fun p' : Fin 100000 => h (ix2 p' q)) 100000 hcard hN
  have hpos : 0 < (∑ p' : Fin 100000, (h (ix2 p' q) - (∑ p'' : Fin 100000, h (ix2 p'' q)) / 100000)
      * (h (ix2 p' q) - (∑ p'' : Fin 100000, h (ix2 p'' q)) / 100000)) / 100000 + eps :=
    add_pos_of_nonneg_of_pos (var_nonneg (fun p' : Fin 100000 => h (ix2 p' q)) 100000 (by norm_num) _) eps_pos
  have hL : scaleShiftRelu H (bnScale (colSum H) (colSumSq H) (asRow g))
        (bnShift (colSum H) (colSumSq H) (asRow g) (asRow be)) (ix2 p q)
      = max (H (ix2 p q) * (g (ix1 q) * Ideal.rsqrt ((Ideal.div (∑ p' : Fin 100000, H (ix2 p' q) * H (ix2 p' q)) rowsW
            - Ideal.div (∑ p' : Fin 100000, H (ix2 p' q)) rowsW * Ideal.div (∑ p' : Fin 100000, H (ix2 p' q)) rowsW) + epsW))
          + (be (ix1 q) - Ideal.div (∑ p' : Fin 100000, H (ix2 p' q)) rowsW
              * (g (ix1 q) * Ideal.rsqrt ((Ideal.div (∑ p' : Fin 100000, H (ix2 p' q) * H (ix2 p' q)) rowsW
            - Ideal.div (∑ p' : Fin 100000, H (ix2 p' q)) rowsW * Ideal.div (∑ p' : Fin 100000, H (ix2 p' q)) rowsW) + epsW)))) 0 := rfl
  have hR : refBnRelu H g be (ix2 p q)
      = max ((H (ix2 p q) - Ideal.div (∑ p' : Fin 100000, H (ix2 p' q)) rowsW)
        * Ideal.rsqrt (Ideal.div (∑ p' : Fin 100000,
            (H (ix2 p' q) - Ideal.div (∑ p'' : Fin 100000, H (ix2 p'' q)) rowsW)
              * (H (ix2 p' q) - Ideal.div (∑ p'' : Fin 100000, H (ix2 p'' q)) rowsW)) rowsW + epsW)
        * g (ix1 q) + be (ix1 q)) 0 := rfl
  rw [hL, hR]
  simp only [hh, hγ, hβ, rowsW_eq, epsW_eq, ← EReal.coe_mul, ← coe_sum_univ, div_coe_coe _ hN, ← EReal.coe_sub,
    ← EReal.coe_add]
  rw [← hvar]
  rw [Ideal.rsqrt_coe, if_neg (not_lt.mpr hpos.le), if_neg hpos.ne']
  simp only [← EReal.coe_mul, ← EReal.coe_sub, ← EReal.coe_add]
  refine ⟨congrArg (fun z : ℝ => max (z : EReal) 0) (by ring), isReal_max_zero (isReal_coe _)⟩

theorem bn_eq (H : Arr 100000 n) (g be : Vec1 n) (hH : AllReal H) (hg : AllReal g) (hbe : AllReal be) :
    scaleShiftRelu H (bnScale (colSum H) (colSumSq H) (asRow g))
        (bnShift (colSum H) (colSumSq H) (asRow g) (asRow be)) = refBnRelu H g be :=
  funext fun i => (bn_eq_aux H g be hH hg hbe i).1

theorem refBnRelu_allReal (H : Arr 100000 n) (g be : Vec1 n) (hH : AllReal H) (hg : AllReal g) (hbe : AllReal be) :
    AllReal (refBnRelu H g be) :=
  fun i => (bn_eq_aux H g be hH hg hbe i).2

/-! ## A layer, the head, and the network -/

/-- A layer in the kernel's spelling: the dense half of the aggregated and the own features, then the
    scale-and-shift normalisation clamped at zero. -/
def kLayer (agg : Arr 100000 k → Arr 100000 k) (X : Arr 100000 k) (Wl Wr : Arr k n) (b g be : Vec1 n) : Arr 100000 n :=
  scaleShiftRelu (linear (agg X) X Wl Wr (asRow b))
    (bnScale (colSum (linear (agg X) X Wl Wr (asRow b))) (colSumSq (linear (agg X) X Wl Wr (asRow b))) (asRow g))
    (bnShift (colSum (linear (agg X) X Wl Wr (asRow b))) (colSumSq (linear (agg X) X Wl Wr (asRow b))) (asRow g) (asRow be))

/-- A layer in the reference's spelling. -/
def rLayer (agg : Arr 100000 k → Arr 100000 k) (X : Arr 100000 k) (Wl Wr : Arr k n) (b g be : Vec1 n) : Arr 100000 n :=
  refBnRelu (refLinear (agg X) X Wl Wr b) g be

theorem layer_eq (aggK aggR : Arr 100000 k → Arr 100000 k) (hagg : ∀ f, aggK f = aggR f)
    (hreal : ∀ f, AllReal f → AllReal (aggR f)) (X : Arr 100000 k) (Wl Wr : Arr k n) (b g be : Vec1 n)
    (hX : AllReal X) (hWl : AllReal Wl) (hWr : AllReal Wr) (hb : AllReal b) (hg : AllReal g) (hbe : AllReal be) :
    kLayer aggK X Wl Wr b g be = rLayer aggR X Wl Wr b g be ∧ AllReal (rLayer aggR X Wl Wr b g be) := by
  have hlin : AllReal (linear (aggR X) X Wl Wr (asRow b)) :=
    linear_allReal _ _ _ _ _ (hreal X hX) hX hWl hWr (asRow_allReal b hb)
  unfold kLayer rLayer
  rw [hagg, ← linear_eq_refLinear]
  exact ⟨bn_eq _ g be hlin hg hbe, refBnRelu_allReal _ g be hlin hg hbe⟩

/-- The reference's head: the product with the 1×1 weight, plus the bias, through the logistic function. -/
def refHead (L : Arr r 1) (wF : Arr 1 1) (bF : Vec1 1) : Arr r 1 :=
  fun i => Ideal.logistic (matProd L wF i + bF (ix1 (colOf i)))

theorem head_eq (L : Arr r 1) (wF : Arr 1 1) (bF : Vec1 1) : headSigmoid L wF (asRow bF) = refHead L wF bF := by
  funext i
  obtain ⟨p, q, rfl⟩ : ∃ (p : Fin r) (q : Fin 1), i = ix2 p q := ⟨i 0, i 1, eq_ix2 i⟩
  obtain rfl : q = 0 := Subsingleton.elim _ _
  unfold headSigmoid refHead
  rw [matProd_apply, Fin.sum_univ_one]
  rfl

/-- The network in the kernel's spelling, over the two aggregation operators (64 and 128 columns). -/
def kernelNet (a64 : Arr 100000 64 → Arr 100000 64) (a128 : Arr 100000 128 → Arr 100000 128)
    (x : Arr 100000 64) (Wl0 Wr0 : Arr 64 128) (bl0 : Vec1 128) (Wl1 Wr1 : Arr 128 128) (bl1 : Vec1 128)
    (Wl2 Wr2 : Arr 128 1) (bl2 : Vec1 1) (g0 be0 g1 be1 : Vec1 128) (wF : Arr 1 1) (bF : Vec1 1) : Arr 100000 1 :=
  headSigmoid (linear (a128 (kLayer a128 (kLayer a64 x Wl0 Wr0 bl0 g0 be0) Wl1 Wr1 bl1 g1 be1))
      (kLayer a128 (kLayer a64 x Wl0 Wr0 bl0 g0 be0) Wl1 Wr1 bl1 g1 be1) Wl2 Wr2 (asRow bl2)) wF (asRow bF)

/-- The network in the reference's spelling. -/
def refNet (a64 : Arr 100000 64 → Arr 100000 64) (a128 : Arr 100000 128 → Arr 100000 128)
    (x : Arr 100000 64) (Wl0 Wr0 : Arr 64 128) (bl0 : Vec1 128) (Wl1 Wr1 : Arr 128 128) (bl1 : Vec1 128)
    (Wl2 Wr2 : Arr 128 1) (bl2 : Vec1 1) (g0 be0 g1 be1 : Vec1 128) (wF : Arr 1 1) (bF : Vec1 1) : Arr 100000 1 :=
  refHead (refLinear (a128 (rLayer a128 (rLayer a64 x Wl0 Wr0 bl0 g0 be0) Wl1 Wr1 bl1 g1 be1))
      (rLayer a128 (rLayer a64 x Wl0 Wr0 bl0 g0 be0) Wl1 Wr1 bl1 g1 be1) Wl2 Wr2 bl2) wF bF

/-- The two spellings of the network agree on real arguments, given that the two spellings of each aggregation
    agree and keep real entries real. -/
theorem net_eq (a64K a64R : Arr 100000 64 → Arr 100000 64) (a128K a128R : Arr 100000 128 → Arr 100000 128)
    (h64 : ∀ f, a64K f = a64R f) (h128 : ∀ f, a128K f = a128R f)
    (r64 : ∀ f, AllReal f → AllReal (a64R f)) (r128 : ∀ f, AllReal f → AllReal (a128R f))
    (x : Arr 100000 64) (Wl0 Wr0 : Arr 64 128) (bl0 : Vec1 128) (Wl1 Wr1 : Arr 128 128) (bl1 : Vec1 128)
    (Wl2 Wr2 : Arr 128 1) (bl2 : Vec1 1) (g0 be0 g1 be1 : Vec1 128) (wF : Arr 1 1) (bF : Vec1 1)
    (hx : AllReal x) (hWl0 : AllReal Wl0) (hWr0 : AllReal Wr0) (hbl0 : AllReal bl0)
    (hWl1 : AllReal Wl1) (hWr1 : AllReal Wr1) (hbl1 : AllReal bl1)
    (hg0 : AllReal g0) (hbe0 : AllReal be0) (hg1 : AllReal g1) (hbe1 : AllReal be1) :
    kernelNet a64K a128K x Wl0 Wr0 bl0 Wl1 Wr1 bl1 Wl2 Wr2 bl2 g0 be0 g1 be1 wF bF
      = refNet a64R a128R x Wl0 Wr0 bl0 Wl1 Wr1 bl1 Wl2 Wr2 bl2 g0 be0 g1 be1 wF bF := by
  obtain ⟨e1, hr1⟩ := layer_eq a64K a64R h64 r64 x Wl0 Wr0 bl0 g0 be0 hx hWl0 hWr0 hbl0 hg0 hbe0
  obtain ⟨e2, _⟩ := layer_eq a128K a128R h128 r128 _ Wl1 Wr1 bl1 g1 be1 hr1 hWl1 hWr1 hbl1 hg1 hbe1
  unfold kernelNet refNet
  rw [e1, e2, h128, linear_eq_refLinear, head_eq]

end Cert.Sage

end
-- ==== Proof.HostTerms.lean ====
/-
  The host operations between the statistics region and the normalisation region, as the specification's rows.

  From the column sums s and the sums of squares ss (1×n rows) the program forms s/N, ss/N − (s/N)², adds ε, takes
  the inverse square root, multiplies by the re-shaped g (the scale row), and subtracts (s/N)·scale from the
  re-shaped β (the shift row). Entry by entry these are `bnScale` and `bnShift`; a vector re-shaped to a 1×n row
  is `asRow`.
-/
import proofs.«109389_j1769526526168_1_alg».proof.Proof.SageAlgebra
import proofs.«109389_j1769526526168_1_alg».proof.Proof.LibRowVector
import proofs.«109389_j1769526526168_1_alg».proof.Proof.LibRowReductions
import Idealize.ShloMosaic.Lib.Pipeline.Value

noncomputable section

namespace Cert.Sage

open Idealize.ShloMosaic Idealize.ShloMosaic.ValueIdx Cert.Lib.RowVector Cert.Lib.RowReductions

variable {n : Nat}

/-- A vector re-shaped to a 1×n row, as the run spells it. -/
theorem reshape_row (v : FVec Ideal ⟨1, ![n]⟩ .f32) (h : (⟨1, ![n]⟩ : Shape).ShapeCasts ⟨2, ![1, n]⟩) :
    (fun i => shapeCast ⟨2, ![1, n]⟩ v h i) = asRow v := shapeCast_eq_asRow v h

/-- The scale row. -/
theorem scale_term (s ss : FVec Ideal ⟨2, ![1, n]⟩ .f32) (g : FVec Ideal ⟨1, ![n]⟩ .f32)
    (hc : (⟨1, ![n]⟩ : Shape).ShapeCasts ⟨2, ![1, n]⟩) (hb : (⟨0, ![]⟩ : Shape).BroadcastsInDim ⟨2, ![1, n]⟩ ![]) :
    mulf (fun i => shapeCast ⟨2, ![1, n]⟩ g hc i)
      (Host.rsqrt (addf
        (subf (Host.divf ss (broadcastInDim ⟨2, ![1, n]⟩ ![] hb (constant (F := Ideal) ⟨0, ![]⟩ .f32 1203982336#32)))
          (mulf (Host.divf s (broadcastInDim ⟨2, ![1, n]⟩ ![] hb (constant (F := Ideal) ⟨0, ![]⟩ .f32 1203982336#32)))
            (Host.divf s (broadcastInDim ⟨2, ![1, n]⟩ ![] hb (constant (F := Ideal) ⟨0, ![]⟩ .f32 1203982336#32)))))
        (broadcastInDim ⟨2, ![1, n]⟩ ![] hb (constant (F := Ideal) ⟨0, ![]⟩ .f32 925353388#32))))
      = bnScale s ss (asRow g) := by
  rw [reshape_row]
  funext j
  simp only [mulf, Host.rsqrt, addf, subf, Host.divf, bnScale, rowsW, epsW, broadcastInDim, constant,
    Ideal.hostUnary_rsqrt_def, Ideal.hostDivf_def, Ideal.mulf_def, Ideal.addf_def, Ideal.subf_def, Ideal.ofBits_def]

/-- The shift row. -/
theorem shift_term (s ss : FVec Ideal ⟨2, ![1, n]⟩ .f32) (g be : FVec Ideal ⟨1, ![n]⟩ .f32)
    (hc : (⟨1, ![n]⟩ : Shape).ShapeCasts ⟨2, ![1, n]⟩) (hb : (⟨0, ![]⟩ : Shape).BroadcastsInDim ⟨2, ![1, n]⟩ ![]) :
    subf (fun i => shapeCast ⟨2, ![1, n]⟩ be hc i)
      (mulf (Host.divf s (broadcastInDim ⟨2, ![1, n]⟩ ![] hb (constant (F := Ideal) ⟨0, ![]⟩ .f32 1203982336#32)))
        (mulf (fun i => shapeCast ⟨2, ![1, n]⟩ g hc i)
          (Host.rsqrt (addf
            (subf (Host.divf ss (broadcastInDim ⟨2, ![1, n]⟩ ![] hb (constant (F := Ideal) ⟨0, ![]⟩ .f32 1203982336#32)))
              (mulf (Host.divf s (broadcastInDim ⟨2, ![1, n]⟩ ![] hb (constant (F := Ideal) ⟨0, ![]⟩ .f32 1203982336#32)))
                (Host.divf s (broadcastInDim ⟨2, ![1, n]⟩ ![] hb (constant (F := Ideal) ⟨0, ![]⟩ .f32 1203982336#32)))))
            (broadcastInDim ⟨2, ![1, n]⟩ ![] hb (constant (F := Ideal) ⟨0, ![]⟩ .f32 925353388#32))))))
      = bnShift s ss (asRow g) (asRow be) := by
  rw [scale_term s ss g hc hb, reshape_row]
  funext j
  simp only [mulf, subf, Host.divf, bnShift, rowsW, broadcastInDim, constant,
    Ideal.hostDivf_def, Ideal.mulf_def, Ideal.subf_def, Ideal.ofBits_def]

end Cert.Sage

end
-- ==== Proof.KernelHost.lean ====
/-
  What each stretch of host operations leaves in the buffers the next region reads, in terms of the launch contents
  of the argument arrays and of the preceding regions' outputs: the index arrays and the reciprocal neighbour count,
  the mean aggregation of the current features, the re-shaped bias rows, and the scale and shift rows of each batch
  normalisation.
-/
import proofs.«109389_j1769526526168_1_alg».proof.Proof.KernelSkips
import proofs.«109389_j1769526526168_1_alg».proof.Proof.KernelArgSkips
import proofs.«109389_j1769526526168_1_alg».proof.Proof.KernelAgg
import proofs.«109389_j1769526526168_1_alg».proof.Proof.HostTerms

set_option maxRecDepth 16384

noncomputable section

namespace Cert.KernelIdeal.Host

open Cert.KernelIdeal.Gen Cert.KernelIdeal.Skips Cert.KernelIdeal.ArgSkips Cert.KernelIdeal.Agg Cert.Sage
open Cert.Lib.RowVector
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg) (c : Dev nD)

/-! ## Before the first region -/

theorem W1_v1 : W1 m ρ c (Proc.devRef .tc main_v1) = srcK (W0 m ρ c (Proc.devRef .tc main_arg1)) := by
  show StableHlo.after hostOps0 (W0 m ρ c) (Proc.devRef .tc main_v1) = _
  simp only [hostOps0]
  after_results_simp
  rfl

theorem W1_v3 : W1 m ρ c (Proc.devRef .tc main_v3) = dstK (W0 m ρ c (Proc.devRef .tc main_arg1)) := by
  show StableHlo.after hostOps0 (W0 m ρ c) (Proc.devRef .tc main_v3) = _
  simp only [hostOps0]
  after_results_simp
  rfl

theorem W1_v11 : W1 m ρ c (Proc.devRef .tc main_v11) = invK (W0 m ρ c (Proc.devRef .tc main_arg1)) := by
  show StableHlo.after hostOps0 (W0 m ρ c) (Proc.devRef .tc main_v11) = _
  simp only [hostOps0]
  after_results_simp
  rfl

theorem W1_v23 : W1 m ρ c (Proc.devRef .tc main_v23) = aggK64 (W0 m ρ c (Proc.devRef .tc main_arg1)) (W0 m ρ c (Proc.devRef .tc main_arg0)) := by
  show StableHlo.after hostOps0 (W0 m ρ c) (Proc.devRef .tc main_v23) = _
  simp only [hostOps0]
  after_results_simp
  rfl

theorem W1_v24 : W1 m ρ c (Proc.devRef .tc main_v24) = asRow (W0 m ρ c (Proc.devRef .tc main_arg3)) := by
  show StableHlo.after hostOps0 (W0 m ρ c) (Proc.devRef .tc main_v24) = _
  simp only [hostOps0]
  after_results_simp
  exact reshape_row _ _

/-! ## Between the first statistics region and the first normalisation region -/

theorem W4_v37 : W4 m ρ c (Proc.devRef .tc main_v37)
    = bnScale (W3 m ρ c (Proc.devRef .tc main_v26_0)) (W3 m ρ c (Proc.devRef .tc main_v26_1)) (asRow (W0 m ρ c (Proc.devRef .tc main_arg11))) := by
  show StableHlo.after hostOps2 (W3 m ρ c) (Proc.devRef .tc main_v37) = _
  simp only [hostOps2]
  after_results_simp
  rw [W3_arg11_eq_W0]
  exact scale_term _ _ _ _ _

theorem W4_v40 : W4 m ρ c (Proc.devRef .tc main_v40)
    = bnShift (W3 m ρ c (Proc.devRef .tc main_v26_0)) (W3 m ρ c (Proc.devRef .tc main_v26_1)) (asRow (W0 m ρ c (Proc.devRef .tc main_arg11)))
        (asRow (W0 m ρ c (Proc.devRef .tc main_arg12))) := by
  show StableHlo.after hostOps2 (W3 m ρ c) (Proc.devRef .tc main_v40) = _
  simp only [hostOps2]
  after_results_simp
  rw [W3_arg11_eq_W0, W3_arg12_eq_W0]
  exact shift_term _ _ _ _ _ _

/-! ## Before the second layer's dense region -/

theorem W6_v53 : W6 m ρ c (Proc.devRef .tc main_v53) = aggK128 (W0 m ρ c (Proc.devRef .tc main_arg1)) (W5 m ρ c (Proc.devRef .tc main_v41)) := by
  show StableHlo.after hostOps3 (W5 m ρ c) (Proc.devRef .tc main_v53) = _
  simp only [hostOps3]
  after_results_simp
  rw [W5_v1_eq_W1, W5_v3_eq_W1, W5_v11_eq_W1, W1_v1, W1_v3, W1_v11]
  rfl

theorem W6_v54 : W6 m ρ c (Proc.devRef .tc main_v54) = asRow (W0 m ρ c (Proc.devRef .tc main_arg6)) := by
  show StableHlo.after hostOps3 (W5 m ρ c) (Proc.devRef .tc main_v54) = _
  simp only [hostOps3]
  after_results_simp
  rw [W5_arg6_eq_W0]
  exact reshape_row _ _

/-! ## Between the second statistics region and the second normalisation region -/

theorem W9_v67 : W9 m ρ c (Proc.devRef .tc main_v67)
    = bnScale (W8 m ρ c (Proc.devRef .tc main_v56_0)) (W8 m ρ c (Proc.devRef .tc main_v56_1)) (asRow (W0 m ρ c (Proc.devRef .tc main_arg13))) := by
  show StableHlo.after hostOps5 (W8 m ρ c) (Proc.devRef .tc main_v67) = _
  simp only [hostOps5]
  after_results_simp
  rw [W8_arg13_eq_W0]
  exact scale_term _ _ _ _ _

theorem W9_v70 : W9 m ρ c (Proc.devRef .tc main_v70)
    = bnShift (W8 m ρ c (Proc.devRef .tc main_v56_0)) (W8 m ρ c (Proc.devRef .tc main_v56_1)) (asRow (W0 m ρ c (Proc.devRef .tc main_arg13)))
        (asRow (W0 m ρ c (Proc.devRef .tc main_arg14))) := by
  show StableHlo.after hostOps5 (W8 m ρ c) (Proc.devRef .tc main_v70) = _
  simp only [hostOps5]
  after_results_simp
  rw [W8_arg13_eq_W0, W8_arg14_eq_W0]
  exact shift_term _ _ _ _ _ _

/-! ## Before the last region -/

theorem W11_v83 : W11 m ρ c (Proc.devRef .tc main_v83) = aggK128 (W0 m ρ c (Proc.devRef .tc main_arg1)) (W10 m ρ c (Proc.devRef .tc main_v71)) := by
  show StableHlo.after hostOps6 (W10 m ρ c) (Proc.devRef .tc main_v83) = _
  simp only [hostOps6]
  after_results_simp
  rw [W10_v1_eq_W5, W10_v3_eq_W5, W10_v11_eq_W5, W5_v1_eq_W1, W5_v3_eq_W1, W5_v11_eq_W1, W1_v1, W1_v3, W1_v11]
  rfl

theorem W11_v84 : W11 m ρ c (Proc.devRef .tc main_v84) = asRow (W0 m ρ c (Proc.devRef .tc main_arg9)) := by
  show StableHlo.after hostOps6 (W10 m ρ c) (Proc.devRef .tc main_v84) = _
  simp only [hostOps6]
  after_results_simp
  rw [W10_arg9_eq_W0]
  exact reshape_row _ _

theorem W11_v85 : W11 m ρ c (Proc.devRef .tc main_v85) = asRow (W0 m ρ c (Proc.devRef .tc main_arg16)) := by
  show StableHlo.after hostOps6 (W10 m ρ c) (Proc.devRef .tc main_v85) = _
  simp only [hostOps6]
  after_results_simp
  rw [W10_arg16_eq_W0]
  exact reshape_row _ _

end Cert.KernelIdeal.Host

end
-- ==== Proof.RegionLinear0.lean ====
/-
  Region 0: the dense half of a layer, written block by block.

  Each of the 20 grid points takes 5000 consecutive rows of the neighbour-mean array A and of the node features X
  (64 columns each), the two 64×128 weight matrices Wl and Wr whole, and the 1×128 bias row b whole, and writes the
  5000×128 block (A'·Wl + X'·Wr) + b of the same rows of the result. An entry of a matrix product depends on one
  row of its left operand, so that block is rows 5000·t … 5000·t + 4999 of (A·Wl + X·Wr) + b computed on the whole
  arrays; the 20 blocks tile the 100000 rows, so after the region the result array is that function of the arrays
  the region found. Everything is on the extended reals: narrowing a format is the identity, and a product
  accumulated into zeros is the exact sum over the contracted coordinate.
-/
import proofs.«109389_j1769526526168_1_alg».proof.Proof.Gen.KernelIdeal.Frame
import proofs.«109389_j1769526526168_1_alg».proof.Proof.LayerSpec
import proofs.«109389_j1769526526168_1_alg».proof.Proof.LibBlockReads
import Idealize.ShloMosaic.Lib.Pipeline.Value
import Idealize.ShloMosaic.Lib.ValueIdx

open scoped BigOperators

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.Sage Cert.Lib.BlockReads

variable (V : (c : Dev nD) → (b : Ref sig .tc) → Buf (Elt Ideal) ((c : Thread nD τ).loc b))

/-- The zero offsets of a rank-2 block, as a constant function. -/
theorem zero_offsets : (![0, 0] : Fin 2 → Nat) = fun _ => 0 := funext fun a => by fin_cases a <;> rfl

/-! ## The body's result at an entry of a block -/

/-- Entry (p, q) of the body's result: row p of the first block times column q of the first weight matrix, plus
    row p of the second block times column q of the second weight matrix, plus entry q of the bias row. -/
theorem pay_apply (x0 x1 : Vec Ideal S5000x64 .f32) (x2 x4 : Vec Ideal S64x128 .f32) (x3 : Vec Ideal S1x128 .f32)
    (p : Fin 5000) (q : Fin 128) :
    k0_pay1 (F := Ideal) x0 x1 x2 x4 x3 (ix2 p q)
      = ((∑ j : Fin 64, x0 (ix2 p j) * x2 (ix2 j q)) + ∑ j : Fin 64, x1 (ix2 p j) * x4 (ix2 j q)) + x3 (ix2 0 q) := by
  unfold k0_pay1
  show (matmul (F := Ideal) dot_S5000x64_S64x128_S5000x128_1_0_0_1_n_n none
          (truncf .bf16 (shapeCast S5000x64 x0 shapeCasts_S5000x64_S5000x64) bitsLt_bf16_f32) (truncf .bf16 x2 bitsLt_bf16_f32)
          (constant (F := Ideal) S5000x128 .f32 0x00000000#32) (ix2 p q)
      + matmul (F := Ideal) dot_S5000x64_S64x128_S5000x128_1_0_0_1_n_n none
          (truncf .bf16 x1 bitsLt_bf16_f32) (truncf .bf16 x4 bitsLt_bf16_f32)
          (constant (F := Ideal) S5000x128 .f32 0x00000000#32) (ix2 p q))
      + broadcastTo S5000x128 (shapeCast S1x128 x3 shapeCasts_S1x128_S1x128) broadcasts_S1x128_S5000x128 (ix2 p q) = _
  refine congrArg₂ (· + ·) (congrArg₂ (· + ·) ?_ ?_) ?_
  · refine (matmul_zero_rows_apply dot_S5000x64_S64x128_S5000x128_1_0_0_1_n_n rfl rfl rfl rfl rfl rfl none _ _ p q).trans ?_
    rw [shapeCast_self]
    rfl
  · exact matmul_zero_rows_apply dot_S5000x64_S64x128_S5000x128_1_0_0_1_n_n rfl rfl rfl rfl rfl rfl none _ _ p q
  · refine (broadcast_row_apply _ broadcasts_S1x128_S5000x128 p q).trans ?_
    rw [shapeCast_self]

/-- A block of the result is the same rows of the layer on the whole arrays: if the two row blocks hold rows
    o, o + 1, … of A and X, and the weight matrices and the bias row are whole, the body's result at an index y of
    the block is the layer at the index i of the array that sits o rows further down in the same column. -/
theorem block_eq (A X : Arr 100000 64) (Wl Wr : Arr 64 128) (b : Arr 1 128)
    (x0 x1 : Vec Ideal S5000x64 .f32) (x2 x4 : Vec Ideal S64x128 .f32) (x3 : Vec Ideal S1x128 .f32) (o : Nat)
    (h0 : ∀ (y : S5000x64.Idx) (i : S100000x64.Idx), (i 0).val = o + (y 0).val → (i 1).val = (y 1).val → x0 y = A i)
    (h1 : ∀ (y : S5000x64.Idx) (i : S100000x64.Idx), (i 0).val = o + (y 0).val → (i 1).val = (y 1).val → x1 y = X i)
    (h2 : x2 = Wl) (h4 : x4 = Wr) (h3 : x3 = b)
    (y : S5000x128.Idx) (i : S100000x128.Idx) (hrow : (i 0).val = o + (y 0).val) (hcol : (y 1).val = (i 1).val) :
    k0_pay1 (F := Ideal) x0 x1 x2 x4 x3 y = linear A X Wl Wr b i := by
  subst h2 h4 h3
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hqs : q = s := Fin.ext hcol
  subst hqs
  rw [pay_apply, linear_apply]
  refine congrArg₂ (· + ·) (congrArg₂ (· + ·) ?_ ?_) rfl
  · exact Finset.sum_congr rfl fun k _ => by rw [h0 (ix2 p k) (ix2 r k) hrow rfl]
  · exact Finset.sum_congr rfl fun k _ => by rw [h1 (ix2 p k) (ix2 r k) hrow rfl]

/-! ## The windows' blocks as parts of their arrays -/

/-- The windows' index maps over the grid: the two row-block inputs and the output are at block (t, 0); the weight
    matrices and the bias row are at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 5000·t … 5000·t + 4999 of its array. -/
theorem iblk_rows_0 (c : Dev nD) (t : Fin cfg0.N) (y : S5000x64.Idx) (i : S100000x64.Idx)
    (h0 : (i 0).val = 5000 * t.val + (y 0).val) (h1 : (i 1).val = (y 1).val) :
    (iblk0 V c 0 t : Vec Ideal S5000x64 .f32) y = (V c (Pipeline.arrRef spec0 0) : S100000x64.Idx → EReal) i := by
  obtain ⟨e0, e1, -⟩ := idx_facts t
  have key : (((cfg0.win 0).blk t).view.emb y : S100000x64.Idx) = i := by
    funext a
    apply Fin.ext
    match a with
    | ⟨0, _⟩ => show win0_0.index t (0 : Fin 2) * 5000 + 1 * (y 0).val = (i 0).val; rw [e0, h0]; omega
    | ⟨1, _⟩ => show win0_0.index t (1 : Fin 2) * 64 + 1 * (y 1).val = (i 1).val; rw [e1, h1]; omega
  unfold iblk0
  rw [View.read_apply]
  exact congrArg (V c (Pipeline.arrRef spec0 0) : S100000x64.Idx → EReal) key

/-- Window 1's block at point t is rows 5000·t … 5000·t + 4999 of its array. -/
theorem iblk_rows_1 (c : Dev nD) (t : Fin cfg0.N) (y : S5000x64.Idx) (i : S100000x64.Idx)
    (h0 : (i 0).val = 5000 * t.val + (y 0).val) (h1 : (i 1).val = (y 1).val) :
    (iblk0 V c 1 t : Vec Ideal S5000x64 .f32) y = (V c (Pipeline.arrRef spec0 1) : S100000x64.Idx → EReal) i := by
  obtain ⟨-, -, e0, e1, -⟩ := idx_facts t
  have key : (((cfg0.win 1).blk t).view.emb y : S100000x64.Idx) = i := by
    funext a
    apply Fin.ext
    match a with
    | ⟨0, _⟩ => show win0_1.index t (0 : Fin 2) * 5000 + 1 * (y 0).val = (i 0).val; rw [e0, h0]; omega
    | ⟨1, _⟩ => show win0_1.index t (1 : Fin 2) * 64 + 1 * (y 1).val = (i 1).val; rw [e1, h1]; omega
  unfold iblk0
  rw [View.read_apply]
  exact congrArg (V c (Pipeline.arrRef spec0 1) : S100000x64.Idx → EReal) key

/-- Window 2's block is its whole array at every point. -/
theorem iblk_whole_2 (c : Dev nD) (t : Fin cfg0.N) :
    (iblk0 V c 2 t : Vec Ideal S64x128 .f32) = (V c (Pipeline.arrRef spec0 2) : S64x128.Idx → EReal) := by
  obtain ⟨-, -, -, -, e0, e1, -⟩ := idx_facts t
  funext y
  have key : (((cfg0.win 2).blk t).view.emb y : S64x128.Idx) = y := by
    funext a
    apply Fin.ext
    match a with
    | ⟨0, _⟩ => show win0_2.index t (0 : Fin 2) * 64 + 1 * (y 0).val = (y 0).val; rw [e0]; omega
    | ⟨1, _⟩ => show win0_2.index t (1 : Fin 2) * 128 + 1 * (y 1).val = (y 1).val; rw [e1]; omega
  unfold iblk0
  rw [View.read_apply]
  exact congrArg (V c (Pipeline.arrRef spec0 2) : S64x128.Idx → EReal) key

/-- Window 3's block is its whole array at every point. -/
theorem iblk_whole_3 (c : Dev nD) (t : Fin cfg0.N) :
    (iblk0 V c 3 t : Vec Ideal S1x128 .f32) = (V c (Pipeline.arrRef spec0 3) : S1x128.Idx → EReal) := by
  obtain ⟨-, -, -, -, -, -, e0, e1, -⟩ := idx_facts t
  funext y
  have key : (((cfg0.win 3).blk t).view.emb y : S1x128.Idx) = y := by
    funext a
    apply Fin.ext
    match a with
    | ⟨0, _⟩ => show win0_3.index t (0 : Fin 2) * 1 + 1 * (y 0).val = (y 0).val; rw [e0]; omega
    | ⟨1, _⟩ => show win0_3.index t (1 : Fin 2) * 128 + 1 * (y 1).val = (y 1).val; rw [e1]; omega
  unfold iblk0
  rw [View.read_apply]
  exact congrArg (V c (Pipeline.arrRef spec0 3) : S1x128.Idx → EReal) key

/-- Window 4's block is its whole array at every point. -/
theorem iblk_whole_4 (c : Dev nD) (t : Fin cfg0.N) :
    (iblk0 V c 4 t : Vec Ideal S64x128 .f32) = (V c (Pipeline.arrRef spec0 4) : S64x128.Idx → EReal) := by
  obtain ⟨-, -, -, -, -, -, -, -, e0, e1, -⟩ := idx_facts t
  funext y
  have key : (((cfg0.win 4).blk t).view.emb y : S64x128.Idx) = y := by
    funext a
    apply Fin.ext
    match a with
    | ⟨0, _⟩ => show win0_4.index t (0 : Fin 2) * 64 + 1 * (y 0).val = (y 0).val; rw [e0]; omega
    | ⟨1, _⟩ => show win0_4.index t (1 : Fin 2) * 128 + 1 * (y 1).val = (y 1).val; rw [e1]; omega
  unfold iblk0
  rw [View.read_apply]
  exact congrArg (V c (Pipeline.arrRef spec0 4) : S64x128.Idx → EReal) key

/-! ## From blocks to the array -/

/-- The layer on the arrays the region finds. -/
abbrev result (c : Dev nD) : S100000x128.Idx → EReal :=
  linear (r := 100000) (k := 64) (n := 128) (V c (Pipeline.arrRef spec0 0)) (V c (Pipeline.arrRef spec0 1))
    (V c (Pipeline.arrRef spec0 2)) (V c (Pipeline.arrRef spec0 4)) (V c (Pipeline.arrRef spec0 3))

/-- What point t writes back is block t of the layer on the whole arrays. -/
theorem flushed_eq (c : Dev nD) (t : Fin cfg0.N) :
    (dat0 (F := Ideal) V c).flushed 5 t = ((cfg0.win 5).blk t).view.read (Elt Ideal) (result V c) := by
  show (cfg0.win 5).cut (grid0.coords t) ((dat0 (F := Ideal) V c).after 5 t) = _
  rw [after0_5]
  unfold out0_5
  rw [View.canon_unit_zero zero_offsets]
  simp only [View.ld_unit_zero (S := S5000x64) zero_offsets, View.ld_unit_zero (S := S64x128) zero_offsets,
    View.ld_unit_zero (S := S1x128) zero_offsets]
  obtain ⟨-, -, -, -, -, -, -, -, -, -, e0, e1⟩ := idx_facts t
  funext j
  show k0_pay1 (F := Ideal) (iblk0 V c 0 t) (iblk0 V c 1 t) (iblk0 V c 2 t) (iblk0 V c 4 t) (iblk0 V c 3 t)
      ((cfg0.win 5).xinj (grid0.coords t) j : S5000x128.Idx)
    = result V c ((((cfg0.win 5).blk t).view.emb j : S100000x128.Idx))
  refine block_eq _ _ _ _ _ (iblk0 V c 0 t) (iblk0 V c 1 t) (iblk0 V c 2 t) (iblk0 V c 4 t) (iblk0 V c 3 t)
    (5000 * t.val) (iblk_rows_0 V c t) (iblk_rows_1 V c t) (iblk_whole_2 V c t) (iblk_whole_4 V c t) (iblk_whole_3 V c t)
    _ _ ?_ ?_
  · show win0_5.index t (0 : Fin 2) * 5000 + 1 * (j 0).val = 5000 * t.val + (j 0).val
    rw [e0]; omega
  · show (j 1).val = win0_5.index t (1 : Fin 2) * 128 + 1 * (j 1).val
    rw [e1]; omega

/-- An index of the result array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v25).slice (win0_5.rect t)).set ↔ _
  rw [View.set_slice_whole, Rect.mem_set_unit]
  exact Iff.rfl

/-- Every index of the result array is in some point's block: row r is in the block of point r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- After the region the result array is the layer (A·Wl + X·Wr) + b of the arrays the region found. -/
theorem value (c : Dev nD) :
    (dat0 (F := Ideal) V c).arrAt 5 cfg0.N
      = Cert.Sage.linear (r := 100000) (k := 64) (n := 128) (V c (Pipeline.arrRef spec0 0)) (V c (Pipeline.arrRef spec0 1))
          (V c (Pipeline.arrRef spec0 2)) (V c (Pipeline.arrRef spec0 4)) (V c (Pipeline.arrRef spec0 3)) :=
  (dat0 (F := Ideal) V c).arrAt_eq_of_cover 5 (result V c) (fun t _ => flushed_eq V c t) cover

end Cert.KernelIdeal.Region0

end
-- ==== Proof.RegionStats1.lean ====
/-
  The first of the program's two moments kernels (region 1 of its 7): over a grid of 20 points, point t reads rows 5000·t … 5000·t + 4999 of a
  100000×128 array H and adds, into two 1×128 rows that stay in place from point to point, the column sums of its
  block and the column sums of the squares of its block; at point 0 both rows are set to zero first. The rows are
  written back once, after the last point. This module proves that at the ideal values (extended reals, where
  addition is commutative and associative and a lane reduction is the exact sum) the two result arrays are

      colSum H (0, q)   = ∑ p < 100000, H (p, q)        and        colSumSq H (0, q) = ∑ p < 100000, H (p, q)²,

  for any contents of the buffers when the region is entered and on any core.

  The steps: (1) what each of the two control cases leaves in each row is the payload of its last store — of the
  input block and the zero row at point 0, of the input block and the row's previous contents afterwards; (2) read
  at column q, that payload is the previous entry plus ∑ over the block's 5000 rows (of the entry, or of its square);
  (3) the block's entry (r, q) is H (5000·t + r, q), so with column q of H written as a function of the row number the
  block's sum is the sum over the range 5000·t … 5000·t + 4999; (4) by induction on the point, after point n the rows
  hold the sums over the rows below 5000·(n+1), since a sum over the first 5000·(n+1) naturals is the sum over the
  first 5000·n plus the sum over the next 5000; (5) after point 19 that is the sum over all 100000 rows, and the one
  write-back, whose block is the whole 1×128 array, puts it in the result array.
-/
import proofs.«109389_j1769526526168_1_alg».proof.Proof.Gen.KernelIdeal.Frame
import proofs.«109389_j1769526526168_1_alg».proof.Proof.LayerSpec
import Idealize.ShloMosaic.Lib.Pipeline.Value
import Idealize.ShloMosaic.Lib.Tactic
import Idealize.ShloMosaic.PureOps.Reduce
import proofs.«109389_j1769526526168_1_alg».proof.Proof.LibRowReductions
import proofs.«109389_j1769526526168_1_alg».proof.Proof.LibRowVector

noncomputable section

open Idealize.ShloMosaic Idealize.ShloMosaic.TcCoe Idealize.SL.Sem
open Idealize.ShloMosaic.Pipeline (Dat)
open scoped BigOperators

namespace Cert.KernelIdeal.Region1

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-! ## What each control case leaves in each output row: the payload of its last store -/

/-- CASE B, output 1: in a staging buffer holding xo1 the body leaves its one covering store's payload, computed from
    the whole input block x and xo1. -/
theorem out_B_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S5000x128) hz,
    View.ld_unit_zero (S := S1x128) hz]

/-- CASE B, output 2. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S5000x128) hz,
    View.ld_unit_zero (S := S1x128) hz]

/-- CASE A, output 1: the body first stores the zero row, reads it back, and leaves the last store's payload of the
    input block x and that zero row. -/
theorem out_A_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-- CASE A, output 2. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-! ## The lane reduction and the sums over row blocks -/

/-- The column index q with row k put back is (k, q). -/
theorem lift_col {a b : Nat} (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext ax; apply Fin.ext
  match ax with
  | ⟨0, _⟩ => rfl
  | ⟨1, _⟩ => rfl

/-- The sum along the rows of an a×b block is at q the sum over p of the block at (p, q). -/
theorem colsum_apply {a b : Nat} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (q : Fin b) :
    multiReduction .add [0] ⟨1, ![b]⟩ src acc h hφ hacc (ix1 q) = ∑ p : Fin a, src (ix2 p q) := by
  rw [Ideal.multiReduction_add_single]
  exact Finset.sum_congr rfl fun k _ => congrArg src (lift_col h q k)

/-- A sum over the first B·(n+1) naturals is the sum over the first B·n plus the sum over the next B. -/
theorem sum_range_block_succ {M : Type*} [AddCommMonoid M] (g : ℕ → M) (B n : ℕ) :
    ∑ p ∈ Finset.range (B * (n + 1)), g p
      = ∑ p ∈ Finset.range (B * n), g p + ∑ r ∈ Finset.range B, g (B * n + r) := by
  rw [Nat.mul_succ, Finset.sum_range_add]

/-! ## The payloads at an index, at the ideal values -/

theorem pay4_apply (x : Vec Ideal S5000x128 .f32) (xo : Vec Ideal S1x128 .f32) (q : Fin 128) :
    k1_pay4 (F := Ideal) x xo (ix2 0 q) = xo (ix2 0 q) + ∑ p : Fin 5000, x (ix2 p q) := by
  unfold k1_pay4 k1_pay3
  refine (addf_apply _ _ _).trans ?_
  refine congrArg₂ (· + ·) ?_ ?_
  · exact congrFun (shapeCast_self xo _) _
  · refine (Cert.Lib.RowReductions.shapeCast_rowvec_apply _ _ q).trans ?_
    refine (colsum_apply _ _ _ _ _ q).trans ?_
    exact Finset.sum_congr rfl fun p _ => congrFun (shapeCast_self x _) _

theorem pay5_apply (x : Vec Ideal S5000x128 .f32) (xo : Vec Ideal S1x128 .f32) (q : Fin 128) :
    k1_pay5 (F := Ideal) x xo (ix2 0 q) = xo (ix2 0 q) + ∑ p : Fin 5000, x (ix2 p q) * x (ix2 p q) := by
  unfold k1_pay5 k1_pay3
  refine (addf_apply _ _ _).trans ?_
  refine congrArg₂ (· + ·) ?_ ?_
  · exact congrFun (shapeCast_self xo _) _
  · refine (Cert.Lib.RowReductions.shapeCast_rowvec_apply _ _ q).trans ?_
    refine (colsum_apply _ _ _ _ _ q).trans ?_
    refine Finset.sum_congr rfl fun p _ => ?_
    refine (mulf_apply _ _ _).trans ?_
    rw [shapeCast_self]

theorem pay1_apply (i : S1x128.Idx) : k1_pay1 (F := Ideal) i = 0 := by
  unfold k1_pay1
  exact Ideal.ofBits_zero_f32

theorem pay2_apply (i : S1x128.Idx) : k1_pay2 (F := Ideal) i = 0 := by
  unfold k1_pay2
  exact Ideal.ofBits_zero_f32

/-! ## The input block at a point -/

section AtIdeal

variable (V : (c : Dev nD) → (b : Ref sig .tc) → Buf (Elt Ideal) ((c : Thread nD τ).loc b))

/-- The index map of the input window: point t reads row block t, column block 0 — decided once over the grid. -/
theorem index_in : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The input block at point t, as a 5000×128 array of extended reals. -/
abbrev blk (c : Dev nD) (t : Fin cfg1.N) : Vec Ideal S5000x128 .f32 := iblk1 V c 0 t

/-- The input block at point t is rows 5000·t … 5000·t + 4999 of the input array. -/
theorem iblk_apply (c : Dev nD) (t : Fin cfg1.N) (r : Fin 5000) (q : Fin 128) (hr : 5000 * t.val + r.val < 100000) :
    blk V c t (ix2 r q)
      = (V c (Pipeline.arrRef spec1 0) : Vec Ideal S100000x128 .f32) (ix2 ⟨5000 * t.val + r.val, hr⟩ q) := by
  have hi := index_in t
  unfold blk iblk1
  rw [View.read_apply]
  show V c (Pipeline.arrRef spec1 0) (((cfg1.win 0).blk t).view.emb (ix2 r q)) = _
  refine congrArg (V c (Pipeline.arrRef spec1 0)) (funext fun a => Fin.ext ?_)
  match a with
  | ⟨0, _⟩ => show win1_0.index t 0 * 5000 + 1 * r.val = 5000 * t.val + r.val; rw [hi.1]; omega
  | ⟨1, _⟩ => show win1_0.index t 1 * 128 + 1 * q.val = q.val; rw [hi.2]; omega

/-- Column q of the input array as a function of the row number (zero past the last row). -/
def colFn (c : Dev nD) (q : Fin 128) : ℕ → EReal := fun p =>
  if h : p < 100000 then (V c (Pipeline.arrRef spec1 0) : Vec Ideal S100000x128 .f32) (ix2 ⟨p, h⟩ q) else 0

/-- Any entrywise function summed down column q of the block at point t is that function summed over rows
    5000·t … 5000·t + 4999 of column q of the array. -/
theorem block_sum (φ : EReal → EReal) (c : Dev nD) (t : Fin cfg1.N) (q : Fin 128) :
    ∑ r : Fin 5000, φ (blk V c t (ix2 r q))
      = ∑ r ∈ Finset.range 5000, φ (colFn V c q (5000 * t.val + r)) := by
  have hN : t.val < 20 := lt_of_lt_of_eq t.isLt (show cfg1.N = 20 from N_1)
  rw [Finset.sum_range (fun r => φ (colFn V c q (5000 * t.val + r)))]
  refine Finset.sum_congr rfl fun r _ => congrArg φ ?_
  have hr : 5000 * t.val + r.val < 100000 := by have := r.isLt; omega
  refine (iblk_apply V c t r q hr).trans ?_
  unfold colFn
  rw [dif_pos hr]

/-- Summed over all 100000 row numbers, the column function is the sum down the column of the array. -/
theorem sum_colFn (φ : EReal → EReal) (c : Dev nD) (q : Fin 128) :
    ∑ p ∈ Finset.range 100000, φ (colFn V c q p)
      = ∑ p : Fin 100000, φ ((V c (Pipeline.arrRef spec1 0) : Vec Ideal S100000x128 .f32) (ix2 p q)) := by
  rw [Finset.sum_range (fun p => φ (colFn V c q p))]
  refine Finset.sum_congr rfl fun p _ => congrArg φ ?_
  unfold colFn
  rw [dif_pos p.isLt]

/-! ## What each case leaves, at an index -/

theorem caseA_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec Ideal S5000x128 .f32) (q : Fin 128) :
    out1_A_1 c i a1 h1 a2 h2 a3 h3 hc x (ix2 0 q) = ∑ p : Fin 5000, x (ix2 p q) := by
  rw [out_A_1, pay4_apply, pay1_apply, zero_add]

theorem caseA_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec Ideal S5000x128 .f32) (q : Fin 128) :
    out1_A_2 c i a1 h1 a2 h2 a3 h3 hc x (ix2 0 q) = ∑ p : Fin 5000, x (ix2 p q) * x (ix2 p q) := by
  rw [out_A_2, pay5_apply, pay2_apply, zero_add]

theorem caseB_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec Ideal S5000x128 .f32) (xo1 xo2 : Vec Ideal S1x128 .f32) (q : Fin 128) :
    out1_B_1 c i a1 h1 a2 h2 a3 h3 hc x xo1 xo2 (ix2 0 q) = xo1 (ix2 0 q) + ∑ p : Fin 5000, x (ix2 p q) := by
  rw [out_B_1, pay4_apply]

theorem caseB_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec Ideal S5000x128 .f32) (xo1 xo2 : Vec Ideal S1x128 .f32) (q : Fin 128) :
    out1_B_2 c i a1 h1 a2 h2 a3 h3 hc x xo1 xo2 (ix2 0 q)
      = xo2 (ix2 0 q) + ∑ p : Fin 5000, x (ix2 p q) * x (ix2 p q) := by
  rw [out_B_2, pay5_apply]

/-! ## The running sums, point by point -/

/-- After the first point the outputs hold the block's column sums and column sums of squares. -/
theorem step_A (c : Dev nD) (t : Fin cfg1.N) (h0 : t.val % 20 = 0) (q : Fin 128) :
    (outsAt1 V c t.val t.isLt).1 (ix2 0 q)
        = ∑ r : Fin 5000, blk V c t (ix2 r q)
    ∧ (outsAt1 V c t.val t.isLt).2 (ix2 0 q)
        = ∑ r : Fin 5000, blk V c t (ix2 r q)
            * blk V c t (ix2 r q) := by
  rw [outsAt1_A V c t h0]
  exact ⟨caseA_1 c (grid1.coords t) (ms1_0 t) (hs1_0 t) (ms1_1 t) (hs1_1 t) (ms1_2 t) (hs1_2 t)
      ((hcond1_0 t).mpr h0) (iblk1 V c 0 t) q,
    caseA_2 c (grid1.coords t) (ms1_0 t) (hs1_0 t) (ms1_1 t) (hs1_1 t) (ms1_2 t) (hs1_2 t)
      ((hcond1_0 t).mpr h0) (iblk1 V c 0 t) q⟩

/-- After any later point the outputs hold what the point before left plus the block's column sums. -/
theorem step_B (c : Dev nD) (t : Fin cfg1.N) (h0 : ¬t.val % 20 = 0) (q : Fin 128) :
    (outsAt1 V c t.val t.isLt).1 (ix2 0 q)
        = (outsAt1 V c (t.val - 1) (Nat.lt_of_le_of_lt (Nat.sub_le _ _) t.isLt)).1 (ix2 0 q)
          + ∑ r : Fin 5000, blk V c t (ix2 r q)
    ∧ (outsAt1 V c t.val t.isLt).2 (ix2 0 q)
        = (outsAt1 V c (t.val - 1) (Nat.lt_of_le_of_lt (Nat.sub_le _ _) t.isLt)).2 (ix2 0 q)
          + ∑ r : Fin 5000, blk V c t (ix2 r q)
              * blk V c t (ix2 r q) := by
  rw [outsAt1_B V c t h0]
  exact ⟨caseB_1 c (grid1.coords t) (ms1_0 t) (hs1_0 t) (ms1_1 t) (hs1_1 t) (ms1_2 t) (hs1_2 t)
      (fun h => h0 ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2 q,
    caseB_2 c (grid1.coords t) (ms1_0 t) (hs1_0 t) (ms1_1 t) (hs1_1 t) (ms1_2 t) (hs1_2 t)
      (fun h => h0 ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2 q⟩

/-- THE INVARIANT: after point n the outputs hold, per column, the sums over the rows below 5000·(n+1) of the
    entries and of their squares — by induction on the point. -/
theorem outsAt_eq (c : Dev nD) (q : Fin 128) : ∀ (n : ℕ) (h : n < cfg1.N),
    (outsAt1 V c n h).1 (ix2 0 q) = ∑ p ∈ Finset.range (5000 * (n + 1)), colFn V c q p
    ∧ (outsAt1 V c n h).2 (ix2 0 q)
        = ∑ p ∈ Finset.range (5000 * (n + 1)), colFn V c q p * colFn V c q p
  | 0, h => by
    obtain ⟨e1, e2⟩ := step_A V c ⟨0, h⟩ rfl q
    refine ⟨e1.trans ?_, e2.trans ?_⟩
    · rw [block_sum V (fun x => x) c ⟨0, h⟩ q]
      simp only [Nat.mul_zero, Nat.zero_add, Nat.mul_one]
    · rw [block_sum V (fun x => x * x) c ⟨0, h⟩ q]
      simp only [Nat.mul_zero, Nat.zero_add, Nat.mul_one]
  | n + 1, h => by
    have hN : cfg1.N = 20 := N_1
    have hB : ¬(⟨n + 1, h⟩ : Fin cfg1.N).val % 20 = 0 := by dsimp only; omega
    obtain ⟨e1, e2⟩ := step_B V c ⟨n + 1, h⟩ hB q
    obtain ⟨i1, i2⟩ := outsAt_eq c q n (Nat.lt_of_succ_lt h)
    refine ⟨e1.trans ?_, e2.trans ?_⟩
    · show (outsAt1 V c n _).1 (ix2 0 q) + _ = _
      rw [i1, block_sum V (fun x => x) c ⟨n + 1, h⟩ q, sum_range_block_succ (colFn V c q) 5000 (n + 1)]
    · show (outsAt1 V c n _).2 (ix2 0 q) + _ = _
      rw [i2, block_sum V (fun x => x * x) c ⟨n + 1, h⟩ q,
        sum_range_block_succ (fun p => colFn V c q p * colFn V c q p) 5000 (n + 1)]

end AtIdeal

/-! ## The result arrays -/

section Final

variable (V : (c : Dev nD) → (b : Ref sig .tc) → Buf (Elt Ideal) ((c : Thread nD τ).loc b))

theorem lt19 : 19 < cfg1.N := by rw [show cfg1.N = 20 from N_1]; decide

/-- After the last point output 1 holds the column sums of the whole input array, -/
theorem last_1 (c : Dev nD) :
    (outsAt1 V c 19 lt19).1 = Cert.Sage.colSum (V c (Pipeline.arrRef spec1 0)) := by
  funext i
  obtain ⟨q, rfl⟩ : ∃ q : Fin 128, i = ix2 0 q := ⟨i 1, Cert.Lib.RowVector.idx_row i⟩
  refine ((outsAt_eq V c q 19 lt19).1).trans ?_
  rw [show 5000 * (19 + 1) = 100000 from rfl]
  exact sum_colFn V (fun x => x) c q

/-- and output 2 the column sums of its squares. -/
theorem last_2 (c : Dev nD) :
    (outsAt1 V c 19 lt19).2 = Cert.Sage.colSumSq (V c (Pipeline.arrRef spec1 0)) := by
  funext i
  obtain ⟨q, rfl⟩ : ∃ q : Fin 128, i = ix2 0 q := ⟨i 1, Cert.Lib.RowVector.idx_row i⟩
  refine ((outsAt_eq V c q 19 lt19).2).trans ?_
  rw [show 5000 * (19 + 1) = 100000 from rfl]
  exact sum_colFn V (fun x => x * x) c q

/-- The one write-back of output 1, at the last point, writes the column sums: the window's block (0, 0) of the
    1×128 array, read through zero offsets, is the array. -/
theorem flushed_1 (c : Dev nD) (t : Fin cfg1.N) (hf : (cfg1.win 1).flush t = true) :
    (dat1 V c).flushed 1 t
      = ((cfg1.win 1).blk t).view.read (Elt Ideal) (Cert.Sage.colSum (V c (Pipeline.arrRef spec1 0))) := by
  have hN : cfg1.N = 20 := N_1
  have h19 : t.val = 19 := by have := (flush1_1 t).mp hf; have := t.isLt; omega
  obtain rfl : t = ⟨19, lt19⟩ := Fin.ext h19
  show (cfg1.win 1).cut (grid1.coords ⟨19, lt19⟩) ((dat1 V c).after 1 ⟨19, lt19⟩) = _
  rw [after1_1]
  show (cfg1.win 1).cut (grid1.coords ⟨19, lt19⟩) (outsAt1 V c 19 lt19).1 = _
  rw [last_1 V c]
  have hz' : (fun a => win1_1.index ⟨19, lt19⟩ a * main_v26_0.ty.shape.size a) = fun _ => 0 :=
    funext fun a => by fin_cases a <;> decide
  exact (Memref.read_access_unit_zero (Elt Ideal) main_v26_0 hz' (fun a => by rw [congrFun hz' a]; simp)
    (Cert.Sage.colSum (V c (Pipeline.arrRef spec1 0)))).symm

theorem flushed_2 (c : Dev nD) (t : Fin cfg1.N) (hf : (cfg1.win 2).flush t = true) :
    (dat1 V c).flushed 2 t
      = ((cfg1.win 2).blk t).view.read (Elt Ideal) (Cert.Sage.colSumSq (V c (Pipeline.arrRef spec1 0))) := by
  have hN : cfg1.N = 20 := N_1
  have h19 : t.val = 19 := by have := (flush1_2 t).mp hf; have := t.isLt; omega
  obtain rfl : t = ⟨19, lt19⟩ := Fin.ext h19
  show (cfg1.win 2).cut (grid1.coords ⟨19, lt19⟩) ((dat1 V c).after 2 ⟨19, lt19⟩) = _
  rw [after1_2]
  show (cfg1.win 2).cut (grid1.coords ⟨19, lt19⟩) (outsAt1 V c 19 lt19).2 = _
  rw [last_2 V c]
  have hz' : (fun a => win1_2.index ⟨19, lt19⟩ a * main_v26_1.ty.shape.size a) = fun _ => 0 :=
    funext fun a => by fin_cases a <;> decide
  exact (Memref.read_access_unit_zero (Elt Ideal) main_v26_1 hz' (fun a => by rw [congrFun hz' a]; simp)
    (Cert.Sage.colSumSq (V c (Pipeline.arrRef spec1 0)))).symm

/-- The last point's block of output 1 is the whole 1×128 array. -/
theorem cover_1 (c : Dev nD) (i : ((cfg1.win 1).arr.view.loc (c.tc : Thread nD τ)).2.ty.Idx) :
    ∃ t : Fin cfg1.N, (cfg1.win 1).flush t = true ∧ i ∈ ((cfg1.win 1).blk t).view.set := by
  refine ⟨⟨19, lt19⟩, (flush1_1 ⟨19, lt19⟩).mpr rfl, ?_⟩
  show i ∈ ((View.whole main_v26_0).slice (win1_1.rect ⟨19, lt19⟩)).set
  rw [View.set_slice_whole, Rect.mem_set_unit]
  intro a
  have h0 : (i 0 : Nat) < 1 := (i 0).isLt
  have h1 : (i 1 : Nat) < 128 := (i 1).isLt
  match a with
  | ⟨0, _⟩ =>
    show win1_1.index ⟨19, lt19⟩ 0 * win1_1.size 0 ≤ (i 0 : Nat)
      ∧ (i 0 : Nat) < win1_1.index ⟨19, lt19⟩ 0 * win1_1.size 0 + win1_1.xsize (grid1.coords ⟨19, lt19⟩) 0
    rw [show win1_1.index ⟨19, lt19⟩ 0 * win1_1.size 0 = 0 from by decide +kernel,
      show win1_1.xsize (grid1.coords ⟨19, lt19⟩) 0 = 1 from by decide +kernel]; omega
  | ⟨1, _⟩ =>
    show win1_1.index ⟨19, lt19⟩ 1 * win1_1.size 1 ≤ (i 1 : Nat)
      ∧ (i 1 : Nat) < win1_1.index ⟨19, lt19⟩ 1 * win1_1.size 1 + win1_1.xsize (grid1.coords ⟨19, lt19⟩) 1
    rw [show win1_1.index ⟨19, lt19⟩ 1 * win1_1.size 1 = 0 from by decide +kernel,
      show win1_1.xsize (grid1.coords ⟨19, lt19⟩) 1 = 128 from by decide +kernel]; omega

/-- The last point's block of output 2 is the whole 1×128 array. -/
theorem cover_2 (c : Dev nD) (i : ((cfg1.win 2).arr.view.loc (c.tc : Thread nD τ)).2.ty.Idx) :
    ∃ t : Fin cfg1.N, (cfg1.win 2).flush t = true ∧ i ∈ ((cfg1.win 2).blk t).view.set := by
  refine ⟨⟨19, lt19⟩, (flush1_2 ⟨19, lt19⟩).mpr rfl, ?_⟩
  show i ∈ ((View.whole main_v26_1).slice (win1_2.rect ⟨19, lt19⟩)).set
  rw [View.set_slice_whole, Rect.mem_set_unit]
  intro a
  have h0 : (i 0 : Nat) < 1 := (i 0).isLt
  have h1 : (i 1 : Nat) < 128 := (i 1).isLt
  match a with
  | ⟨0, _⟩ =>
    show win1_2.index ⟨19, lt19⟩ 0 * win1_2.size 0 ≤ (i 0 : Nat)
      ∧ (i 0 : Nat) < win1_2.index ⟨19, lt19⟩ 0 * win1_2.size 0 + win1_2.xsize (grid1.coords ⟨19, lt19⟩) 0
    rw [show win1_2.index ⟨19, lt19⟩ 0 * win1_2.size 0 = 0 from by decide +kernel,
      show win1_2.xsize (grid1.coords ⟨19, lt19⟩) 0 = 1 from by decide +kernel]; omega
  | ⟨1, _⟩ =>
    show win1_2.index ⟨19, lt19⟩ 1 * win1_2.size 1 ≤ (i 1 : Nat)
      ∧ (i 1 : Nat) < win1_2.index ⟨19, lt19⟩ 1 * win1_2.size 1 + win1_2.xsize (grid1.coords ⟨19, lt19⟩) 1
    rw [show win1_2.index ⟨19, lt19⟩ 1 * win1_2.size 1 = 0 from by decide +kernel,
      show win1_2.xsize (grid1.coords ⟨19, lt19⟩) 1 = 128 from by decide +kernel]; omega

/-- THE RESULT, output 1: the region leaves in its first result array the column sums of its input array. -/
theorem value_sum (c : Dev nD) :
    (Gen.dat1 (F := Ideal) V c).arrAt 1 cfg1.N = Cert.Sage.colSum (V c (Pipeline.arrRef spec1 0)) :=
  (dat1 V c).arrAt_eq_of_cover 1 (Cert.Sage.colSum (V c (Pipeline.arrRef spec1 0))) (flushed_1 V c) (cover_1 c)

/-- THE RESULT, output 2: and in its second result array the column sums of the squares. -/
theorem value_sumsq (c : Dev nD) :
    (Gen.dat1 (F := Ideal) V c).arrAt 2 cfg1.N = Cert.Sage.colSumSq (V c (Pipeline.arrRef spec1 0)) :=
  (dat1 V c).arrAt_eq_of_cover 2 (Cert.Sage.colSumSq (V c (Pipeline.arrRef spec1 0))) (flushed_2 V c) (cover_2 c)

end Final

end Cert.KernelIdeal.Region1

end
-- ==== Proof.RegionBnAct2.lean ====
/-
  The scale-shift-and-clamp region 2 of the program, read as a whole-array function on the extended reals.

  The region runs over 20 grid points. Point t stages rows 5000·t … 5000·t + 4999 of the 100000×128 array H (window 0),
  the whole 1×128 rows of scales and of shifts (windows 1 and 2, whose block index is 0 at every point), and writes
  back rows 5000·t … 5000·t + 4999 of the result (window 3). The body multiplies each entry of the block by its
  column's scale, adds its column's shift and takes the maximum with zero. An entry of the result therefore depends
  on one entry of H and on its column's scale and shift only, so the block written at point t is block t of the one
  function (p, q) ↦ max (H(p, q) · scale(q) + shift(q)) 0 of the arrays as the region finds them; the 20 blocks tile
  the array (row r lies in the block of point r / 5000), so the array ends holding that function.
-/
import proofs.«109389_j1769526526168_1_alg».proof.Proof.Gen.KernelIdeal.Frame
import proofs.«109389_j1769526526168_1_alg».proof.Proof.LayerSpec
import proofs.«109389_j1769526526168_1_alg».proof.Proof.LibBlockReads
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The body's result at row p and column q of the block: the block's entry times the scale of column q, plus the
    shift of column q, clamped below at zero (the zero splat is the extended real 0). -/
theorem pay_apply (x0 : Vec Ideal S5000x128 .f32) (x1 x2 : Vec Ideal S1x128 .f32) (p : Fin 5000) (q : Fin 128) :
    k2_pay1 (F := Ideal) x0 x1 x2 (ix2 p q) = max (x0 (ix2 p q) * x1 (ix2 0 q) + x2 (ix2 0 q)) 0 := by
  unfold k2_pay1
  rw [maximumf_apply, addf_apply, mulf_apply, shapeCast_self, shapeCast_self, shapeCast_self,
    Cert.Lib.BlockReads.broadcast_row_apply, Cert.Lib.BlockReads.broadcast_row_apply, broadcast_apply]
  show max _ (Ideal.ofBits .f32 0x00000000#32) = _
  rw [Ideal.ofBits_zero_f32]

/-- The body's result at an index y of the block is the whole-array function at an index i of the array, when the
    block of H holds at y what H holds at i, the staged scale and shift rows are the whole rows, and y and i have
    the same column. -/
theorem pay_eq_spec (x0 : Vec Ideal S5000x128 .f32) (x1 x2 : Vec Ideal S1x128 .f32)
    (H : Cert.Sage.Arr 100000 128) (sc sh : Cert.Sage.Arr 1 128) (y : S5000x128.Idx) (i : S100000x128.Idx)
    (h0 : x0 y = H i) (h1 : x1 = sc) (h2 : x2 = sh) (hcol : (y 1).val = (i 1).val) :
    k2_pay1 (F := Ideal) x0 x1 x2 y = Cert.Sage.scaleShiftRelu H sc sh i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hqs : q = s := Fin.ext hcol
  subst hqs h1 h2
  rw [pay_apply, Cert.Sage.scaleShiftRelu_apply, h0]

/-! ## From the blocks to the array -/

variable (V : (c : Dev nD) → (b : Ref sig .tc) → Buf (Elt Ideal) ((c : Thread nD τ).loc b))

/-- The zero offset of a rank-2 rectangle, as a constant function. -/
theorem zero_offset : (![0, 0] : Fin 2 → Nat) = fun _ => 0 := funext fun a => by fin_cases a <;> rfl

/-- The windows' block indices at each of the 20 points (decided): the block of H and the result's block are block t
    of their rows and the only block of their columns; the scale and shift rows are always block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the result array ends holding: the scale, shift and clamp of the arrays as the region finds them. -/
abbrev result (c : Dev nD) : S100000x128.Idx → EReal :=
  Cert.Sage.scaleShiftRelu (V c (Pipeline.arrRef spec2 0) : S100000x128.Idx → EReal)
    (V c (Pipeline.arrRef spec2 1) : S1x128.Idx → EReal) (V c (Pipeline.arrRef spec2 2) : S1x128.Idx → EReal)

/-- What point t writes back is block t of `result`: the staged block of H sits in H at the same rows as the
    result's block sits in the result, and the staged scale and shift rows are the whole rows. -/
theorem flushed_eq (c : Dev nD) (t : Fin cfg2.N) :
    (dat2 (F := Ideal) V c).flushed 3 t = ((cfg2.win 3).blk t).view.read (Elt Ideal) (result V c) := by
  show (cfg2.win 3).cut (grid2.coords t) ((dat2 V c).after 3 t) = _
  rw [after2_3]
  unfold out2_3
  rw [View.canon_unit_zero zero_offset]
  simp only [View.ld_unit_zero (S := S5000x128) zero_offset, View.ld_unit_zero (S := S1x128) zero_offset]
  obtain ⟨e00, e01, e10, e11, e20, e21, e30, e31⟩ := block_indices t
  funext j
  refine pay_eq_spec (iblk2 V c 0 t) (iblk2 V c 1 t) (iblk2 V c 2 t) (V c (Pipeline.arrRef spec2 0))
    (V c (Pipeline.arrRef spec2 1)) (V c (Pipeline.arrRef spec2 2))
    ((win2 3).xinj (grid2.coords t) j) (((cfg2.win 3).blk t).view.emb j) ?_ ?_ ?_ ?_
  · show (V c (Pipeline.arrRef spec2 0) : S100000x128.Idx → EReal) (((cfg2.win 0).blk t).view.emb _) = _
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * (j 1).val = win2_3.index t (1 : Fin 2) * 128 + 1 * (j 1).val; omega
  · funext x
    show (V c (Pipeline.arrRef spec2 1) : S1x128.Idx → EReal) (((cfg2.win 1).blk t).view.emb x) = _
    refine congrArg _ (funext fun a => Fin.ext ?_)
    match a with
    | ⟨0, _⟩ => show win2_1.index t (0 : Fin 2) * 1 + 1 * (x 0).val = (x 0).val; omega
    | ⟨1, _⟩ => show win2_1.index t (1 : Fin 2) * 128 + 1 * (x 1).val = (x 1).val; omega
  · funext x
    show (V c (Pipeline.arrRef spec2 2) : S1x128.Idx → EReal) (((cfg2.win 2).blk t).view.emb x) = _
    refine congrArg _ (funext fun a => Fin.ext ?_)
    match a with
    | ⟨0, _⟩ => show win2_2.index t (0 : Fin 2) * 1 + 1 * (x 0).val = (x 0).val; omega
    | ⟨1, _⟩ => show win2_2.index t (1 : Fin 2) * 128 + 1 * (x 1).val = (x 1).val; omega
  · show (j 1).val = win2_3.index t (1 : Fin 2) * 128 + 1 * (j 1).val; omega

/-- An index of the array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v41).slice (win2_3.rect t)).set ↔ _
  rw [View.set_slice_whole, Rect.mem_set_unit]
  exact Iff.rfl

/-- Every index of the array is in some point's block: row r is in the block of point r / 5000. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, e30, e31⟩ := block_indices ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    omega

/-- The result array after the region: the scale, shift and clamp of the arrays as the region finds them. -/
theorem value (c : Dev nD) : (dat2 (F := Ideal) V c).arrAt 3 cfg2.N
    = Cert.Sage.scaleShiftRelu (V c (Pipeline.arrRef spec2 0) : S100000x128.Idx → EReal)
        (V c (Pipeline.arrRef spec2 1) : S1x128.Idx → EReal) (V c (Pipeline.arrRef spec2 2) : S1x128.Idx → EReal) :=
  (dat2 V c).arrAt_eq_of_cover 3 (result V c) (fun t _ => flushed_eq V c t) (cover)

end Cert.KernelIdeal.Region2

end
-- ==== Proof.RegionLinear3.lean ====
/-
  Region 3: the dense half of a layer, written block by block.

  Each of the 20 grid points takes 5000 consecutive rows of the neighbour-mean array A and of the node features X
  (128 columns each), the two 128×128 weight matrices Wl and Wr whole, and the 1×128 bias row b whole, and writes the
  5000×128 block (A'·Wl + X'·Wr) + b of the same rows of the result. An entry of a matrix product depends on one
  row of its left operand, so that block is rows 5000·t … 5000·t + 4999 of (A·Wl + X·Wr) + b computed on the whole
  arrays; the 20 blocks tile the 100000 rows, so after the region the result array is that function of the arrays
  the region found. Everything is on the extended reals: narrowing a format is the identity, and a product
  accumulated into zeros is the exact sum over the contracted coordinate.
-/
import proofs.«109389_j1769526526168_1_alg».proof.Proof.Gen.KernelIdeal.Frame
import proofs.«109389_j1769526526168_1_alg».proof.Proof.LayerSpec
import proofs.«109389_j1769526526168_1_alg».proof.Proof.LibBlockReads
import Idealize.ShloMosaic.Lib.Pipeline.Value
import Idealize.ShloMosaic.Lib.ValueIdx

open scoped BigOperators

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)
open Cert.Sage Cert.Lib.BlockReads

variable (V : (c : Dev nD) → (b : Ref sig .tc) → Buf (Elt Ideal) ((c : Thread nD τ).loc b))

/-- The zero offsets of a rank-2 block, as a constant function. -/
theorem zero_offsets : (![0, 0] : Fin 2 → Nat) = fun _ => 0 := funext fun a => by fin_cases a <;> rfl

/-! ## The body's result at an entry of a block -/

/-- Entry (p, q) of the body's result: row p of the first block times column q of the first weight matrix, plus
    row p of the second block times column q of the second weight matrix, plus entry q of the bias row. -/
theorem pay_apply (x0 x1 : Vec Ideal S5000x128 .f32) (x2 x4 : Vec Ideal S128x128 .f32) (x3 : Vec Ideal S1x128 .f32)
    (p : Fin 5000) (q : Fin 128) :
    k3_pay1 (F := Ideal) x0 x1 x2 x4 x3 (ix2 p q)
      = ((∑ j : Fin 128, x0 (ix2 p j) * x2 (ix2 j q)) + ∑ j : Fin 128, x1 (ix2 p j) * x4 (ix2 j q)) + x3 (ix2 0 q) := by
  unfold k3_pay1
  show (matmul (F := Ideal) dot_S5000x128_S128x128_S5000x128_1_0_0_1_n_n none
          (truncf .bf16 (shapeCast S5000x128 x0 shapeCasts_S5000x128_S5000x128) bitsLt_bf16_f32) (truncf .bf16 x2 bitsLt_bf16_f32)
          (constant (F := Ideal) S5000x128 .f32 0x00000000#32) (ix2 p q)
      + matmul (F := Ideal) dot_S5000x128_S128x128_S5000x128_1_0_0_1_n_n none
          (truncf .bf16 (shapeCast S5000x128 x1 shapeCasts_S5000x128_S5000x128) bitsLt_bf16_f32) (truncf .bf16 x4 bitsLt_bf16_f32)
          (constant (F := Ideal) S5000x128 .f32 0x00000000#32) (ix2 p q))
      + broadcastTo S5000x128 (shapeCast S1x128 x3 shapeCasts_S1x128_S1x128) broadcasts_S1x128_S5000x128 (ix2 p q) = _
  refine congrArg₂ (· + ·) (congrArg₂ (· + ·) ?_ ?_) ?_
  · refine (matmul_zero_rows_apply dot_S5000x128_S128x128_S5000x128_1_0_0_1_n_n rfl rfl rfl rfl rfl rfl none _ _ p q).trans ?_
    rw [shapeCast_self]
    rfl
  · refine (matmul_zero_rows_apply dot_S5000x128_S128x128_S5000x128_1_0_0_1_n_n rfl rfl rfl rfl rfl rfl none _ _ p q).trans ?_
    rw [shapeCast_self]
    rfl
  · refine (broadcast_row_apply _ broadcasts_S1x128_S5000x128 p q).trans ?_
    rw [shapeCast_self]

/-- A block of the result is the same rows of the layer on the whole arrays: if the two row blocks hold rows
    o, o + 1, … of A and X, and the weight matrices and the bias row are whole, the body's result at an index y of
    the block is the layer at the index i of the array that sits o rows further down in the same column. -/
theorem block_eq (A X : Arr 100000 128) (Wl Wr : Arr 128 128) (b : Arr 1 128)
    (x0 x1 : Vec Ideal S5000x128 .f32) (x2 x4 : Vec Ideal S128x128 .f32) (x3 : Vec Ideal S1x128 .f32) (o : Nat)
    (h0 : ∀ (y : S5000x128.Idx) (i : S100000x128.Idx), (i 0).val = o + (y 0).val → (i 1).val = (y 1).val → x0 y = A i)
    (h1 : ∀ (y : S5000x128.Idx) (i : S100000x128.Idx), (i 0).val = o + (y 0).val → (i 1).val = (y 1).val → x1 y = X i)
    (h2 : x2 = Wl) (h4 : x4 = Wr) (h3 : x3 = b)
    (y : S5000x128.Idx) (i : S100000x128.Idx) (hrow : (i 0).val = o + (y 0).val) (hcol : (y 1).val = (i 1).val) :
    k3_pay1 (F := Ideal) x0 x1 x2 x4 x3 y = linear A X Wl Wr b i := by
  subst h2 h4 h3
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hqs : q = s := Fin.ext hcol
  subst hqs
  rw [pay_apply, linear_apply]
  refine congrArg₂ (· + ·) (congrArg₂ (· + ·) ?_ ?_) rfl
  · exact Finset.sum_congr rfl fun k _ => by rw [h0 (ix2 p k) (ix2 r k) hrow rfl]
  · exact Finset.sum_congr rfl fun k _ => by rw [h1 (ix2 p k) (ix2 r k) hrow rfl]

/-! ## The windows' blocks as parts of their arrays -/

/-- The windows' index maps over the grid: the two row-block inputs and the output are at block (t, 0); the weight
    matrices and the bias row are at block (0, 0) at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point t is rows 5000·t … 5000·t + 4999 of its array. -/
theorem iblk_rows_0 (c : Dev nD) (t : Fin cfg3.N) (y : S5000x128.Idx) (i : S100000x128.Idx)
    (h0 : (i 0).val = 5000 * t.val + (y 0).val) (h1 : (i 1).val = (y 1).val) :
    (iblk3 V c 0 t : Vec Ideal S5000x128 .f32) y = (V c (Pipeline.arrRef spec3 0) : S100000x128.Idx → EReal) i := by
  obtain ⟨e0, e1, -⟩ := idx_facts t
  have key : (((cfg3.win 0).blk t).view.emb y : S100000x128.Idx) = i := by
    funext a
    apply Fin.ext
    match a with
    | ⟨0, _⟩ => show win3_0.index t (0 : Fin 2) * 5000 + 1 * (y 0).val = (i 0).val; rw [e0, h0]; omega
    | ⟨1, _⟩ => show win3_0.index t (1 : Fin 2) * 128 + 1 * (y 1).val = (i 1).val; rw [e1, h1]; omega
  unfold iblk3
  rw [View.read_apply]
  exact congrArg (V c (Pipeline.arrRef spec3 0) : S100000x128.Idx → EReal) key

/-- Window 1's block at point t is rows 5000·t … 5000·t + 4999 of its array. -/
theorem iblk_rows_1 (c : Dev nD) (t : Fin cfg3.N) (y : S5000x128.Idx) (i : S100000x128.Idx)
    (h0 : (i 0).val = 5000 * t.val + (y 0).val) (h1 : (i 1).val = (y 1).val) :
    (iblk3 V c 1 t : Vec Ideal S5000x128 .f32) y = (V c (Pipeline.arrRef spec3 1) : S100000x128.Idx → EReal) i := by
  obtain ⟨-, -, e0, e1, -⟩ := idx_facts t
  have key : (((cfg3.win 1).blk t).view.emb y : S100000x128.Idx) = i := by
    funext a
    apply Fin.ext
    match a with
    | ⟨0, _⟩ => show win3_1.index t (0 : Fin 2) * 5000 + 1 * (y 0).val = (i 0).val; rw [e0, h0]; omega
    | ⟨1, _⟩ => show win3_1.index t (1 : Fin 2) * 128 + 1 * (y 1).val = (i 1).val; rw [e1, h1]; omega
  unfold iblk3
  rw [View.read_apply]
  exact congrArg (V c (Pipeline.arrRef spec3 1) : S100000x128.Idx → EReal) key

/-- Window 2's block is its whole array at every point. -/
theorem iblk_whole_2 (c : Dev nD) (t : Fin cfg3.N) :
    (iblk3 V c 2 t : Vec Ideal S128x128 .f32) = (V c (Pipeline.arrRef spec3 2) : S128x128.Idx → EReal) := by
  obtain ⟨-, -, -, -, e0, e1, -⟩ := idx_facts t
  funext y
  have key : (((cfg3.win 2).blk t).view.emb y : S128x128.Idx) = y := by
    funext a
    apply Fin.ext
    match a with
    | ⟨0, _⟩ => show win3_2.index t (0 : Fin 2) * 128 + 1 * (y 0).val = (y 0).val; rw [e0]; omega
    | ⟨1, _⟩ => show win3_2.index t (1 : Fin 2) * 128 + 1 * (y 1).val = (y 1).val; rw [e1]; omega
  unfold iblk3
  rw [View.read_apply]
  exact congrArg (V c (Pipeline.arrRef spec3 2) : S128x128.Idx → EReal) key

/-- Window 3's block is its whole array at every point. -/
theorem iblk_whole_3 (c : Dev nD) (t : Fin cfg3.N) :
    (iblk3 V c 3 t : Vec Ideal S1x128 .f32) = (V c (Pipeline.arrRef spec3 3) : S1x128.Idx → EReal) := by
  obtain ⟨-, -, -, -, -, -, e0, e1, -⟩ := idx_facts t
  funext y
  have key : (((cfg3.win 3).blk t).view.emb y : S1x128.Idx) = y := by
    funext a
    apply Fin.ext
    match a with
    | ⟨0, _⟩ => show win3_3.index t (0 : Fin 2) * 1 + 1 * (y 0).val = (y 0).val; rw [e0]; omega
    | ⟨1, _⟩ => show win3_3.index t (1 : Fin 2) * 128 + 1 * (y 1).val = (y 1).val; rw [e1]; omega
  unfold iblk3
  rw [View.read_apply]
  exact congrArg (V c (Pipeline.arrRef spec3 3) : S1x128.Idx → EReal) key

/-- Window 4's block is its whole array at every point. -/
theorem iblk_whole_4 (c : Dev nD) (t : Fin cfg3.N) :
    (iblk3 V c 4 t : Vec Ideal S128x128 .f32) = (V c (Pipeline.arrRef spec3 4) : S128x128.Idx → EReal) := by
  obtain ⟨-, -, -, -, -, -, -, -, e0, e1, -⟩ := idx_facts t
  funext y
  have key : (((cfg3.win 4).blk t).view.emb y : S128x128.Idx) = y := by
    funext a
    apply Fin.ext
    match a with
    | ⟨0, _⟩ => show win3_4.index t (0 : Fin 2) * 128 + 1 * (y 0).val = (y 0).val; rw [e0]; omega
    | ⟨1, _⟩ => show win3_4.index t (1 : Fin 2) * 128 + 1 * (y 1).val = (y 1).val; rw [e1]; omega
  unfold iblk3
  rw [View.read_apply]
  exact congrArg (V c (Pipeline.arrRef spec3 4) : S128x128.Idx → EReal) key

/-! ## From blocks to the array -/

/-- The layer on the arrays the region finds. -/
abbrev result (c : Dev nD) : S100000x128.Idx → EReal :=
  linear (r := 100000) (k := 128) (n := 128) (V c (Pipeline.arrRef spec3 0)) (V c (Pipeline.arrRef spec3 1))
    (V c (Pipeline.arrRef spec3 2)) (V c (Pipeline.arrRef spec3 4)) (V c (Pipeline.arrRef spec3 3))

/-- What point t writes back is block t of the layer on the whole arrays. -/
theorem flushed_eq (c : Dev nD) (t : Fin cfg3.N) :
    (dat3 (F := Ideal) V c).flushed 5 t = ((cfg3.win 5).blk t).view.read (Elt Ideal) (result V c) := by
  show (cfg3.win 5).cut (grid3.coords t) ((dat3 (F := Ideal) V c).after 5 t) = _
  rw [after3_5]
  unfold out3_5
  rw [View.canon_unit_zero zero_offsets]
  simp only [View.ld_unit_zero (S := S5000x128) zero_offsets, View.ld_unit_zero (S := S128x128) zero_offsets,
    View.ld_unit_zero (S := S1x128) zero_offsets]
  obtain ⟨-, -, -, -, -, -, -, -, -, -, e0, e1⟩ := idx_facts t
  funext j
  show k3_pay1 (F := Ideal) (iblk3 V c 0 t) (iblk3 V c 1 t) (iblk3 V c 2 t) (iblk3 V c 4 t) (iblk3 V c 3 t)
      ((cfg3.win 5).xinj (grid3.coords t) j : S5000x128.Idx)
    = result V c ((((cfg3.win 5).blk t).view.emb j : S100000x128.Idx))
  refine block_eq _ _ _ _ _ (iblk3 V c 0 t) (iblk3 V c 1 t) (iblk3 V c 2 t) (iblk3 V c 4 t) (iblk3 V c 3 t)
    (5000 * t.val) (iblk_rows_0 V c t) (iblk_rows_1 V c t) (iblk_whole_2 V c t) (iblk_whole_4 V c t) (iblk_whole_3 V c t)
    _ _ ?_ ?_
  · show win3_5.index t (0 : Fin 2) * 5000 + 1 * (j 0).val = 5000 * t.val + (j 0).val
    rw [e0]; omega
  · show (j 1).val = win3_5.index t (1 : Fin 2) * 128 + 1 * (j 1).val
    rw [e1]; omega

/-- An index of the result array is in point t's block iff each coordinate is in the block's range on its axis. -/
theorem mem_blk (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v55).slice (win3_5.rect t)).set ↔ _
  rw [View.set_slice_whole, Rect.mem_set_unit]
  exact Iff.rfl

/-- Every index of the result array is in some point's block: row r is in the block of point r / 5000. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, -, -, -, e0, e1⟩ := idx_facts t
  refine ⟨t, flush3_5 t, ?_⟩
  rw [mem_blk]
  intro a
  match a with
  | ⟨0, _⟩ =>
    show win3_5.index t (0 : Fin 2) * 5000 ≤ (i 0).val ∧ (i 0).val < win3_5.index t (0 : Fin 2) * 5000 + 5000
    rw [e0, ht]; omega
  | ⟨1, _⟩ =>
    show win3_5.index t (1 : Fin 2) * 128 ≤ (i 1).val ∧ (i 1).val < win3_5.index t (1 : Fin 2) * 128 + 128
    rw [e1]; omega

/-- After the region the result array is the layer (A·Wl + X·Wr) + b of the arrays the region found. -/
theorem value (c : Dev nD) :
    (dat3 (F := Ideal) V c).arrAt 5 cfg3.N
      = Cert.Sage.linear (r := 100000) (k := 128) (n := 128) (V c (Pipeline.arrRef spec3 0)) (V c (Pipeline.arrRef spec3 1))
          (V c (Pipeline.arrRef spec3 2)) (V c (Pipeline.arrRef spec3 4)) (V c (Pipeline.arrRef spec3 3)) :=
  (dat3 (F := Ideal) V c).arrAt_eq_of_cover 5 (result V c) (fun t _ => flushed_eq V c t) cover

end Cert.KernelIdeal.Region3

end
-- ==== Proof.RegionStats4.lean ====
/-
  The second of the program's two moments kernels (region 4 of its 7): over a grid of 20 points, point t reads rows 5000·t … 5000·t + 4999 of a
  100000×128 array H and adds, into two 1×128 rows that stay in place from point to point, the column sums of its
  block and the column sums of the squares of its block; at point 0 both rows are set to zero first. The rows are
  written back once, after the last point. This module proves that at the ideal values (extended reals, where
  addition is commutative and associative and a lane reduction is the exact sum) the two result arrays are

      colSum H (0, q)   = ∑ p < 100000, H (p, q)        and        colSumSq H (0, q) = ∑ p < 100000, H (p, q)²,

  for any contents of the buffers when the region is entered and on any core.

  The steps: (1) what each of the two control cases leaves in each row is the payload of its last store — of the
  input block and the zero row at point 0, of the input block and the row's previous contents afterwards; (2) read
  at column q, that payload is the previous entry plus ∑ over the block's 5000 rows (of the entry, or of its square);
  (3) the block's entry (r, q) is H (5000·t + r, q), so with column q of H written as a function of the row number the
  block's sum is the sum over the range 5000·t … 5000·t + 4999; (4) by induction on the point, after point n the rows
  hold the sums over the rows below 5000·(n+1), since a sum over the first 5000·(n+1) naturals is the sum over the
  first 5000·n plus the sum over the next 5000; (5) after point 19 that is the sum over all 100000 rows, and the one
  write-back, whose block is the whole 1×128 array, puts it in the result array.
-/
import proofs.«109389_j1769526526168_1_alg».proof.Proof.Gen.KernelIdeal.Frame
import proofs.«109389_j1769526526168_1_alg».proof.Proof.LayerSpec
import Idealize.ShloMosaic.Lib.Pipeline.Value
import Idealize.ShloMosaic.Lib.Tactic
import Idealize.ShloMosaic.PureOps.Reduce
import proofs.«109389_j1769526526168_1_alg».proof.Proof.LibRowReductions
import proofs.«109389_j1769526526168_1_alg».proof.Proof.LibRowVector

noncomputable section

open Idealize.ShloMosaic Idealize.ShloMosaic.TcCoe Idealize.SL.Sem
open Idealize.ShloMosaic.Pipeline (Dat)
open scoped BigOperators

namespace Cert.KernelIdeal.Region4

open Cert.KernelIdeal Cert.KernelIdeal.Gen Idealize.ShloMosaic.ValueIdx

variable {F : FTy → Type} [FloatOps F]

theorem hz : (![0, 0] : Fin 2 → Nat) = fun _ => 0 := funext fun a => by fin_cases a <;> rfl

/-! ## What each control case leaves in each output row: the payload of its last store -/

/-- CASE B, output 1: in a staging buffer holding xo1 the body leaves its one covering store's payload, computed from
    the whole input block x and xo1. -/
theorem out_B_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz]
  simp only [View.readAt_eq_ld, h1.read_unread, h2.read_unread, View.ld_unit_zero (S := S5000x128) hz,
    View.ld_unit_zero (S := S1x128) hz]

/-- CASE B, output 2. -/
theorem out_B_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz]
  simp only [View.readAt_eq_ld, h1.read_unread, h3.read_unread, View.ld_unit_zero (S := S5000x128) hz,
    View.ld_unit_zero (S := S1x128) hz]

/-- CASE A, output 1: the body first stores the zero row, reads it back, and leaves the last store's payload of the
    input block x and that zero row. -/
theorem out_A_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_1 c i a1 h1 a2 h2 a3 h3 hc x = k4_pay4 x (k4_pay1 (F := F)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

/-- CASE A, output 2. -/
theorem out_A_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_2 c i a1 h1 a2 h2 a3 h3 hc x = k4_pay5 x (k4_pay2 (F := F)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

/-! ## The lane reduction and the sums over row blocks -/

/-- The column index q with row k put back is (k, q). -/
theorem lift_col {a b : Nat} (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext ax; apply Fin.ext
  match ax with
  | ⟨0, _⟩ => rfl
  | ⟨1, _⟩ => rfl

/-- The sum along the rows of an a×b block is at q the sum over p of the block at (p, q). -/
theorem colsum_apply {a b : Nat} {φ : FTy} (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (q : Fin b) :
    multiReduction .add [0] ⟨1, ![b]⟩ src acc h hφ hacc (ix1 q) = ∑ p : Fin a, src (ix2 p q) := by
  rw [Ideal.multiReduction_add_single]
  exact Finset.sum_congr rfl fun k _ => congrArg src (lift_col h q k)

/-- A sum over the first B·(n+1) naturals is the sum over the first B·n plus the sum over the next B. -/
theorem sum_range_block_succ {M : Type*} [AddCommMonoid M] (g : ℕ → M) (B n : ℕ) :
    ∑ p ∈ Finset.range (B * (n + 1)), g p
      = ∑ p ∈ Finset.range (B * n), g p + ∑ r ∈ Finset.range B, g (B * n + r) := by
  rw [Nat.mul_succ, Finset.sum_range_add]

/-! ## The payloads at an index, at the ideal values -/

theorem pay4_apply (x : Vec Ideal S5000x128 .f32) (xo : Vec Ideal S1x128 .f32) (q : Fin 128) :
    k4_pay4 (F := Ideal) x xo (ix2 0 q) = xo (ix2 0 q) + ∑ p : Fin 5000, x (ix2 p q) := by
  unfold k4_pay4 k4_pay3
  refine (addf_apply _ _ _).trans ?_
  refine congrArg₂ (· + ·) ?_ ?_
  · exact congrFun (shapeCast_self xo _) _
  · refine (Cert.Lib.RowReductions.shapeCast_rowvec_apply _ _ q).trans ?_
    refine (colsum_apply _ _ _ _ _ q).trans ?_
    exact Finset.sum_congr rfl fun p _ => congrFun (shapeCast_self x _) _

theorem pay5_apply (x : Vec Ideal S5000x128 .f32) (xo : Vec Ideal S1x128 .f32) (q : Fin 128) :
    k4_pay5 (F := Ideal) x xo (ix2 0 q) = xo (ix2 0 q) + ∑ p : Fin 5000, x (ix2 p q) * x (ix2 p q) := by
  unfold k4_pay5 k4_pay3
  refine (addf_apply _ _ _).trans ?_
  refine congrArg₂ (· + ·) ?_ ?_
  · exact congrFun (shapeCast_self xo _) _
  · refine (Cert.Lib.RowReductions.shapeCast_rowvec_apply _ _ q).trans ?_
    refine (colsum_apply _ _ _ _ _ q).trans ?_
    refine Finset.sum_congr rfl fun p _ => ?_
    refine (mulf_apply _ _ _).trans ?_
    rw [shapeCast_self]

theorem pay1_apply (i : S1x128.Idx) : k4_pay1 (F := Ideal) i = 0 := by
  unfold k4_pay1
  exact Ideal.ofBits_zero_f32

theorem pay2_apply (i : S1x128.Idx) : k4_pay2 (F := Ideal) i = 0 := by
  unfold k4_pay2
  exact Ideal.ofBits_zero_f32

/-! ## The input block at a point -/

section AtIdeal

variable (V : (c : Dev nD) → (b : Ref sig .tc) → Buf (Elt Ideal) ((c : Thread nD τ).loc b))

/-- The index map of the input window: point t reads row block t, column block 0 — decided once over the grid. -/
theorem index_in : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- The input block at point t, as a 5000×128 array of extended reals. -/
abbrev blk (c : Dev nD) (t : Fin cfg4.N) : Vec Ideal S5000x128 .f32 := iblk4 V c 0 t

/-- The input block at point t is rows 5000·t … 5000·t + 4999 of the input array. -/
theorem iblk_apply (c : Dev nD) (t : Fin cfg4.N) (r : Fin 5000) (q : Fin 128) (hr : 5000 * t.val + r.val < 100000) :
    blk V c t (ix2 r q)
      = (V c (Pipeline.arrRef spec4 0) : Vec Ideal S100000x128 .f32) (ix2 ⟨5000 * t.val + r.val, hr⟩ q) := by
  have hi := index_in t
  unfold blk iblk4
  rw [View.read_apply]
  show V c (Pipeline.arrRef spec4 0) (((cfg4.win 0).blk t).view.emb (ix2 r q)) = _
  refine congrArg (V c (Pipeline.arrRef spec4 0)) (funext fun a => Fin.ext ?_)
  match a with
  | ⟨0, _⟩ => show win4_0.index t 0 * 5000 + 1 * r.val = 5000 * t.val + r.val; rw [hi.1]; omega
  | ⟨1, _⟩ => show win4_0.index t 1 * 128 + 1 * q.val = q.val; rw [hi.2]; omega

/-- Column q of the input array as a function of the row number (zero past the last row). -/
def colFn (c : Dev nD) (q : Fin 128) : ℕ → EReal := fun p =>
  if h : p < 100000 then (V c (Pipeline.arrRef spec4 0) : Vec Ideal S100000x128 .f32) (ix2 ⟨p, h⟩ q) else 0

/-- Any entrywise function summed down column q of the block at point t is that function summed over rows
    5000·t … 5000·t + 4999 of column q of the array. -/
theorem block_sum (φ : EReal → EReal) (c : Dev nD) (t : Fin cfg4.N) (q : Fin 128) :
    ∑ r : Fin 5000, φ (blk V c t (ix2 r q))
      = ∑ r ∈ Finset.range 5000, φ (colFn V c q (5000 * t.val + r)) := by
  have hN : t.val < 20 := lt_of_lt_of_eq t.isLt (show cfg4.N = 20 from N_4)
  rw [Finset.sum_range (fun r => φ (colFn V c q (5000 * t.val + r)))]
  refine Finset.sum_congr rfl fun r _ => congrArg φ ?_
  have hr : 5000 * t.val + r.val < 100000 := by have := r.isLt; omega
  refine (iblk_apply V c t r q hr).trans ?_
  unfold colFn
  rw [dif_pos hr]

/-- Summed over all 100000 row numbers, the column function is the sum down the column of the array. -/
theorem sum_colFn (φ : EReal → EReal) (c : Dev nD) (q : Fin 128) :
    ∑ p ∈ Finset.range 100000, φ (colFn V c q p)
      = ∑ p : Fin 100000, φ ((V c (Pipeline.arrRef spec4 0) : Vec Ideal S100000x128 .f32) (ix2 p q)) := by
  rw [Finset.sum_range (fun p => φ (colFn V c q p))]
  refine Finset.sum_congr rfl fun p _ => congrArg φ ?_
  unfold colFn
  rw [dif_pos p.isLt]

/-! ## What each case leaves, at an index -/

theorem caseA_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec Ideal S5000x128 .f32) (q : Fin 128) :
    out4_A_1 c i a1 h1 a2 h2 a3 h3 hc x (ix2 0 q) = ∑ p : Fin 5000, x (ix2 p q) := by
  rw [out_A_1, pay4_apply, pay1_apply, zero_add]

theorem caseA_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec Ideal S5000x128 .f32) (q : Fin 128) :
    out4_A_2 c i a1 h1 a2 h2 a3 h3 hc x (ix2 0 q) = ∑ p : Fin 5000, x (ix2 p q) * x (ix2 p q) := by
  rw [out_A_2, pay5_apply, pay2_apply, zero_add]

theorem caseB_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec Ideal S5000x128 .f32) (xo1 xo2 : Vec Ideal S1x128 .f32) (q : Fin 128) :
    out4_B_1 c i a1 h1 a2 h2 a3 h3 hc x xo1 xo2 (ix2 0 q) = xo1 (ix2 0 q) + ∑ p : Fin 5000, x (ix2 p q) := by
  rw [out_B_1, pay4_apply]

theorem caseB_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec Ideal S5000x128 .f32) (xo1 xo2 : Vec Ideal S1x128 .f32) (q : Fin 128) :
    out4_B_2 c i a1 h1 a2 h2 a3 h3 hc x xo1 xo2 (ix2 0 q)
      = xo2 (ix2 0 q) + ∑ p : Fin 5000, x (ix2 p q) * x (ix2 p q) := by
  rw [out_B_2, pay5_apply]

/-! ## The running sums, point by point -/

/-- After the first point the outputs hold the block's column sums and column sums of squares. -/
theorem step_A (c : Dev nD) (t : Fin cfg4.N) (h0 : t.val % 20 = 0) (q : Fin 128) :
    (outsAt4 V c t.val t.isLt).1 (ix2 0 q)
        = ∑ r : Fin 5000, blk V c t (ix2 r q)
    ∧ (outsAt4 V c t.val t.isLt).2 (ix2 0 q)
        = ∑ r : Fin 5000, blk V c t (ix2 r q)
            * blk V c t (ix2 r q) := by
  rw [outsAt4_A V c t h0]
  exact ⟨caseA_1 c (grid4.coords t) (ms4_0 t) (hs4_0 t) (ms4_1 t) (hs4_1 t) (ms4_2 t) (hs4_2 t)
      ((hcond4_0 t).mpr h0) (iblk4 V c 0 t) q,
    caseA_2 c (grid4.coords t) (ms4_0 t) (hs4_0 t) (ms4_1 t) (hs4_1 t) (ms4_2 t) (hs4_2 t)
      ((hcond4_0 t).mpr h0) (iblk4 V c 0 t) q⟩

/-- After any later point the outputs hold what the point before left plus the block's column sums. -/
theorem step_B (c : Dev nD) (t : Fin cfg4.N) (h0 : ¬t.val % 20 = 0) (q : Fin 128) :
    (outsAt4 V c t.val t.isLt).1 (ix2 0 q)
        = (outsAt4 V c (t.val - 1) (Nat.lt_of_le_of_lt (Nat.sub_le _ _) t.isLt)).1 (ix2 0 q)
          + ∑ r : Fin 5000, blk V c t (ix2 r q)
    ∧ (outsAt4 V c t.val t.isLt).2 (ix2 0 q)
        = (outsAt4 V c (t.val - 1) (Nat.lt_of_le_of_lt (Nat.sub_le _ _) t.isLt)).2 (ix2 0 q)
          + ∑ r : Fin 5000, blk V c t (ix2 r q)
              * blk V c t (ix2 r q) := by
  rw [outsAt4_B V c t h0]
  exact ⟨caseB_1 c (grid4.coords t) (ms4_0 t) (hs4_0 t) (ms4_1 t) (hs4_1 t) (ms4_2 t) (hs4_2 t)
      (fun h => h0 ((hcond4_0 t).mp h)) (iblk4 V c 0 t)
      (outsAt4 V c (t.val - 1) (Nat.lt_of_le_of_lt (Nat.sub_le _ _) t.isLt)).1
      (outsAt4 V c (t.val - 1) (Nat.lt_of_le_of_lt (Nat.sub_le _ _) t.isLt)).2 q,
    caseB_2 c (grid4.coords t) (ms4_0 t) (hs4_0 t) (ms4_1 t) (hs4_1 t) (ms4_2 t) (hs4_2 t)
      (fun h => h0 ((hcond4_0 t).mp h)) (iblk4 V c 0 t)
      (outsAt4 V c (t.val - 1) (Nat.lt_of_le_of_lt (Nat.sub_le _ _) t.isLt)).1
      (outsAt4 V c (t.val - 1) (Nat.lt_of_le_of_lt (Nat.sub_le _ _) t.isLt)).2 q⟩

/-- THE INVARIANT: after point n the outputs hold, per column, the sums over the rows below 5000·(n+1) of the
    entries and of their squares — by induction on the point. -/
theorem outsAt_eq (c : Dev nD) (q : Fin 128) : ∀ (n : ℕ) (h : n < cfg4.N),
    (outsAt4 V c n h).1 (ix2 0 q) = ∑ p ∈ Finset.range (5000 * (n + 1)), colFn V c q p
    ∧ (outsAt4 V c n h).2 (ix2 0 q)
        = ∑ p ∈ Finset.range (5000 * (n + 1)), colFn V c q p * colFn V c q p
  | 0, h => by
    obtain ⟨e1, e2⟩ := step_A V c ⟨0, h⟩ rfl q
    refine ⟨e1.trans ?_, e2.trans ?_⟩
    · rw [block_sum V (fun x => x) c ⟨0, h⟩ q]
      simp only [Nat.mul_zero, Nat.zero_add, Nat.mul_one]
    · rw [block_sum V (fun x => x * x) c ⟨0, h⟩ q]
      simp only [Nat.mul_zero, Nat.zero_add, Nat.mul_one]
  | n + 1, h => by
    have hN : cfg4.N = 20 := N_4
    have hB : ¬(⟨n + 1, h⟩ : Fin cfg4.N).val % 20 = 0 := by dsimp only; omega
    obtain ⟨e1, e2⟩ := step_B V c ⟨n + 1, h⟩ hB q
    obtain ⟨i1, i2⟩ := outsAt_eq c q n (Nat.lt_of_succ_lt h)
    refine ⟨e1.trans ?_, e2.trans ?_⟩
    · show (outsAt4 V c n _).1 (ix2 0 q) + _ = _
      rw [i1, block_sum V (fun x => x) c ⟨n + 1, h⟩ q, sum_range_block_succ (colFn V c q) 5000 (n + 1)]
    · show (outsAt4 V c n _).2 (ix2 0 q) + _ = _
      rw [i2, block_sum V (fun x => x * x) c ⟨n + 1, h⟩ q,
        sum_range_block_succ (fun p => colFn V c q p * colFn V c q p) 5000 (n + 1)]

end AtIdeal

/-! ## The result arrays -/

section Final

variable (V : (c : Dev nD) → (b : Ref sig .tc) → Buf (Elt Ideal) ((c : Thread nD τ).loc b))

theorem lt19 : 19 < cfg4.N := by rw [show cfg4.N = 20 from N_4]; decide

/-- After the last point output 1 holds the column sums of the whole input array, -/
theorem last_1 (c : Dev nD) :
    (outsAt4 V c 19 lt19).1 = Cert.Sage.colSum (V c (Pipeline.arrRef spec4 0)) := by
  funext i
  obtain ⟨q, rfl⟩ : ∃ q : Fin 128, i = ix2 0 q := ⟨i 1, Cert.Lib.RowVector.idx_row i⟩
  refine ((outsAt_eq V c q 19 lt19).1).trans ?_
  rw [show 5000 * (19 + 1) = 100000 from rfl]
  exact sum_colFn V (fun x => x) c q

/-- and output 2 the column sums of its squares. -/
theorem last_2 (c : Dev nD) :
    (outsAt4 V c 19 lt19).2 = Cert.Sage.colSumSq (V c (Pipeline.arrRef spec4 0)) := by
  funext i
  obtain ⟨q, rfl⟩ : ∃ q : Fin 128, i = ix2 0 q := ⟨i 1, Cert.Lib.RowVector.idx_row i⟩
  refine ((outsAt_eq V c q 19 lt19).2).trans ?_
  rw [show 5000 * (19 + 1) = 100000 from rfl]
  exact sum_colFn V (fun x => x * x) c q

/-- The one write-back of output 1, at the last point, writes the column sums: the window's block (0, 0) of the
    1×128 array, read through zero offsets, is the array. -/
theorem flushed_1 (c : Dev nD) (t : Fin cfg4.N) (hf : (cfg4.win 1).flush t = true) :
    (dat4 V c).flushed 1 t
      = ((cfg4.win 1).blk t).view.read (Elt Ideal) (Cert.Sage.colSum (V c (Pipeline.arrRef spec4 0))) := by
  have hN : cfg4.N = 20 := N_4
  have h19 : t.val = 19 := by have := (flush4_1 t).mp hf; have := t.isLt; omega
  obtain rfl : t = ⟨19, lt19⟩ := Fin.ext h19
  show (cfg4.win 1).cut (grid4.coords ⟨19, lt19⟩) ((dat4 V c).after 1 ⟨19, lt19⟩) = _
  rw [after4_1]
  show (cfg4.win 1).cut (grid4.coords ⟨19, lt19⟩) (outsAt4 V c 19 lt19).1 = _
  rw [last_1 V c]
  have hz' : (fun a => win4_1.index ⟨19, lt19⟩ a * main_v56_0.ty.shape.size a) = fun _ => 0 :=
    funext fun a => by fin_cases a <;> decide
  exact (Memref.read_access_unit_zero (Elt Ideal) main_v56_0 hz' (fun a => by rw [congrFun hz' a]; simp)
    (Cert.Sage.colSum (V c (Pipeline.arrRef spec4 0)))).symm

theorem flushed_2 (c : Dev nD) (t : Fin cfg4.N) (hf : (cfg4.win 2).flush t = true) :
    (dat4 V c).flushed 2 t
      = ((cfg4.win 2).blk t).view.read (Elt Ideal) (Cert.Sage.colSumSq (V c (Pipeline.arrRef spec4 0))) := by
  have hN : cfg4.N = 20 := N_4
  have h19 : t.val = 19 := by have := (flush4_2 t).mp hf; have := t.isLt; omega
  obtain rfl : t = ⟨19, lt19⟩ := Fin.ext h19
  show (cfg4.win 2).cut (grid4.coords ⟨19, lt19⟩) ((dat4 V c).after 2 ⟨19, lt19⟩) = _
  rw [after4_2]
  show (cfg4.win 2).cut (grid4.coords ⟨19, lt19⟩) (outsAt4 V c 19 lt19).2 = _
  rw [last_2 V c]
  have hz' : (fun a => win4_2.index ⟨19, lt19⟩ a * main_v56_1.ty.shape.size a) = fun _ => 0 :=
    funext fun a => by fin_cases a <;> decide
  exact (Memref.read_access_unit_zero (Elt Ideal) main_v56_1 hz' (fun a => by rw [congrFun hz' a]; simp)
    (Cert.Sage.colSumSq (V c (Pipeline.arrRef spec4 0)))).symm

/-- The last point's block of output 1 is the whole 1×128 array. -/
theorem cover_1 (c : Dev nD) (i : ((cfg4.win 1).arr.view.loc (c.tc : Thread nD τ)).2.ty.Idx) :
    ∃ t : Fin cfg4.N, (cfg4.win 1).flush t = true ∧ i ∈ ((cfg4.win 1).blk t).view.set := by
  refine ⟨⟨19, lt19⟩, (flush4_1 ⟨19, lt19⟩).mpr rfl, ?_⟩
  show i ∈ ((View.whole main_v56_0).slice (win4_1.rect ⟨19, lt19⟩)).set
  rw [View.set_slice_whole, Rect.mem_set_unit]
  intro a
  have h0 : (i 0 : Nat) < 1 := (i 0).isLt
  have h1 : (i 1 : Nat) < 128 := (i 1).isLt
  match a with
  | ⟨0, _⟩ =>
    show win4_1.index ⟨19, lt19⟩ 0 * win4_1.size 0 ≤ (i 0 : Nat)
      ∧ (i 0 : Nat) < win4_1.index ⟨19, lt19⟩ 0 * win4_1.size 0 + win4_1.xsize (grid4.coords ⟨19, lt19⟩) 0
    rw [show win4_1.index ⟨19, lt19⟩ 0 * win4_1.size 0 = 0 from by decide +kernel,
      show win4_1.xsize (grid4.coords ⟨19, lt19⟩) 0 = 1 from by decide +kernel]; omega
  | ⟨1, _⟩ =>
    show win4_1.index ⟨19, lt19⟩ 1 * win4_1.size 1 ≤ (i 1 : Nat)
      ∧ (i 1 : Nat) < win4_1.index ⟨19, lt19⟩ 1 * win4_1.size 1 + win4_1.xsize (grid4.coords ⟨19, lt19⟩) 1
    rw [show win4_1.index ⟨19, lt19⟩ 1 * win4_1.size 1 = 0 from by decide +kernel,
      show win4_1.xsize (grid4.coords ⟨19, lt19⟩) 1 = 128 from by decide +kernel]; omega

/-- The last point's block of output 2 is the whole 1×128 array. -/
theorem cover_2 (c : Dev nD) (i : ((cfg4.win 2).arr.view.loc (c.tc : Thread nD τ)).2.ty.Idx) :
    ∃ t : Fin cfg4.N, (cfg4.win 2).flush t = true ∧ i ∈ ((cfg4.win 2).blk t).view.set := by
  refine ⟨⟨19, lt19⟩, (flush4_2 ⟨19, lt19⟩).mpr rfl, ?_⟩
  show i ∈ ((View.whole main_v56_1).slice (win4_2.rect ⟨19, lt19⟩)).set
  rw [View.set_slice_whole, Rect.mem_set_unit]
  intro a
  have h0 : (i 0 : Nat) < 1 := (i 0).isLt
  have h1 : (i 1 : Nat) < 128 := (i 1).isLt
  match a with
  | ⟨0, _⟩ =>
    show win4_2.index ⟨19, lt19⟩ 0 * win4_2.size 0 ≤ (i 0 : Nat)
      ∧ (i 0 : Nat) < win4_2.index ⟨19, lt19⟩ 0 * win4_2.size 0 + win4_2.xsize (grid4.coords ⟨19, lt19⟩) 0
    rw [show win4_2.index ⟨19, lt19⟩ 0 * win4_2.size 0 = 0 from by decide +kernel,
      show win4_2.xsize (grid4.coords ⟨19, lt19⟩) 0 = 1 from by decide +kernel]; omega
  | ⟨1, _⟩ =>
    show win4_2.index ⟨19, lt19⟩ 1 * win4_2.size 1 ≤ (i 1 : Nat)
      ∧ (i 1 : Nat) < win4_2.index ⟨19, lt19⟩ 1 * win4_2.size 1 + win4_2.xsize (grid4.coords ⟨19, lt19⟩) 1
    rw [show win4_2.index ⟨19, lt19⟩ 1 * win4_2.size 1 = 0 from by decide +kernel,
      show win4_2.xsize (grid4.coords ⟨19, lt19⟩) 1 = 128 from by decide +kernel]; omega

/-- THE RESULT, output 1: the region leaves in its first result array the column sums of its input array. -/
theorem value_sum (c : Dev nD) :
    (Gen.dat4 (F := Ideal) V c).arrAt 1 cfg4.N = Cert.Sage.colSum (V c (Pipeline.arrRef spec4 0)) :=
  (dat4 V c).arrAt_eq_of_cover 1 (Cert.Sage.colSum (V c (Pipeline.arrRef spec4 0))) (flushed_1 V c) (cover_1 c)

/-- THE RESULT, output 2: and in its second result array the column sums of the squares. -/
theorem value_sumsq (c : Dev nD) :
    (Gen.dat4 (F := Ideal) V c).arrAt 2 cfg4.N = Cert.Sage.colSumSq (V c (Pipeline.arrRef spec4 0)) :=
  (dat4 V c).arrAt_eq_of_cover 2 (Cert.Sage.colSumSq (V c (Pipeline.arrRef spec4 0))) (flushed_2 V c) (cover_2 c)

end Final

end Cert.KernelIdeal.Region4

end
-- ==== Proof.RegionBnAct5.lean ====
/-
  The scale-shift-and-clamp region 5 of the program, read as a whole-array function on the extended reals.

  The region runs over 20 grid points. Point t stages rows 5000·t … 5000·t + 4999 of the 100000×128 array H (window 0),
  the whole 1×128 rows of scales and of shifts (windows 1 and 2, whose block index is 0 at every point), and writes
  back rows 5000·t … 5000·t + 4999 of the result (window 3). The body multiplies each entry of the block by its
  column's scale, adds its column's shift and takes the maximum with zero. An entry of the result therefore depends
  on one entry of H and on its column's scale and shift only, so the block written at point t is block t of the one
  function (p, q) ↦ max (H(p, q) · scale(q) + shift(q)) 0 of the arrays as the region finds them; the 20 blocks tile
  the array (row r lies in the block of point r / 5000), so the array ends holding that function.
-/
import proofs.«109389_j1769526526168_1_alg».proof.Proof.Gen.KernelIdeal.Frame
import proofs.«109389_j1769526526168_1_alg».proof.Proof.LayerSpec
import proofs.«109389_j1769526526168_1_alg».proof.Proof.LibBlockReads
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The body's result at row p and column q of the block: the block's entry times the scale of column q, plus the
    shift of column q, clamped below at zero (the zero splat is the extended real 0). -/
theorem pay_apply (x0 : Vec Ideal S5000x128 .f32) (x1 x2 : Vec Ideal S1x128 .f32) (p : Fin 5000) (q : Fin 128) :
    k5_pay1 (F := Ideal) x0 x1 x2 (ix2 p q) = max (x0 (ix2 p q) * x1 (ix2 0 q) + x2 (ix2 0 q)) 0 := by
  unfold k5_pay1
  rw [maximumf_apply, addf_apply, mulf_apply, shapeCast_self, shapeCast_self, shapeCast_self,
    Cert.Lib.BlockReads.broadcast_row_apply, Cert.Lib.BlockReads.broadcast_row_apply, broadcast_apply]
  show max _ (Ideal.ofBits .f32 0x00000000#32) = _
  rw [Ideal.ofBits_zero_f32]

/-- The body's result at an index y of the block is the whole-array function at an index i of the array, when the
    block of H holds at y what H holds at i, the staged scale and shift rows are the whole rows, and y and i have
    the same column. -/
theorem pay_eq_spec (x0 : Vec Ideal S5000x128 .f32) (x1 x2 : Vec Ideal S1x128 .f32)
    (H : Cert.Sage.Arr 100000 128) (sc sh : Cert.Sage.Arr 1 128) (y : S5000x128.Idx) (i : S100000x128.Idx)
    (h0 : x0 y = H i) (h1 : x1 = sc) (h2 : x2 = sh) (hcol : (y 1).val = (i 1).val) :
    k5_pay1 (F := Ideal) x0 x1 x2 y = Cert.Sage.scaleShiftRelu H sc sh i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hqs : q = s := Fin.ext hcol
  subst hqs h1 h2
  rw [pay_apply, Cert.Sage.scaleShiftRelu_apply, h0]

/-! ## From the blocks to the array -/

variable (V : (c : Dev nD) → (b : Ref sig .tc) → Buf (Elt Ideal) ((c : Thread nD τ).loc b))

/-- The zero offset of a rank-2 rectangle, as a constant function. -/
theorem zero_offset : (![0, 0] : Fin 2 → Nat) = fun _ => 0 := funext fun a => by fin_cases a <;> rfl

/-- The windows' block indices at each of the 20 points (decided): the block of H and the result's block are block t
    of their rows and the only block of their columns; the scale and shift rows are always block (0, 0). -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What the result array ends holding: the scale, shift and clamp of the arrays as the region finds them. -/
abbrev result (c : Dev nD) : S100000x128.Idx → EReal :=
  Cert.Sage.scaleShiftRelu (V c (Pipeline.arrRef spec5 0) : S100000x128.Idx → EReal)
    (V c (Pipeline.arrRef spec5 1) : S1x128.Idx → EReal) (V c (Pipeline.arrRef spec5 2) : S1x128.Idx → EReal)

/-- What point t writes back is block t of `result`: the staged block of H sits in H at the same rows as the
    result's block sits in the result, and the staged scale and shift rows are the whole rows. -/
theorem flushed_eq (c : Dev nD) (t : Fin cfg5.N) :
    (dat5 (F := Ideal) V c).flushed 3 t = ((cfg5.win 3).blk t).view.read (Elt Ideal) (result V c) := by
  show (cfg5.win 3).cut (grid5.coords t) ((dat5 V c).after 3 t) = _
  rw [after5_3]
  unfold out5_3
  rw [View.canon_unit_zero zero_offset]
  simp only [View.ld_unit_zero (S := S5000x128) zero_offset, View.ld_unit_zero (S := S1x128) zero_offset]
  obtain ⟨e00, e01, e10, e11, e20, e21, e30, e31⟩ := block_indices t
  funext j
  refine pay_eq_spec (iblk5 V c 0 t) (iblk5 V c 1 t) (iblk5 V c 2 t) (V c (Pipeline.arrRef spec5 0))
    (V c (Pipeline.arrRef spec5 1)) (V c (Pipeline.arrRef spec5 2))
    ((win5 3).xinj (grid5.coords t) j) (((cfg5.win 3).blk t).view.emb j) ?_ ?_ ?_ ?_
  · show (V c (Pipeline.arrRef spec5 0) : S100000x128.Idx → EReal) (((cfg5.win 0).blk t).view.emb _) = _
    refine congrArg _ (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  · funext x
    show (V c (Pipeline.arrRef spec5 1) : S1x128.Idx → EReal) (((cfg5.win 1).blk t).view.emb x) = _
    refine congrArg _ (funext fun a => Fin.ext ?_)
    match a with
    | ⟨0, _⟩ => show win5_1.index t (0 : Fin 2) * 1 + 1 * (x 0).val = (x 0).val; omega
    | ⟨1, _⟩ => show win5_1.index t (1 : Fin 2) * 128 + 1 * (x 1).val = (x 1).val; omega
  · funext x
    show (V c (Pipeline.arrRef spec5 2) : S1x128.Idx → EReal) (((cfg5.win 2).blk t).view.emb x) = _
    refine congrArg _ (funext fun a => Fin.ext ?_)
    match a with
    | ⟨0, _⟩ => show win5_2.index t (0 : Fin 2) * 1 + 1 * (x 0).val = (x 0).val; omega
    | ⟨1, _⟩ => show win5_2.index t (1 : Fin 2) * 128 + 1 * (x 1).val = (x 1).val; omega
  · show (j 1).val = win5_3.index t (1 : Fin 2) * 128 + 1 * (j 1).val; omega

/-- An index of the array is in point t's block iff each coordinate is in the block's range on its axis. -/
theorem mem_blk (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v71).slice (win5_3.rect t)).set ↔ _
  rw [View.set_slice_whole, Rect.mem_set_unit]
  exact Iff.rfl

/-- Every index of the array is in some point's block: row r is in the block of point r / 5000. -/
theorem cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  have ht : (i 0).val / 5000 < cfg5.N := by rw [hN]; omega
  obtain ⟨-, -, -, -, -, -, e30, e31⟩ := block_indices ⟨(i 0).val / 5000, ht⟩
  refine ⟨⟨(i 0).val / 5000, ht⟩, flush5_3 _, ?_⟩
  rw [mem_blk]
  intro a
  match a with
  | ⟨0, _⟩ =>
    show win5_3.index ⟨(i 0).val / 5000, ht⟩ (0 : Fin 2) * 5000 ≤ (i 0).val
      ∧ (i 0).val < win5_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win5_3.index ⟨(i 0).val / 5000, ht⟩ (1 : Fin 2) * 128 ≤ (i 1).val
      ∧ (i 1).val < win5_3.index ⟨(i 0).val / 5000, ht⟩ (1 : Fin 2) * 128 + 128
    omega

/-- The result array after the region: the scale, shift and clamp of the arrays as the region finds them. -/
theorem value (c : Dev nD) : (dat5 (F := Ideal) V c).arrAt 3 cfg5.N
    = Cert.Sage.scaleShiftRelu (V c (Pipeline.arrRef spec5 0) : S100000x128.Idx → EReal)
        (V c (Pipeline.arrRef spec5 1) : S1x128.Idx → EReal) (V c (Pipeline.arrRef spec5 2) : S1x128.Idx → EReal) :=
  (dat5 V c).arrAt_eq_of_cover 3 (result V c) (fun t _ => flushed_eq V c t) (cover)

end Cert.KernelIdeal.Region5

end
-- ==== Proof.RegionFinal6.lean ====
/-
  The last region of the program, read as a whole-array function on the extended reals.

  The region runs over 20 grid points. Point t stages rows 5000·t … 5000·t + 4999 of the two 100000×128 arrays A and X
  (windows 0 and 1), the whole 128×1 weight columns Wl and Wr (windows 2 and 4), the 1×1 bias b (window 3) and the
  1×1 head weight wf and head bias bf (windows 5 and 6), whose block index is 0 at every point, and writes back rows
  5000·t … 5000·t + 4999 of the 100000×1 result (window 7). The body multiplies the block of A by Wl and the block of
  X by Wr, each product accumulated into zeros (so each is the exact sum over the 128 contracted columns; the format
  changes on the way in are the identity on the extended reals), adds the two, adds b, multiplies by wf, adds bf and
  applies the logistic function. An entry of the result depends on one row of A and one row of X only, so the block
  written at point t is block t of the one function p ↦ logistic ((A·Wl + X·Wr + b)(p) · wf + bf) of the arrays as the
  region finds them; the 20 blocks tile the array (row r lies in the block of point r / 5000), so the array ends
  holding that function.
-/
import proofs.«109389_j1769526526168_1_alg».proof.Proof.Gen.KernelIdeal.Frame
import proofs.«109389_j1769526526168_1_alg».proof.Proof.LayerSpec
import proofs.«109389_j1769526526168_1_alg».proof.Proof.LibBlockReads
import Idealize.ShloMosaic.Lib.Pipeline.Value
import Idealize.ShloMosaic.Lib.ValueIdx
import Idealize.ShloMosaic.PureOps.Ideal.Laws
import Idealize.ShloMosaic.Lib.Tactic

open scoped BigOperators

noncomputable section

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The logistic function of a vector, at an index, is the logistic function of the entry. -/
theorem logistic_apply {s : Shape} {φ : FTy} (a : FVec Ideal s φ) (i : s.Idx) : logistic a i = Ideal.logistic (a i) := rfl

/-- The body's result at row p of the block: the logistic function of (row p of the block of A times Wl, plus row p
    of the block of X times Wr, plus b) times wf plus bf. -/
theorem pay_apply (x0 x1 : Vec Ideal S5000x128 .f32) (x2 x4 : Vec Ideal S128x1 .f32) (x3 x5 x6 : Vec Ideal S1x1 .f32)
    (p : Fin 5000) (q : Fin 1) :
    k6_pay1 (F := Ideal) x0 x1 x2 x4 x3 x5 x6 (ix2 p q)
      = Ideal.logistic ((((∑ j : Fin 128, x0 (ix2 p j) * x2 (ix2 j q)) + ∑ j : Fin 128, x1 (ix2 p j) * x4 (ix2 j q))
          + x3 (ix2 0 q)) * x5 (ix2 0 q) + x6 (ix2 0 q)) := by
  unfold k6_pay1
  rw [logistic_apply, addf_apply, mulf_apply, addf_apply, addf_apply,
    Cert.Lib.BlockReads.broadcast_row_apply, Cert.Lib.BlockReads.broadcast_row_apply,
    Cert.Lib.BlockReads.broadcast_row_apply, shapeCast_self, shapeCast_self,
    Cert.Lib.BlockReads.matmul_zero_rows_apply dot_S5000x128_S128x1_S5000x1_1_0_0_1_n_n rfl rfl rfl rfl rfl rfl,
    Cert.Lib.BlockReads.matmul_zero_rows_apply dot_S5000x128_S128x1_S5000x1_1_0_0_1_n_n rfl rfl rfl rfl rfl rfl]
  simp only [truncf_apply, shapeCast_self]

/-- The body's result at an index y of the block is the whole-array function at an index i of the array, when row
    (y 0) of the blocks of A and X is row (i 0) of A and X and the staged weights and biases are the whole arrays. -/
theorem pay_eq_spec (x0 x1 : Vec Ideal S5000x128 .f32) (x2 x4 : Vec Ideal S128x1 .f32) (x3 x5 x6 : Vec Ideal S1x1 .f32)
    (A X : Cert.Sage.Arr 100000 128) (Wl Wr : Cert.Sage.Arr 128 1) (b wf bf : Cert.Sage.Arr 1 1)
    (y : S5000x1.Idx) (i : S100000x1.Idx)
    (hA : ∀ c : Fin 128, x0 (ix2 (⟨(y 0).val, idx2_lt0 y⟩ : Fin 5000) c) = A (ix2 (⟨(i 0).val, idx2_lt0 i⟩ : Fin 100000) c))
    (hX : ∀ c : Fin 128, x1 (ix2 (⟨(y 0).val, idx2_lt0 y⟩ : Fin 5000) c) = X (ix2 (⟨(i 0).val, idx2_lt0 i⟩ : Fin 100000) c))
    (h2 : x2 = Wl) (h4 : x4 = Wr) (h3 : x3 = b) (h5 : x5 = wf) (h6 : x6 = bf) :
    k6_pay1 (F := Ideal) x0 x1 x2 x4 x3 x5 x6 y
      = Cert.Sage.headSigmoid (Cert.Sage.linear A X Wl Wr b) wf bf i := by
  obtain ⟨p, q, rfl⟩ : ∃ (p : Fin 5000) (q : Fin 1), y = ix2 p q := ⟨y 0, y 1, eq_ix2 y⟩
  obtain ⟨r, s, rfl⟩ : ∃ (r : Fin 100000) (s : Fin 1), i = ix2 r s := ⟨i 0, i 1, eq_ix2 i⟩
  obtain rfl : q = 0 := Subsingleton.elim _ _
  obtain rfl : s = 0 := Subsingleton.elim _ _
  have hA' : ∀ c : Fin 128, x0 (ix2 p c) = A (ix2 r c) := hA
  have hX' : ∀ c : Fin 128, x1 (ix2 p c) = X (ix2 r c) := hX
  subst h2 h4 h3 h5 h6
  rw [pay_apply, Cert.Sage.headSigmoid_apply, Cert.Sage.linear_apply]
  simp only [hA', hX']

/-! ## From the blocks to the array -/

variable (V : (c : Dev nD) → (b : Ref sig .tc) → Buf (Elt Ideal) ((c : Thread nD τ).loc b))

/-- The zero offset of a rank-2 rectangle, as a constant function. -/
theorem zero_offset : (![0, 0] : Fin 2 → Nat) = fun _ => 0 := funext fun a => by fin_cases a <;> rfl

/-- The windows' block indices at each of the 20 points (decided): the blocks of A, of X and of the result are block t
    of their rows and the only block of their columns; every weight and bias window is always block (0, 0). -/
theorem block_indices : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- What the result array ends holding: the logistic head of the dense layer of the arrays as the region finds
    them. -/
abbrev result (c : Dev nD) : S100000x1.Idx → EReal :=
  Cert.Sage.headSigmoid
    (Cert.Sage.linear (V c (Pipeline.arrRef spec6 0) : S100000x128.Idx → EReal)
      (V c (Pipeline.arrRef spec6 1) : S100000x128.Idx → EReal) (V c (Pipeline.arrRef spec6 2) : S128x1.Idx → EReal)
      (V c (Pipeline.arrRef spec6 4) : S128x1.Idx → EReal) (V c (Pipeline.arrRef spec6 3) : S1x1.Idx → EReal))
    (V c (Pipeline.arrRef spec6 5) : S1x1.Idx → EReal) (V c (Pipeline.arrRef spec6 6) : S1x1.Idx → EReal)

/-- The staged block of A at point t holds rows 5000·t … 5000·t + 4999 of the array. -/
theorem rows0 (c : Dev nD) (t : Fin cfg6.N) (y : S5000x128.Idx) (i : S100000x128.Idx)
    (h0 : (i 0).val = t.val * 5000 + (y 0).val) (h1 : (i 1).val = (y 1).val) :
    (iblk6 V c 0 t : S5000x128.Idx → EReal) y = (V c (Pipeline.arrRef spec6 0) : S100000x128.Idx → EReal) i := by
  have e0 : win6_0.index t (0 : Fin 2) = t.val := (block_indices t).1
  have e1 : win6_0.index t (1 : Fin 2) = 0 := (block_indices t).2.1
  show (V c (Pipeline.arrRef spec6 0) : S100000x128.Idx → EReal) (((cfg6.win 0).blk t).view.emb y) = _
  refine congrArg _ (funext fun a => Fin.ext ?_)
  match a with
  | ⟨0, _⟩ => show win6_0.index t (0 : Fin 2) * 5000 + 1 * (y 0).val = (i 0).val; omega
  | ⟨1, _⟩ => show win6_0.index t (1 : Fin 2) * 128 + 1 * (y 1).val = (i 1).val; omega

/-- The staged block of X at point t holds rows 5000·t … 5000·t + 4999 of the array. -/
theorem rows1 (c : Dev nD) (t : Fin cfg6.N) (y : S5000x128.Idx) (i : S100000x128.Idx)
    (h0 : (i 0).val = t.val * 5000 + (y 0).val) (h1 : (i 1).val = (y 1).val) :
    (iblk6 V c 1 t : S5000x128.Idx → EReal) y = (V c (Pipeline.arrRef spec6 1) : S100000x128.Idx → EReal) i := by
  have e0 : win6_1.index t (0 : Fin 2) = t.val := (block_indices t).2.2.1
  have e1 : win6_1.index t (1 : Fin 2) = 0 := (block_indices t).2.2.2.1
  show (V c (Pipeline.arrRef spec6 1) : S100000x128.Idx → EReal) (((cfg6.win 1).blk t).view.emb y) = _
  refine congrArg _ (funext fun a => Fin.ext ?_)
  match a with
  | ⟨0, _⟩ => show win6_1.index t (0 : Fin 2) * 5000 + 1 * (y 0).val = (i 0).val; omega
  | ⟨1, _⟩ => show win6_1.index t (1 : Fin 2) * 128 + 1 * (y 1).val = (i 1).val; omega

/-- The staged block of Wl is the whole array: its block index is (0, 0) at every point. -/
theorem whole2 (c : Dev nD) (t : Fin cfg6.N) :
    iblk6 V c 2 t = (V c (Pipeline.arrRef spec6 2) : S128x1.Idx → EReal) := by
  have e0 : win6_2.index t (0 : Fin 2) = 0 := (block_indices t).2.2.2.2.1
  have e1 : win6_2.index t (1 : Fin 2) = 0 := (block_indices t).2.2.2.2.2.1
  funext x
  show (V c (Pipeline.arrRef spec6 2) : S128x1.Idx → EReal) (((cfg6.win 2).blk t).view.emb x) = _
  refine congrArg _ (funext fun a => Fin.ext ?_)
  match a with
  | ⟨0, _⟩ => show win6_2.index t (0 : Fin 2) * 128 + 1 * (x 0).val = (x 0).val; omega
  | ⟨1, _⟩ => show win6_2.index t (1 : Fin 2) * 1 + 1 * (x 1).val = (x 1).val; omega

/-- The staged block of the bias b is the whole array: its block index is (0, 0) at every point. -/
theorem whole3 (c : Dev nD) (t : Fin cfg6.N) :
    iblk6 V c 3 t = (V c (Pipeline.arrRef spec6 3) : S1x1.Idx → EReal) := by
  have e0 : win6_3.index t (0 : Fin 2) = 0 := (block_indices t).2.2.2.2.2.2.1
  have e1 : win6_3.index t (1 : Fin 2) = 0 := (block_indices t).2.2.2.2.2.2.2.1
  funext x
  show (V c (Pipeline.arrRef spec6 3) : S1x1.Idx → EReal) (((cfg6.win 3).blk t).view.emb x) = _
  refine congrArg _ (funext fun a => Fin.ext ?_)
  match a with
  | ⟨0, _⟩ => show win6_3.index t (0 : Fin 2) * 1 + 1 * (x 0).val = (x 0).val; omega
  | ⟨1, _⟩ => show win6_3.index t (1 : Fin 2) * 1 + 1 * (x 1).val = (x 1).val; omega

/-- The staged block of Wr is the whole array: its block index is (0, 0) at every point. -/
theorem whole4 (c : Dev nD) (t : Fin cfg6.N) :
    iblk6 V c 4 t = (V c (Pipeline.arrRef spec6 4) : S128x1.Idx → EReal) := by
  have e0 : win6_4.index t (0 : Fin 2) = 0 := (block_indices t).2.2.2.2.2.2.2.2.1
  have e1 : win6_4.index t (1 : Fin 2) = 0 := (block_indices t).2.2.2.2.2.2.2.2.2.1
  funext x
  show (V c (Pipeline.arrRef spec6 4) : S128x1.Idx → EReal) (((cfg6.win 4).blk t).view.emb x) = _
  refine congrArg _ (funext fun a => Fin.ext ?_)
  match a with
  | ⟨0, _⟩ => show win6_4.index t (0 : Fin 2) * 128 + 1 * (x 0).val = (x 0).val; omega
  | ⟨1, _⟩ => show win6_4.index t (1 : Fin 2) * 1 + 1 * (x 1).val = (x 1).val; omega

/-- The staged block of the head weight is the whole array: its block index is (0, 0) at every point. -/
theorem whole5 (c : Dev nD) (t : Fin cfg6.N) :
    iblk6 V c 5 t = (V c (Pipeline.arrRef spec6 5) : S1x1.Idx → EReal) := by
  have e0 : win6_5.index t (0 : Fin 2) = 0 := (block_indices t).2.2.2.2.2.2.2.2.2.2.1
  have e1 : win6_5.index t (1 : Fin 2) = 0 := (block_indices t).2.2.2.2.2.2.2.2.2.2.2.1
  funext x
  show (V c (Pipeline.arrRef spec6 5) : S1x1.Idx → EReal) (((cfg6.win 5).blk t).view.emb x) = _
  refine congrArg _ (funext fun a => Fin.ext ?_)
  match a with
  | ⟨0, _⟩ => show win6_5.index t (0 : Fin 2) * 1 + 1 * (x 0).val = (x 0).val; omega
  | ⟨1, _⟩ => show win6_5.index t (1 : Fin 2) * 1 + 1 * (x 1).val = (x 1).val; omega

/-- The staged block of the head bias is the whole array: its block index is (0, 0) at every point. -/
theorem whole6 (c : Dev nD) (t : Fin cfg6.N) :
    iblk6 V c 6 t = (V c (Pipeline.arrRef spec6 6) : S1x1.Idx → EReal) := by
  have e0 : win6_6.index t (0 : Fin 2) = 0 := (block_indices t).2.2.2.2.2.2.2.2.2.2.2.2.1
  have e1 : win6_6.index t (1 : Fin 2) = 0 := (block_indices t).2.2.2.2.2.2.2.2.2.2.2.2.2.1
  funext x
  show (V c (Pipeline.arrRef spec6 6) : S1x1.Idx → EReal) (((cfg6.win 6).blk t).view.emb x) = _
  refine congrArg _ (funext fun a => Fin.ext ?_)
  match a with
  | ⟨0, _⟩ => show win6_6.index t (0 : Fin 2) * 1 + 1 * (x 0).val = (x 0).val; omega
  | ⟨1, _⟩ => show win6_6.index t (1 : Fin 2) * 1 + 1 * (x 1).val = (x 1).val; omega

/-- What point t writes back is block t of `result`: the staged blocks of A and X sit in A and X at the same rows
    as the result's block sits in the result, and the staged weights and biases are the whole arrays. -/
theorem flushed_eq (c : Dev nD) (t : Fin cfg6.N) :
    (dat6 (F := Ideal) V c).flushed 7 t = ((cfg6.win 7).blk t).view.read (Elt Ideal) (result V c) := by
  show (cfg6.win 7).cut (grid6.coords t) ((dat6 V c).after 7 t) = _
  rw [after6_7]
  unfold out6_7
  rw [View.canon_unit_zero zero_offset]
  simp only [View.ld_unit_zero (S := S5000x128) zero_offset, View.ld_unit_zero (S := S128x1) zero_offset,
    View.ld_unit_zero (S := S1x1) zero_offset]
  have e70 : win6_7.index t (0 : Fin 2) = t.val := (block_indices t).2.2.2.2.2.2.2.2.2.2.2.2.2.2.1
  funext j
  refine pay_eq_spec (iblk6 V c 0 t) (iblk6 V c 1 t) (iblk6 V c 2 t) (iblk6 V c 4 t) (iblk6 V c 3 t) (iblk6 V c 5 t)
    (iblk6 V c 6 t) (V c (Pipeline.arrRef spec6 0)) (V c (Pipeline.arrRef spec6 1)) (V c (Pipeline.arrRef spec6 2))
    (V c (Pipeline.arrRef spec6 4)) (V c (Pipeline.arrRef spec6 3)) (V c (Pipeline.arrRef spec6 5))
    (V c (Pipeline.arrRef spec6 6))
    ((win6 7).xinj (grid6.coords t) j) (((cfg6.win 7).blk t).view.emb j) ?_ ?_
    (whole2 V c t) (whole4 V c t) (whole3 V c t) (whole5 V c t) (whole6 V c t)
  · intro k
    refine rows0 V c t _ _ ?_ rfl
    show win6_7.index t (0 : Fin 2) * 5000 + 1 * (j 0).val = t.val * 5000 + (j 0).val
    omega
  · intro k
    refine rows1 V c t _ _ ?_ rfl
    show win6_7.index t (0 : Fin 2) * 5000 + 1 * (j 0).val = t.val * 5000 + (j 0).val
    omega

/-- An index of the array is in point t's block iff each coordinate is in the block's range on its axis. -/
theorem mem_blk (t : Fin cfg6.N) (i : S100000x1.Idx) :
    i ∈ ((cfg6.win 7).blk t).view.set ↔ ∀ a : Fin 2, win6_7.index t a * S5000x1.size a ≤ (i a).val
      ∧ (i a).val < win6_7.index t a * S5000x1.size a + S5000x1.size a := by
  show i ∈ ((View.whole main_v86).slice (win6_7.rect t)).set ↔ _
  rw [View.set_slice_whole, Rect.mem_set_unit]
  exact Iff.rfl

/-- Every index of the array is in some point's block: row r is in the block of point r / 5000. -/
theorem cover (i : S100000x1.Idx) :
    ∃ t : Fin cfg6.N, (cfg6.win 7).flush t = true ∧ i ∈ ((cfg6.win 7).blk t).view.set := by
  have hi0 : (i 0).val < 100000 := (i 0).isLt
  have hi1 : (i 1).val < 1 := (i 1).isLt
  have hN : cfg6.N = 20 := N_6
  have ht : (i 0).val / 5000 < cfg6.N := by rw [hN]; omega
  obtain ⟨-, -, -, -, -, -, -, -, -, -, -, -, -, -, e70, e71⟩ := block_indices ⟨(i 0).val / 5000, ht⟩
  refine ⟨⟨(i 0).val / 5000, ht⟩, flush6_7 _, ?_⟩
  rw [mem_blk]
  intro a
  match a with
  | ⟨0, _⟩ =>
    show win6_7.index ⟨(i 0).val / 5000, ht⟩ (0 : Fin 2) * 5000 ≤ (i 0).val
      ∧ (i 0).val < win6_7.index ⟨(i 0).val / 5000, ht⟩ (0 : Fin 2) * 5000 + 5000
    rw [e70]
    show (i 0).val / 5000 * 5000 ≤ (i 0).val ∧ (i 0).val < (i 0).val / 5000 * 5000 + 5000
    omega
  | ⟨1, _⟩ =>
    show win6_7.index ⟨(i 0).val / 5000, ht⟩ (1 : Fin 2) * 1 ≤ (i 1).val
      ∧ (i 1).val < win6_7.index ⟨(i 0).val / 5000, ht⟩ (1 : Fin 2) * 1 + 1
    omega

/-- The result array after the region: the logistic head of the dense layer of the arrays as the region finds them. -/
theorem value (c : Dev nD) : (dat6 (F := Ideal) V c).arrAt 7 cfg6.N
    = Cert.Sage.headSigmoid
        (Cert.Sage.linear (V c (Pipeline.arrRef spec6 0) : S100000x128.Idx → EReal)
          (V c (Pipeline.arrRef spec6 1) : S100000x128.Idx → EReal) (V c (Pipeline.arrRef spec6 2) : S128x1.Idx → EReal)
          (V c (Pipeline.arrRef spec6 4) : S128x1.Idx → EReal) (V c (Pipeline.arrRef spec6 3) : S1x1.Idx → EReal))
        (V c (Pipeline.arrRef spec6 5) : S1x1.Idx → EReal) (V c (Pipeline.arrRef spec6 6) : S1x1.Idx → EReal) :=
  (dat6 V c).arrAt_eq_of_cover 7 (result V c) (fun t _ => flushed_eq V c t) (cover)

end Cert.KernelIdeal.Region6

end
-- ==== Proof.KernelChain.lean ====
/-
  The idealized kernel's result as the network of the specification applied to the launch contents of the argument
  arrays: the result buffer at the last boundary of the fold through @main is what the last region leaves, a
  function of the buffers at its entry; each of those is what the stretch of host operations before it computed
  from the outputs of the regions before, and so on back to the launch. Seven regions — dense, statistics,
  normalise for each of two layers, then the fused last layer — and five stretches of host operations.
-/
import proofs.«109389_j1769526526168_1_alg».proof.Proof.KernelHost
import proofs.«109389_j1769526526168_1_alg».proof.Proof.RegionLinear0
import proofs.«109389_j1769526526168_1_alg».proof.Proof.RegionStats1
import proofs.«109389_j1769526526168_1_alg».proof.Proof.RegionBnAct2
import proofs.«109389_j1769526526168_1_alg».proof.Proof.RegionLinear3
import proofs.«109389_j1769526526168_1_alg».proof.Proof.RegionStats4
import proofs.«109389_j1769526526168_1_alg».proof.Proof.RegionBnAct5
import proofs.«109389_j1769526526168_1_alg».proof.Proof.RegionFinal6

set_option maxRecDepth 16384

noncomputable section

namespace Cert.KernelIdeal.Chain

open Cert.KernelIdeal.Gen Cert.KernelIdeal.Skips Cert.KernelIdeal.ArgSkips Cert.KernelIdeal.Agg Cert.KernelIdeal.Host
open Cert.Sage Cert.Lib.RowVector
open Idealize.ShloMosaic Idealize.ShloMosaic.TcCoe Idealize.SL Idealize.SL.Sem

variable (m : (ℓ : Loc nD τ sig) → Buf (Elt Ideal) ℓ) (ρ : Dev nD → PrngReg) (c : Dev nD)

/-- The first layer's dense half. -/
def hlin0 : Arr 100000 128 :=
  linear (k := 64) (aggK64 (W0 m ρ c (Proc.devRef .tc main_arg1)) (W0 m ρ c (Proc.devRef .tc main_arg0))) (W0 m ρ c (Proc.devRef .tc main_arg0)) (W0 m ρ c (Proc.devRef .tc main_arg2)) (W0 m ρ c (Proc.devRef .tc main_arg4)) (asRow (W0 m ρ c (Proc.devRef .tc main_arg3)))

/-- The first layer's output. -/
def act1 : Arr 100000 128 :=
  kLayer (k := 64) (aggK64 (W0 m ρ c (Proc.devRef .tc main_arg1))) (W0 m ρ c (Proc.devRef .tc main_arg0)) (W0 m ρ c (Proc.devRef .tc main_arg2)) (W0 m ρ c (Proc.devRef .tc main_arg4)) (W0 m ρ c (Proc.devRef .tc main_arg3)) (W0 m ρ c (Proc.devRef .tc main_arg11)) (W0 m ρ c (Proc.devRef .tc main_arg12))

/-- The second layer's dense half. -/
def hlin1 : Arr 100000 128 :=
  linear (k := 128) (aggK128 (W0 m ρ c (Proc.devRef .tc main_arg1)) (act1 m ρ c)) (act1 m ρ c) (W0 m ρ c (Proc.devRef .tc main_arg5)) (W0 m ρ c (Proc.devRef .tc main_arg7)) (asRow (W0 m ρ c (Proc.devRef .tc main_arg6)))

/-- The second layer's output. -/
def act2 : Arr 100000 128 :=
  kLayer (k := 128) (aggK128 (W0 m ρ c (Proc.devRef .tc main_arg1))) (act1 m ρ c) (W0 m ρ c (Proc.devRef .tc main_arg5)) (W0 m ρ c (Proc.devRef .tc main_arg7)) (W0 m ρ c (Proc.devRef .tc main_arg6)) (W0 m ρ c (Proc.devRef .tc main_arg13)) (W0 m ρ c (Proc.devRef .tc main_arg14))

/-! ## First layer -/

theorem dense0 : (W2 m ρ c (Proc.devRef .tc main_v25)) = hlin0 m ρ c := by
  refine (W2_arr m ρ c 5).trans ((Region0.value (V1 m ρ) c).trans ?_)
  show linear (W1 m ρ c (Proc.devRef .tc main_v23)) (W1 m ρ c (Proc.devRef .tc main_arg0)) (W1 m ρ c (Proc.devRef .tc main_arg2)) (W1 m ρ c (Proc.devRef .tc main_arg4)) (W1 m ρ c (Proc.devRef .tc main_v24)) = _
  rw [W1_v23, W1_v24, W1_arg0_eq_W0, W1_arg2_eq_W0, W1_arg4_eq_W0]
  rfl

theorem sum0 : (W3 m ρ c (Proc.devRef .tc main_v26_0)) = colSum (hlin0 m ρ c) := by
  refine (W3_arr m ρ c 1).trans ((Region1.value_sum (V2 m ρ) c).trans ?_)
  show colSum (W2 m ρ c (Proc.devRef .tc main_v25)) = _
  rw [dense0]

theorem sumsq0 : (W3 m ρ c (Proc.devRef .tc main_v26_1)) = colSumSq (hlin0 m ρ c) := by
  refine (W3_arr m ρ c 2).trans ((Region1.value_sumsq (V2 m ρ) c).trans ?_)
  show colSumSq (W2 m ρ c (Proc.devRef .tc main_v25)) = _
  rw [dense0]

theorem norm0 : (W5 m ρ c (Proc.devRef .tc main_v41)) = act1 m ρ c := by
  refine (W5_arr m ρ c 3).trans ((Region2.value (V4 m ρ) c).trans ?_)
  show scaleShiftRelu (W4 m ρ c (Proc.devRef .tc main_v25)) (W4 m ρ c (Proc.devRef .tc main_v37)) (W4 m ρ c (Proc.devRef .tc main_v40)) = _
  rw [W4_v25_eq_W2, dense0, W4_v37, W4_v40, sum0, sumsq0]
  rfl

/-! ## Second layer -/

theorem dense1 : (W7 m ρ c (Proc.devRef .tc main_v55)) = hlin1 m ρ c := by
  refine (W7_arr m ρ c 5).trans ((Region3.value (V6 m ρ) c).trans ?_)
  show linear (W6 m ρ c (Proc.devRef .tc main_v53)) (W6 m ρ c (Proc.devRef .tc main_v41)) (W6 m ρ c (Proc.devRef .tc main_arg5)) (W6 m ρ c (Proc.devRef .tc main_arg7)) (W6 m ρ c (Proc.devRef .tc main_v54)) = _
  rw [W6_v53, W6_v41_eq_W5, norm0, W6_arg5_eq_W0, W6_arg7_eq_W0, W6_v54]
  rfl

theorem sum1 : (W8 m ρ c (Proc.devRef .tc main_v56_0)) = colSum (hlin1 m ρ c) := by
  refine (W8_arr m ρ c 1).trans ((Region4.value_sum (V7 m ρ) c).trans ?_)
  show colSum (W7 m ρ c (Proc.devRef .tc main_v55)) = _
  rw [dense1]

theorem sumsq1 : (W8 m ρ c (Proc.devRef .tc main_v56_1)) = colSumSq (hlin1 m ρ c) := by
  refine (W8_arr m ρ c 2).trans ((Region4.value_sumsq (V7 m ρ) c).trans ?_)
  show colSumSq (W7 m ρ c (Proc.devRef .tc main_v55)) = _
  rw [dense1]

theorem norm1 : (W10 m ρ c (Proc.devRef .tc main_v71)) = act2 m ρ c := by
  refine (W10_arr m ρ c 3).trans ((Region5.value (V9 m ρ) c).trans ?_)
  show scaleShiftRelu (W9 m ρ c (Proc.devRef .tc main_v55)) (W9 m ρ c (Proc.devRef .tc main_v67)) (W9 m ρ c (Proc.devRef .tc main_v70)) = _
  rw [W9_v55_eq_W7, dense1, W9_v67, W9_v70, sum1, sumsq1]
  rfl

/-! ## The last layer and the head -/

/-- The result buffer at the last boundary is the network of the launch contents. -/
theorem result : (W12 m ρ c (Proc.devRef .tc main_v86))
    = kernelNet (aggK64 (W0 m ρ c (Proc.devRef .tc main_arg1))) (aggK128 (W0 m ρ c (Proc.devRef .tc main_arg1))) (W0 m ρ c (Proc.devRef .tc main_arg0)) (W0 m ρ c (Proc.devRef .tc main_arg2)) (W0 m ρ c (Proc.devRef .tc main_arg4)) (W0 m ρ c (Proc.devRef .tc main_arg3)) (W0 m ρ c (Proc.devRef .tc main_arg5)) (W0 m ρ c (Proc.devRef .tc main_arg7)) (W0 m ρ c (Proc.devRef .tc main_arg6))
        (W0 m ρ c (Proc.devRef .tc main_arg8)) (W0 m ρ c (Proc.devRef .tc main_arg10)) (W0 m ρ c (Proc.devRef .tc main_arg9)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) := by
  refine (W12_arr m ρ c 7).trans ((Region6.value (V11 m ρ) c).trans ?_)
  show headSigmoid (linear (W11 m ρ c (Proc.devRef .tc main_v83)) (W11 m ρ c (Proc.devRef .tc main_v71)) (W11 m ρ c (Proc.devRef .tc main_arg8)) (W11 m ρ c (Proc.devRef .tc main_arg10)) (W11 m ρ c (Proc.devRef .tc main_v84)))
      (W11 m ρ c (Proc.devRef .tc main_arg15)) (W11 m ρ c (Proc.devRef .tc main_v85)) = _
  rw [W11_v83, W11_v71_eq_W10, norm1, W11_arg8_eq_W0, W11_arg10_eq_W0, W11_arg15_eq_W0, W11_v84, W11_v85]
  rfl

end Cert.KernelIdeal.Chain

end
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«109389_j1769526526168_1_alg».proof.Proof.LibBlockReads
import proofs.«109389_j1769526526168_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«109389_j1769526526168_1_alg».proof.Proof.LibMatProd
import proofs.«109389_j1769526526168_1_alg».proof.Proof.LibBiasRelu
import proofs.«109389_j1769526526168_1_alg».proof.Proof.LibRowVector
import proofs.«109389_j1769526526168_1_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.RefNet.lean ====
/-
  The reference program's result, read back as the three-layer mean-aggregation graph network on the extended reals.

  Per layer the reference gathers the feature rows by source node, adds them up by destination node and divides by
  the larger of the in-degree and one (the aggregation, kept here as the reference's own stages, as a function of
  the feature array); forms (agg·Wl + b) + X·Wr; and, in the first two layers, normalises each column over the
  100000 rows in the centred form (subtract the mean, multiply by the inverse square root of the mean squared
  deviation plus the offset, scale, shift) and clamps at zero. The last layer's one column goes through a 1×1
  product, a bias and one over one plus the exponential of the negation, which is the logistic function.

  Each stage is identified with the matching whole-array function: a dot_general with the matrix product, the
  two-step broadcast of a vector with the row it denotes, a reduce-add down a column with the finite sum. The
  aggregations keep real entries real: a gathered entry is an entry of the operand, a scatter-add is a finite sum,
  and the divisor is at least one.
-/
import proofs.«109389_j1769526526168_1_alg».proof.Proof.Gen.ReferenceIdeal.Read
import proofs.«109389_j1769526526168_1_alg».proof.Proof.SageAlgebra
import proofs.«109389_j1769526526168_1_alg».proof.Proof.LibDenseLayers

noncomputable section

namespace Cert.ReferenceIdeal.RefNet

open Cert.ReferenceIdeal Cert.ReferenceIdeal.Gen Idealize.ShloMosaic Idealize.ShloMosaic.TcCoe Idealize.SL.Sem Idealize.ShloMosaic.StableHlo
open Idealize.ShloMosaic.ValueIdx Cert.Lib.MatProd Cert.Lib.IdealSums Cert.Lib.RowVector Cert.Sage Cert.SageConsts

/-- The edge list: a row of sources and a row of destinations, 1600000 signed 32-bit integers each. -/
abbrev Edges := (⟨S2x1600000, .i32⟩ : BufTy).Contents (Elt Ideal)

/-! ## The two aggregation operators

For every node, the mean of the feature rows of its in-neighbours: the rows gathered by source, added up by
destination, divided by the larger of the in-degree and one. -/

/-- The aggregation of a 64-column feature array. -/
def aggR64 (ei : Edges) (f : Arr 100000 64) : Arr 100000 64 := Read.val_main_v21 (F := Ideal) f ei

/-- The aggregation of a 128-column feature array. -/
def aggR128 (ei : Edges) (f : Arr 100000 128) : Arr 100000 128 :=
  Host.divf (F := Ideal) (s := S100000x128) (φ := .f32)
    (Host.scatterAdd (F := Ideal) (φ := .f32) scatter_S100000x128_S1600000x1_S1600000x128_1_0_0_1 (Read.val_main_v61 (F := Ideal))
      (Read.val_main_v62 (F := Ideal) ei)
      (Host.gather gather_S100000x128_S1600000x1_S1600000x128_1_0_n_n_0_1_1128 f (Read.val_main_v59 (F := Ideal) ei)))
    (Read.val_main_v70 (F := Ideal) ei)

theorem v71_eq (x0 : Arr 100000 64) (x1 : Edges) (x2 : Arr 64 128) (x3 : Vec1 128) (x4 : Arr 64 128) (x11 x12 : Vec1 128) :
    Read.val_main_v71 (F := Ideal) x0 x1 x2 x3 x4 x11 x12
      = aggR128 x1 (Read.val_main_v53 (F := Ideal) x0 x1 x2 x3 x4 x11 x12) := rfl

theorem v121_eq (x0 : Arr 100000 64) (x1 : Edges) (x2 : Arr 64 128) (x3 : Vec1 128) (x4 : Arr 64 128) (x5 : Arr 128 128)
    (x6 : Vec1 128) (x7 : Arr 128 128) (x11 x12 x13 x14 : Vec1 128) :
    Read.val_main_v121 (F := Ideal) x0 x1 x2 x3 x4 x5 x6 x7 x11 x12 x13 x14
      = aggR128 x1 (Read.val_main_v103 (F := Ideal) x0 x1 x2 x3 x4 x5 x6 x7 x11 x12 x13 x14) := rfl

/-! ## The dense half of a layer -/

/-- The reference's dense half, (A·Wl + b) + X·Wr with the bias broadcast to a row and then down the rows, is
    the whole-array function with entry (i, j) the sum (∑ c, A(i,c)·Wl(c,j) + b(j)) + ∑ c, X(i,c)·Wr(c,j). -/
theorem host_refLinear {r k n : Nat} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![n]⟩ : Shape).BroadcastsInDim ⟨2, ![1, n]⟩ ![1])
    (h2 : (⟨2, ![1, n]⟩ : Shape).BroadcastsInDim ⟨2, ![r, n]⟩ ![0, 1])
    (A X : FVec Ideal ⟨2, ![r, k]⟩ .f32) (Wl Wr : FVec Ideal ⟨2, ![k, n]⟩ .f32) (b : FVec Ideal ⟨1, ![n]⟩ .f32) :
    addf (addf (Host.dotGeneral d none A Wl)
        (broadcastInDim ⟨2, ![r, n]⟩ ![0, 1] h2 (broadcastInDim ⟨2, ![1, n]⟩ ![1] h1 b)))
      (Host.dotGeneral d none X Wr) = refLinear A X Wl Wr b := by
  rw [Cert.Layers.host_bias]
  simp only [Host.dotGeneral]
  rw [dotGeneral_eq_matProd d hlc hrc hln hrn hlb hrb, dotGeneral_eq_matProd d hlc hrc hln hrn hlb hrb]
  funext i
  rfl

theorem v27_eq (x0 : Arr 100000 64) (x1 : Edges) (x2 : Arr 64 128) (x3 : Vec1 128) (x4 : Arr 64 128) :
    Read.val_main_v27 (F := Ideal) x0 x1 x2 x3 x4 = refLinear (aggR64 x1 x0) x0 x2 x4 x3 := by
  unfold Read.val_main_v27 Read.val_main_v25 Read.val_main_v22 Read.val_main_v26 Read.val_main_v24 Read.val_main_v23
  exact host_refLinear dot_S100000x64_S64x128_S100000x128_1_0_0_1_n_n rfl rfl rfl rfl rfl rfl _ _ _ _ _ _ _

/-! ## Batch normalisation and the clamp at zero

The reference forms, per column, the mean of the 100000 entries, the centred array, the mean of its squares, the
inverse square root of that plus the offset, and returns the centred array times that times the scale plus the
shift, clamped below at zero. Each step is read at an index; the whole is the centred form of the
normalisation. -/

theorem hostDivf_apply {s : Shape} {φ : FTy} (x y : FVec Ideal s φ) (i : s.Idx) :
    Host.divf x y i = Ideal.div (x i) (y i) := rfl

theorem hostRsqrt_apply {s : Shape} {φ : FTy} (x : FVec Ideal s φ) (i : s.Idx) :
    Host.rsqrt x i = Ideal.rsqrt (x i) := rfl

/-- The column index q with the row k put back is (k, q). -/
theorem lift_col {a b : Nat} (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext ax; apply Fin.ext
  match ax with
  | ⟨0, _⟩ => rfl
  | ⟨1, _⟩ => rfl

/-- The reference's one-operand reduce with an add body down each column of an a×b array is at q the initial
    value's element plus the sum over k of the array at (k, q). -/
theorem host_colsum_apply {a b : Nat} {u : Shape} (x : FVec Ideal ⟨2, ![a, b]⟩ .f32) (init : u.Idx → Ideal .f32)
    (h' : (⟨2, ![a, b]⟩ : Shape).ReducesTo [0] ⟨1, ![b]⟩) (hu : 0 < u.numel) (q : Fin b) :
    Host.reduceAdd x init h' hu (ix1 q) = init (Shape.Idx.first hu) + ∑ k : Fin a, x (ix2 k q) := by
  have h : (⟨2, ![a, b]⟩ : Shape).Reduces [0] ⟨1, ![b]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (lift_col h q k))

/-- A vector of 128 entries broadcast to a row and then down the 100000 rows. -/
def rows128 (v : Vec1 128) : Arr 100000 128 :=
  broadcastInDim S100000x128 ![0, 1] bcast_S1x128_S100000x128_0_1 (broadcastInDim S1x128 ![1] bcast_S128_S1x128_1 v)

theorem rows128_apply (v : Vec1 128) (p : Fin 100000) (q : Fin 128) : rows128 v (ix2 p q) = v (ix1 q) := by
  unfold rows128
  rw [bcastInDim_rows_apply, bcastInDim_eq_asRow]
  rfl

/-- The mean of each column: the sum down the column from the zero word, over the row count. -/
def colMean (H : Arr 100000 128) : Vec1 128 :=
  Host.divf (F := Ideal) (s := S128) (φ := .f32)
    (Host.reduceAdd (F := Ideal) (φ := .f32) H (constant S_ .f32 0x00000000#32) reducesTo_S100000x128_S128_d0 h_S_)
    (broadcastInDim S128 ![] bcast_S_S128 (constant (F := Ideal) S_ .f32 0x47C35000#32))

theorem colMean_apply (H : Arr 100000 128) (q : Fin 128) :
    colMean H (ix1 q) = Ideal.div (∑ p : Fin 100000, H (ix2 p q)) rowsW := by
  unfold colMean
  rw [hostDivf_apply, host_colsum_apply, bcastInDim_scalar_apply, constant_apply, constant_apply, ofBits_zero, zero_add]
  rfl

/-- The array with each column's mean taken off. -/
def centred (H : Arr 100000 128) : Arr 100000 128 :=
  subf (F := Ideal) (s := S100000x128) (φ := .f32) H (rows128 (colMean H))

theorem centred_apply (H : Arr 100000 128) (p : Fin 100000) (q : Fin 128) :
    centred H (ix2 p q) = H (ix2 p q) - Ideal.div (∑ p' : Fin 100000, H (ix2 p' q)) rowsW := by
  unfold centred
  rw [subf_apply, rows128_apply, colMean_apply]

/-- The mean of the squared deviations of each column. -/
def colVar (H : Arr 100000 128) : Vec1 128 :=
  Host.divf (F := Ideal) (s := S128) (φ := .f32)
    (Host.reduceAdd (F := Ideal) (φ := .f32) (mulf (F := Ideal) (s := S100000x128) (φ := .f32) (centred H) (centred H))
      (constant S_ .f32 0x00000000#32) reducesTo_S100000x128_S128_d0 h_S_)
    (broadcastInDim S128 ![] bcast_S_S128 (constant (F := Ideal) S_ .f32 0x47C35000#32))

theorem colVar_apply (H : Arr 100000 128) (q : Fin 128) :
    colVar H (ix1 q) = Ideal.div (∑ p : Fin 100000, centred H (ix2 p q) * centred H (ix2 p q)) rowsW := by
  unfold colVar
  rw [hostDivf_apply, host_colsum_apply, bcastInDim_scalar_apply, constant_apply, constant_apply, ofBits_zero, zero_add]
  rfl

/-- The inverse square root of each column's variance plus the offset. -/
def invStd (H : Arr 100000 128) : Vec1 128 :=
  Host.rsqrt (F := Ideal) (s := S128) (φ := .f32)
    (addf (F := Ideal) (s := S128) (φ := .f32) (colVar H)
      (broadcastInDim S128 ![] bcast_S_S128 (constant (F := Ideal) S_ .f32 0x3727C5AC#32)))

theorem invStd_apply (H : Arr 100000 128) (q : Fin 128) :
    invStd H (ix1 q) = Ideal.rsqrt (colVar H (ix1 q) + epsW) := by
  unfold invStd
  rw [hostRsqrt_apply, addf_apply, bcastInDim_scalar_apply, constant_apply]
  rfl

/-- The reference's normalisation, scale, shift and clamp, as it spells them. -/
def bnHost (H : Arr 100000 128) (g be : Vec1 128) : Arr 100000 128 :=
  maximumf (F := Ideal) (s := S100000x128) (φ := .f32)
    (addf (F := Ideal) (s := S100000x128) (φ := .f32)
      (mulf (F := Ideal) (s := S100000x128) (φ := .f32)
        (mulf (F := Ideal) (s := S100000x128) (φ := .f32) (centred H) (rows128 (invStd H))) (rows128 g))
      (rows128 be))
    (broadcastInDim S100000x128 ![] bcast_S_S100000x128 (constant (F := Ideal) S_ .f32 0x00000000#32))

theorem bnHost_eq (H : Arr 100000 128) (g be : Vec1 128) : bnHost H g be = refBnRelu H g be := by
  funext i
  obtain ⟨p, q, rfl⟩ : ∃ (p : Fin 100000) (q : Fin 128), i = ix2 p q := ⟨i 0, i 1, eq_ix2 i⟩
  unfold bnHost
  rw [maximumf_apply, addf_apply, mulf_apply, mulf_apply, rows128_apply, rows128_apply, rows128_apply, invStd_apply,
    colVar_apply, bcastInDim_scalar_apply, constant_apply, ofBits_zero]
  simp only [centred_apply]
  rfl

theorem v53_eq (x0 : Arr 100000 64) (x1 : Edges) (x2 : Arr 64 128) (x3 : Vec1 128) (x4 : Arr 64 128) (x11 x12 : Vec1 128) :
    Read.val_main_v53 (F := Ideal) x0 x1 x2 x3 x4 x11 x12
      = bnHost (Read.val_main_v27 (F := Ideal) x0 x1 x2 x3 x4) x11 x12 := rfl

theorem v103_eq (x0 : Arr 100000 64) (x1 : Edges) (x2 : Arr 64 128) (x3 : Vec1 128) (x4 : Arr 64 128) (x5 : Arr 128 128)
    (x6 : Vec1 128) (x7 : Arr 128 128) (x11 x12 x13 x14 : Vec1 128) :
    Read.val_main_v103 (F := Ideal) x0 x1 x2 x3 x4 x5 x6 x7 x11 x12 x13 x14
      = bnHost (Read.val_main_v77 (F := Ideal) x0 x1 x2 x3 x4 x5 x6 x7 x11 x12) x13 x14 := rfl

/-! ## The second and third layers' dense halves, and the head -/

theorem v77_eq (x0 : Arr 100000 64) (x1 : Edges) (x2 : Arr 64 128) (x3 : Vec1 128) (x4 : Arr 64 128) (x5 : Arr 128 128)
    (x6 : Vec1 128) (x7 : Arr 128 128) (x11 x12 : Vec1 128) :
    Read.val_main_v77 (F := Ideal) x0 x1 x2 x3 x4 x5 x6 x7 x11 x12
      = refLinear (Read.val_main_v71 (F := Ideal) x0 x1 x2 x3 x4 x11 x12)
          (Read.val_main_v53 (F := Ideal) x0 x1 x2 x3 x4 x11 x12) x5 x7 x6 := by
  unfold Read.val_main_v77 Read.val_main_v75 Read.val_main_v72 Read.val_main_v76 Read.val_main_v74 Read.val_main_v73
  exact host_refLinear dot_S100000x128_S128x128_S100000x128_1_0_0_1_n_n rfl rfl rfl rfl rfl rfl _ _ _ _ _ _ _

theorem v127_eq (x0 : Arr 100000 64) (x1 : Edges) (x2 : Arr 64 128) (x3 : Vec1 128) (x4 : Arr 64 128) (x5 : Arr 128 128)
    (x6 : Vec1 128) (x7 : Arr 128 128) (x8 : Arr 128 1) (x9 : Vec1 1) (x10 : Arr 128 1) (x11 x12 x13 x14 : Vec1 128) :
    Read.val_main_v127 (F := Ideal) x0 x1 x2 x3 x4 x5 x6 x7 x8 x9 x10 x11 x12 x13 x14
      = refLinear (Read.val_main_v121 (F := Ideal) x0 x1 x2 x3 x4 x5 x6 x7 x11 x12 x13 x14)
          (Read.val_main_v103 (F := Ideal) x0 x1 x2 x3 x4 x5 x6 x7 x11 x12 x13 x14) x8 x10 x9 := by
  unfold Read.val_main_v127 Read.val_main_v125 Read.val_main_v122 Read.val_main_v126 Read.val_main_v124 Read.val_main_v123
  exact host_refLinear dot_S100000x128_S128x1_S100000x1_1_0_0_1_n_n rfl rfl rfl rfl rfl rfl _ _ _ _ _ _ _

/-- The reference's head — the product with the 1×1 weight, the bias, then one over one plus the exponential of
    the negation — is the logistic function of the affine form, entry by entry. -/
theorem host_refHead {r : Nat} (d : DotDims ⟨2, ![r, 1]⟩ ⟨2, ![1, 1]⟩ ⟨2, ![r, 1]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![1]⟩ : Shape).BroadcastsInDim ⟨2, ![1, 1]⟩ ![1])
    (h2 : (⟨2, ![1, 1]⟩ : Shape).BroadcastsInDim ⟨2, ![r, 1]⟩ ![0, 1])
    (h0 : (⟨0, ![]⟩ : Shape).BroadcastsInDim ⟨2, ![r, 1]⟩ ![])
    (L : FVec Ideal ⟨2, ![r, 1]⟩ .f32) (wF : FVec Ideal ⟨2, ![1, 1]⟩ .f32) (bF : FVec Ideal ⟨1, ![1]⟩ .f32) :
    Host.divf (broadcastInDim ⟨2, ![r, 1]⟩ ![] h0 (constant (F := Ideal) ⟨0, ![]⟩ .f32 0x3F800000#32))
      (addf (broadcastInDim ⟨2, ![r, 1]⟩ ![] h0 (constant (F := Ideal) ⟨0, ![]⟩ .f32 0x3F800000#32))
        (Host.exp (Host.negf (addf (Host.dotGeneral d none L wF)
          (broadcastInDim ⟨2, ![r, 1]⟩ ![0, 1] h2 (broadcastInDim ⟨2, ![1, 1]⟩ ![1] h1 bF))))))
      = refHead L wF bF := by
  rw [Cert.Layers.host_bias]
  simp only [Host.dotGeneral]
  rw [dotGeneral_eq_matProd d hlc hrc hln hrn hlb hrb]
  funext i
  rw [hostDivf_apply, addf_apply, bcastInDim_scalar_apply, constant_apply, ofBits_one]
  rfl

theorem v137_eq (x0 : Arr 100000 64) (x1 : Edges) (x2 : Arr 64 128) (x3 : Vec1 128) (x4 : Arr 64 128) (x5 : Arr 128 128)
    (x6 : Vec1 128) (x7 : Arr 128 128) (x8 : Arr 128 1) (x9 : Vec1 1) (x10 : Arr 128 1) (x11 x12 x13 x14 : Vec1 128)
    (x15 : Arr 1 1) (x16 : Vec1 1) :
    Read.val_main_v137 (F := Ideal) x0 x1 x2 x3 x4 x5 x6 x7 x8 x9 x10 x11 x12 x13 x14 x15 x16
      = refHead (Read.val_main_v127 (F := Ideal) x0 x1 x2 x3 x4 x5 x6 x7 x8 x9 x10 x11 x12 x13 x14) x15 x16 := by
  unfold Read.val_main_v137 Read.val_main_v136 Read.val_main_v135 Read.val_main_v134 Read.val_main_v133 Read.val_main_v132
    Read.val_main_v131 Read.val_main_v130 Read.val_main_v129 Read.val_main_v128 Read.val_main_cst_26 Read.val_main_cst_27
  exact host_refHead dot_S100000x1_S1x1_S100000x1_1_0_0_1_n_n rfl rfl rfl rfl rfl rfl _ _ _ _ _ _

/-! ## The reference's result is the network -/

theorem result_eq (x0 : Arr 100000 64) (x1 : Edges) (x2 : Arr 64 128) (x3 : Vec1 128) (x4 : Arr 64 128) (x5 : Arr 128 128)
    (x6 : Vec1 128) (x7 : Arr 128 128) (x8 : Arr 128 1) (x9 : Vec1 1) (x10 : Arr 128 1) (x11 x12 x13 x14 : Vec1 128)
    (x15 : Arr 1 1) (x16 : Vec1 1) :
    Read.val_main_v137 (F := Ideal) x0 x1 x2 x3 x4 x5 x6 x7 x8 x9 x10 x11 x12 x13 x14 x15 x16
      = refNet (aggR64 x1) (aggR128 x1) x0 x2 x4 x3 x5 x7 x6 x8 x10 x9 x11 x12 x13 x14 x15 x16 := by
  have e53 : Read.val_main_v53 (F := Ideal) x0 x1 x2 x3 x4 x11 x12 = rLayer (aggR64 x1) x0 x2 x4 x3 x11 x12 := by
    rw [v53_eq, bnHost_eq, v27_eq]
    rfl
  have e103 : Read.val_main_v103 (F := Ideal) x0 x1 x2 x3 x4 x5 x6 x7 x11 x12 x13 x14
      = rLayer (aggR128 x1) (rLayer (aggR64 x1) x0 x2 x4 x3 x11 x12) x5 x7 x6 x13 x14 := by
    rw [v103_eq, bnHost_eq, v77_eq, v71_eq, e53]
    rfl
  rw [v137_eq, v127_eq, v121_eq, e103]
  rfl

/-! ## The aggregations keep real entries real

A gathered row is a row of the operand; the scatter adds, at each node, finitely many gathered entries to the
zero word; the in-degree is such a sum of ones, so the larger of it and one is a real that is at least one,
and the quotient is real. -/

theorem gather_allReal {s si t : Shape} {w : Nat} (d : GatherDims s si t) (x : s.Idx → EReal) (idx : IVec si w)
    (hx : AllReal x) : AllReal (Host.gather d x idx) := fun _ => hx _

theorem scatterAdd_allReal {s si su : Shape} {w : Nat} (d : ScatterDims s si su) (x : FVec Ideal s .f32)
    (idx : IVec si w) (upd : FVec Ideal su .f32) (hx : AllReal x) (hu : AllReal upd) :
    AllReal (Host.scatterAdd d x idx upd) :=
  fun i => (hx i).add (IsReal.sum _ fun j _ => hu j)

theorem divf_allReal {s : Shape} (x y : FVec Ideal s .f32) (hx : AllReal x) (hy : AllReal y) (h0 : ∀ i, y i ≠ 0) :
    AllReal (Host.divf x y) := fun i => IsReal.div (hx i) (hy i) (h0 i)

/-- The larger of a real and one is a real, and it is not zero. -/
theorem max_one_real {c : EReal} (hc : IsReal c) : IsReal (max c 1) ∧ max c 1 ≠ 0 := by
  refine ⟨?_, (lt_of_lt_of_le zero_lt_one (le_max_right c 1)).ne'⟩
  rcases le_total c 1 with h | h
  · rw [max_eq_right h]; exact isReal_one
  · rw [max_eq_left h]; exact hc

/-- A splat of the zero word and a splat of the one word. -/
theorem splat_zero_allReal {s : Shape} (h : (⟨0, ![]⟩ : Shape).BroadcastsInDim s ![]) :
    AllReal (broadcastInDim s ![] h (constant (F := Ideal) ⟨0, ![]⟩ .f32 0x00000000#32)) := fun i => by
  rw [bcastInDim_scalar_apply, constant_apply, ofBits_zero]; exact isReal_zero

theorem splat_one_apply {s : Shape} (h : (⟨0, ![]⟩ : Shape).BroadcastsInDim s ![]) (i : s.Idx) :
    broadcastInDim s ![] h (constant (F := Ideal) ⟨0, ![]⟩ .f32 0x3F800000#32) i = 1 := by
  rw [bcastInDim_scalar_apply, constant_apply, ofBits_one]

theorem splat_one_allReal {s : Shape} (h : (⟨0, ![]⟩ : Shape).BroadcastsInDim s ![]) :
    AllReal (broadcastInDim s ![] h (constant (F := Ideal) ⟨0, ![]⟩ .f32 0x3F800000#32)) := fun i => by
  rw [splat_one_apply]; exact isReal_one

/-- The in-degree (a sum of ones from the zero word) is real, in each of the layers' spellings. -/
theorem v17_allReal (ei : Edges) : AllReal (Read.val_main_v17 (F := Ideal) ei) :=
  scatterAdd_allReal _ _ _ _ (splat_zero_allReal _) (splat_one_allReal _)

theorem v67_allReal (ei : Edges) : AllReal (Read.val_main_v67 (F := Ideal) ei) :=
  scatterAdd_allReal _ _ _ _ (splat_zero_allReal _) (splat_one_allReal _)

theorem v19_eq (ei : Edges) (i : S100000x1.Idx) :
    Read.val_main_v19 (F := Ideal) ei i = max (Read.val_main_v17 (F := Ideal) ei i) 1 := by
  rw [Read.val_main_v19_apply]
  exact congrArg (max _) (splat_one_apply _ i)

theorem v69_eq (ei : Edges) (i : S100000x1.Idx) :
    Read.val_main_v69 (F := Ideal) ei i = max (Read.val_main_v67 (F := Ideal) ei i) 1 := by
  rw [Read.val_main_v69_apply]
  exact congrArg (max _) (splat_one_apply _ i)

/-- The divisor of the first layer's mean, the larger of the in-degree and one, is not zero. -/
theorem maxcnt_ne_zero (ei : Edges) (i : S100000x1.Idx) : Read.val_main_v19 (F := Ideal) ei i ≠ 0 := by
  rw [v19_eq]; exact (max_one_real (v17_allReal ei i)).2

/-- The same divisor as the later layers spell it. -/
theorem maxcnt128_ne_zero (ei : Edges) (i : S100000x1.Idx) : Read.val_main_v69 (F := Ideal) ei i ≠ 0 := by
  rw [v69_eq]; exact (max_one_real (v67_allReal ei i)).2

theorem aggR64_allReal (ei : Edges) (f : Arr 100000 64) (hf : AllReal f) : AllReal (aggR64 ei f) := by
  unfold aggR64 Read.val_main_v21
  refine divf_allReal _ _ ?_ ?_ ?_
  · exact scatterAdd_allReal _ _ _ _ (splat_zero_allReal _) (gather_allReal _ _ _ hf)
  · intro i; rw [Read.val_main_v20_apply, v19_eq]; exact (max_one_real (v17_allReal ei _)).1
  · intro i; rw [Read.val_main_v20_apply]; exact maxcnt_ne_zero ei _

theorem aggR128_allReal (ei : Edges) (f : Arr 100000 128) (hf : AllReal f) : AllReal (aggR128 ei f) := by
  unfold aggR128
  refine divf_allReal _ _ ?_ ?_ ?_
  · exact scatterAdd_allReal _ _ _ _ (splat_zero_allReal _) (gather_allReal _ _ _ hf)
  · intro i; rw [Read.val_main_v70_apply, v69_eq]; exact (max_one_real (v67_allReal ei _)).1
  · intro i; rw [Read.val_main_v70_apply]; exact maxcnt128_ne_zero ei _

/-! ## The run -/

/-- Every weakly fair execution of the reference terminates with its result the network of the arguments' launch
    contents, the arguments unchanged. -/
theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v137)
          = refNet (aggR64 (m ((c.tc : Thread nD τ).loc main_arg1))) (aggR128 (m ((c.tc : Thread nD τ).loc main_arg1)))
              (m ((c.tc : Thread nD τ).loc main_arg0)) (m ((c.tc : Thread nD τ).loc main_arg2))
              (m ((c.tc : Thread nD τ).loc main_arg4)) (m ((c.tc : Thread nD τ).loc main_arg3))
              (m ((c.tc : Thread nD τ).loc main_arg5)) (m ((c.tc : Thread nD τ).loc main_arg7))
              (m ((c.tc : Thread nD τ).loc main_arg6)) (m ((c.tc : Thread nD τ).loc main_arg8))
              (m ((c.tc : Thread nD τ).loc main_arg10)) (m ((c.tc : Thread nD τ).loc main_arg9))
              (m ((c.tc : Thread nD τ).loc main_arg11)) (m ((c.tc : Thread nD τ).loc main_arg12))
              (m ((c.tc : Thread nD τ).loc main_arg13)) (m ((c.tc : Thread nD τ).loc main_arg14))
              (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono
    (fun _ h c => ⟨((h c).1.trans (Read.val_main_v137_eq m c)).trans (result_eq _ _ _ _ _ _ _ _ _ _ _ _ _ _ _ _ _), (h c).2⟩)
    (Cert.ReferenceIdeal.Value.run (F := Ideal) m ρ)

end Cert.ReferenceIdeal.RefNet

end
-- ==== Proof.AggBridge.lean ====
/-
  The two programs' mean aggregation over incoming edges agree.

  Both gather the feature rows at the wrapped edge sources and add each gathered row into the row of its
  destination; both count the edges into each node by adding ones, and take the maximum of the count with 1. These
  pieces are the same terms in the two programs. They differ in one step: one program multiplies row i of the sums
  by the reciprocal 1 / max(countᵢ, 1), the other divides row i by max(countᵢ, 1). In the extended reals
  `p * (1 / s) = p / s` whenever `s ≠ 0`, and `max(countᵢ, 1) ≥ 1 > 0` whatever the count is, so the two
  aggregations are equal entry by entry.
-/
import proofs.«109389_j1769526526168_1_alg».proof.Proof.KernelAgg
import proofs.«109389_j1769526526168_1_alg».proof.Proof.Gen.ReferenceIdeal.Read
import proofs.«109389_j1769526526168_1_alg».proof.Proof.SageConsts
import proofs.«109389_j1769526526168_1_alg».proof.Proof.LibIdealSums
import proofs.«109389_j1769526526168_1_alg».proof.Proof.LibRowReductions

noncomputable section

namespace Cert.AggBridge

open Idealize.ShloMosaic Idealize.ShloMosaic.ValueIdx Cert.Lib.IdealSums Cert.Lib.RowReductions Cert.SageConsts
open Cert.KernelIdeal.Agg

/-- max(x, 1) is not zero, whatever x is: it is at least 1. -/
theorem max_one_ne_zero (x : EReal) : max x (1 : EReal) ≠ 0 :=
  (lt_of_lt_of_le zero_lt_one (le_max_right x 1)).ne'

section Generic
variable {n c : Nat}

/-- The broadcast of the word of 1 into a column reads 1 at every index. -/
theorem bcast_one_apply (h1 : (⟨0, ![]⟩ : Shape).BroadcastsInDim ⟨2, ![n, 1]⟩ ![])
    (i : (⟨2, ![n, 1]⟩ : Shape).Idx) :
    broadcastInDim ⟨2, ![n, 1]⟩ ![] h1 (constant (F := Ideal) ⟨0, ![]⟩ .f32 0x3F800000#32) i = (1 : EReal) :=
  (bcastInDim_scalar_apply _ h1 i).trans ofBits_one

/-- The entrywise maximum of a column with the broadcast word of 1 has no zero entry. -/
theorem maxOne_ne_zero (h1 : (⟨0, ![]⟩ : Shape).BroadcastsInDim ⟨2, ![n, 1]⟩ ![])
    (cnt : FVec Ideal ⟨2, ![n, 1]⟩ .f32) (i : (⟨2, ![n, 1]⟩ : Shape).Idx) :
    maximumf (F := Ideal) cnt
      (broadcastInDim ⟨2, ![n, 1]⟩ ![] h1 (constant (F := Ideal) ⟨0, ![]⟩ .f32 0x3F800000#32)) i ≠ 0 := by
  have e : maximumf (F := Ideal) cnt
      (broadcastInDim ⟨2, ![n, 1]⟩ ![] h1 (constant (F := Ideal) ⟨0, ![]⟩ .f32 0x3F800000#32)) i
      = max (cnt i) (1 : EReal) := congrArg (max (cnt i)) (bcast_one_apply h1 i)
  rw [e]
  exact max_one_ne_zero _

/-- Rows times the broadcast reciprocal of a column without zeros are the rows divided by the broadcast column:
    at each entry `p * (1 / s) = p / s` for `s ≠ 0`. -/
theorem mulf_bcast_recip (h1 : (⟨0, ![]⟩ : Shape).BroadcastsInDim ⟨2, ![n, 1]⟩ ![])
    (h : (⟨2, ![n, 1]⟩ : Shape).BroadcastsInDim ⟨2, ![n, c]⟩ ![0, 1])
    (S : FVec Ideal ⟨2, ![n, c]⟩ .f32) (C : FVec Ideal ⟨2, ![n, 1]⟩ .f32) (hC : ∀ i, C i ≠ 0) :
    mulf (F := Ideal) S (broadcastInDim ⟨2, ![n, c]⟩ ![0, 1] h
        (Host.divf (F := Ideal)
          (broadcastInDim ⟨2, ![n, 1]⟩ ![] h1 (constant (F := Ideal) ⟨0, ![]⟩ .f32 0x3F800000#32)) C))
      = Host.divf (F := Ideal) S (broadcastInDim ⟨2, ![n, c]⟩ ![0, 1] h C) := by
  funext i
  obtain ⟨p, q, rfl⟩ : ∃ (p : Fin n) (q : Fin c), i = ix2 p q := ⟨i 0, i 1, eq_ix2 i⟩
  have e1 := bcastInDim_cols_apply (Host.divf (F := Ideal)
      (broadcastInDim ⟨2, ![n, 1]⟩ ![] h1 (constant (F := Ideal) ⟨0, ![]⟩ .f32 0x3F800000#32)) C) h p q
  have e2 := bcastInDim_cols_apply C h p q
  have e3 : Host.divf (F := Ideal)
      (broadcastInDim ⟨2, ![n, 1]⟩ ![] h1 (constant (F := Ideal) ⟨0, ![]⟩ .f32 0x3F800000#32)) C (ix2 p 0)
      = Ideal.div 1 (C (ix2 p 0)) := congrArg (Ideal.div · (C (ix2 p 0))) (bcast_one_apply h1 (ix2 p 0))
  calc S (ix2 p q) * broadcastInDim ⟨2, ![n, c]⟩ ![0, 1] h (Host.divf (F := Ideal)
          (broadcastInDim ⟨2, ![n, 1]⟩ ![] h1 (constant (F := Ideal) ⟨0, ![]⟩ .f32 0x3F800000#32)) C) (ix2 p q)
      = S (ix2 p q) * Ideal.div 1 (C (ix2 p 0)) := congrArg (S (ix2 p q) * ·) (e1.trans e3)
    _ = Ideal.div (S (ix2 p q)) (C (ix2 p 0)) := mul_div_one_of_ne_zero _ (hC _)
    _ = Ideal.div (S (ix2 p q)) (broadcastInDim ⟨2, ![n, c]⟩ ![0, 1] h C (ix2 p q)) :=
        congrArg (Ideal.div (S (ix2 p q))) e2.symm

end Generic

/-! ## The pieces the two programs share -/

theorem srcK_eq (ei : EI) : srcK ei = Cert.ReferenceIdeal.Read.val_main_v1 (F := Ideal) ei := rfl
theorem dstK_eq (ei : EI) : dstK ei = Cert.ReferenceIdeal.Read.val_main_v3 (F := Ideal) ei := rfl
theorem wrapSrcK_eq (ei : EI) : wrapSrcK ei = Cert.ReferenceIdeal.Read.val_main_v8 (F := Ideal) ei := rfl
theorem wrapSrcK_eq' (ei : EI) : wrapSrcK ei = Cert.ReferenceIdeal.Read.val_main_v58 (F := Ideal) ei := rfl
theorem maxCntK_eq (ei : EI) : maxCntK ei = Cert.ReferenceIdeal.Read.val_main_v19 (F := Ideal) ei := rfl
theorem maxCntK_eq' (ei : EI) : maxCntK ei = Cert.ReferenceIdeal.Read.val_main_v69 (F := Ideal) ei := rfl
theorem segSum64_eq (ei : EI) (f : FVec Ideal Cert.KernelIdeal.S100000x64 .f32) :
    segSum64 ei f = Cert.ReferenceIdeal.Read.val_main_v13 (F := Ideal) f ei := rfl

/-! ## The bridge -/

/-- The kernel's count column has no zero entry: it is a maximum with 1. -/
theorem maxCntK_ne_zero (ei : EI) (i : Cert.KernelIdeal.S100000x1.Idx) : maxCntK ei i ≠ 0 :=
  maxOne_ne_zero (n := 100000) _ _ i

/-- Layer 0: the kernel's aggregation of a 64-column array, rows times 1 / max(count, 1), is the reference's,
    rows divided by max(count, 1). -/
theorem agg64_eq (ei : EI) (f : FVec Ideal Cert.KernelIdeal.S100000x64 .f32) :
    aggK64 ei f = Cert.ReferenceIdeal.Read.val_main_v21 (F := Ideal) f ei :=
  mulf_bcast_recip (n := 100000) (c := 64) _ _ (segSum64 ei f) (maxCntK ei) (maxCntK_ne_zero ei)

/-- Layer 1: the same with 128 columns, against the reference's gather, accumulating scatter and quotient. -/
theorem agg128_eq (ei : EI) (f : FVec Ideal Cert.KernelIdeal.S100000x128 .f32) :
    aggK128 ei f
      = Host.divf (F := Ideal)
          (Host.scatterAdd Cert.ReferenceIdeal.scatter_S100000x128_S1600000x1_S1600000x128_1_0_0_1
            (Cert.ReferenceIdeal.Read.val_main_v61 (F := Ideal)) (Cert.ReferenceIdeal.Read.val_main_v62 (F := Ideal) ei)
            (Host.gather Cert.ReferenceIdeal.gather_S100000x128_S1600000x1_S1600000x128_1_0_n_n_0_1_1128 f
              (Cert.ReferenceIdeal.Read.val_main_v59 (F := Ideal) ei)))
          (Cert.ReferenceIdeal.Read.val_main_v70 (F := Ideal) ei) :=
  mulf_bcast_recip (n := 100000) (c := 128) _ _ (segSum128 ei f) (maxCntK ei) (maxCntK_ne_zero ei)

end Cert.AggBridge

end
-- ==== Proof.NetBridge.lean ====
/-
  The two programs compute one function of real arguments: the kernel's network, whose aggregation multiplies the
  summed neighbour rows by 1 / max(count, 1), and the reference's, whose aggregation divides them by max(count, 1),
  agree layer by layer (`Cert.Sage.net_eq`), the two aggregations being one function and keeping real entries real.
-/
import proofs.«109389_j1769526526168_1_alg».proof.Proof.SageAlgebra
import proofs.«109389_j1769526526168_1_alg».proof.Proof.KernelAgg
import proofs.«109389_j1769526526168_1_alg».proof.Proof.AggBridge
import proofs.«109389_j1769526526168_1_alg».proof.Proof.RefNet

noncomputable section

namespace Cert.NetBridge

open Cert.Sage Cert.KernelIdeal.Agg Cert.ReferenceIdeal.RefNet Idealize.ShloMosaic

/-- The kernel's network is the reference's network on real arguments. -/
theorem kernel_eq_ref (ei : EI) (x : Arr 100000 64) (Wl0 Wr0 : Arr 64 128) (bl0 : Vec1 128)
    (Wl1 Wr1 : Arr 128 128) (bl1 : Vec1 128) (Wl2 Wr2 : Arr 128 1) (bl2 : Vec1 1) (g0 be0 g1 be1 : Vec1 128)
    (wF : Arr 1 1) (bF : Vec1 1)
    (hx : AllReal x) (hWl0 : AllReal Wl0) (hWr0 : AllReal Wr0) (hbl0 : AllReal bl0)
    (hWl1 : AllReal Wl1) (hWr1 : AllReal Wr1) (hbl1 : AllReal bl1)
    (hg0 : AllReal g0) (hbe0 : AllReal be0) (hg1 : AllReal g1) (hbe1 : AllReal be1) :
    kernelNet (aggK64 ei) (aggK128 ei) x Wl0 Wr0 bl0 Wl1 Wr1 bl1 Wl2 Wr2 bl2 g0 be0 g1 be1 wF bF
      = refNet (aggR64 ei) (aggR128 ei) x Wl0 Wr0 bl0 Wl1 Wr1 bl1 Wl2 Wr2 bl2 g0 be0 g1 be1 wF bF :=
  net_eq (aggK64 ei) (aggR64 ei) (aggK128 ei) (aggR128 ei)
    (fun f => Cert.AggBridge.agg64_eq ei f) (fun f => Cert.AggBridge.agg128_eq ei f)
    (fun f hf => aggR64_allReal ei f hf) (fun f hf => aggR128_allReal ei f hf)
    x Wl0 Wr0 bl0 Wl1 Wr1 bl1 Wl2 Wr2 bl2 g0 be0 g1 be1 wF bF hx hWl0 hWr0 hbl0 hWl1 hWr1 hbl1 hg0 hbe0 hg1 hbe1

end Cert.NetBridge

end
-- ==== Proof.FiniteInputs.lean ====
/-
  Finiteness of the inputs. The precondition evaluates, for every float argument `x`, the conjunction over all
  entries of the comparison `|x i| < +∞`, and the conjunction of these over the arguments; it says the result is 1.
  Read back: a conjunction of one-bit words that is 1 has both conjuncts 1; a reduction by `and` over all axes that
  is 1 met a 1 at every entry; and an extended real whose absolute value is below `+∞` is neither infinity, so it
  is (the coercion of) a real. Hence every entry of every float argument is a real.
-/
import proofs.«109389_j1769526526168_1_alg».proof.Defs
import proofs.«109389_j1769526526168_1_alg».proof.Proof.Gen.Pre_finite_inputs
import proofs.«109389_j1769526526168_1_alg».proof.Proof.SageAlgebra
import proofs.«109389_j1769526526168_1_alg».proof.Proof.LibIdealSums
import Idealize.ShloMosaic.Lib.ReduceAll

namespace Cert.KernelIdeal.FiniteInputs

open Idealize.ShloMosaic Idealize.SL.Sem Cert.Lib.IdealSums

/-- The shape of rank zero has one index. -/
instance subsingleton_scalarIdx : Subsingleton Cert.Pre_finite_inputs.S_.Idx := ⟨fun a b => funext fun d => d.elim0⟩

/-- One argument's check, at any shape: if the reduction by `and`, over all axes, of the entrywise comparison
    `|x i| < +∞` (the bound a broadcast scalar constant) is 1, then every entry of `x` is a real. -/
theorem allReal_of_check {s : Shape} {dims : Fin Cert.Pre_finite_inputs.S_.rank → Fin s.rank}
    (hb : Cert.Pre_finite_inputs.S_.BroadcastsInDim s dims) {axes : List (Fin s.rank)}
    (hr : s.ReducesTo axes Cert.Pre_finite_inputs.S_) (hu : 0 < Cert.Pre_finite_inputs.S_.numel)
    (x : FVec Ideal s .f32) (init : IVec Cert.Pre_finite_inputs.S_ 1) (j : Cert.Pre_finite_inputs.S_.Idx)
    (e : Host.reduce IntOp.andi
          (cmpf .olt (Host.absf x)
            (broadcastInDim s dims hb (constant (F := Ideal) Cert.Pre_finite_inputs.S_ .f32 0x7F800000#32)))
          init hr hu j = 1#1) :
    ∀ i, IsReal (x i) :=
  fun i => isReal_of_cmpf_abs (x i) (Host.reduce_andi_all _ init hr hu j e i)

/-- Under the precondition every entry of every float argument of the program is a real. The check's value at its
    one index is a left-nested conjunction, one reduction per float argument in argument order; it is split from the
    right, and each reduction gives its argument's entries by `allReal_of_check`. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Sage.AllReal ((m ((c.tc : Thread Cert.KernelIdeal.nD Cert.KernelIdeal.τ).loc Cert.KernelIdeal.main_arg0)) : Cert.Sage.Arr 100000 64)
    ∧ Cert.Sage.AllReal ((m ((c.tc : Thread Cert.KernelIdeal.nD Cert.KernelIdeal.τ).loc Cert.KernelIdeal.main_arg2)) : Cert.Sage.Arr 64 128)
    ∧ Cert.Sage.AllReal ((m ((c.tc : Thread Cert.KernelIdeal.nD Cert.KernelIdeal.τ).loc Cert.KernelIdeal.main_arg3)) : Cert.Sage.Vec1 128)
    ∧ Cert.Sage.AllReal ((m ((c.tc : Thread Cert.KernelIdeal.nD Cert.KernelIdeal.τ).loc Cert.KernelIdeal.main_arg4)) : Cert.Sage.Arr 64 128)
    ∧ Cert.Sage.AllReal ((m ((c.tc : Thread Cert.KernelIdeal.nD Cert.KernelIdeal.τ).loc Cert.KernelIdeal.main_arg5)) : Cert.Sage.Arr 128 128)
    ∧ Cert.Sage.AllReal ((m ((c.tc : Thread Cert.KernelIdeal.nD Cert.KernelIdeal.τ).loc Cert.KernelIdeal.main_arg6)) : Cert.Sage.Vec1 128)
    ∧ Cert.Sage.AllReal ((m ((c.tc : Thread Cert.KernelIdeal.nD Cert.KernelIdeal.τ).loc Cert.KernelIdeal.main_arg7)) : Cert.Sage.Arr 128 128)
    ∧ Cert.Sage.AllReal ((m ((c.tc : Thread Cert.KernelIdeal.nD Cert.KernelIdeal.τ).loc Cert.KernelIdeal.main_arg8)) : Cert.Sage.Arr 128 1)
    ∧ Cert.Sage.AllReal ((m ((c.tc : Thread Cert.KernelIdeal.nD Cert.KernelIdeal.τ).loc Cert.KernelIdeal.main_arg9)) : Cert.Sage.Vec1 1)
    ∧ Cert.Sage.AllReal ((m ((c.tc : Thread Cert.KernelIdeal.nD Cert.KernelIdeal.τ).loc Cert.KernelIdeal.main_arg10)) : Cert.Sage.Arr 128 1)
    ∧ Cert.Sage.AllReal ((m ((c.tc : Thread Cert.KernelIdeal.nD Cert.KernelIdeal.τ).loc Cert.KernelIdeal.main_arg11)) : Cert.Sage.Vec1 128)
    ∧ Cert.Sage.AllReal ((m ((c.tc : Thread Cert.KernelIdeal.nD Cert.KernelIdeal.τ).loc Cert.KernelIdeal.main_arg12)) : Cert.Sage.Vec1 128)
    ∧ Cert.Sage.AllReal ((m ((c.tc : Thread Cert.KernelIdeal.nD Cert.KernelIdeal.τ).loc Cert.KernelIdeal.main_arg13)) : Cert.Sage.Vec1 128)
    ∧ Cert.Sage.AllReal ((m ((c.tc : Thread Cert.KernelIdeal.nD Cert.KernelIdeal.τ).loc Cert.KernelIdeal.main_arg14)) : Cert.Sage.Vec1 128)
    ∧ Cert.Sage.AllReal ((m ((c.tc : Thread Cert.KernelIdeal.nD Cert.KernelIdeal.τ).loc Cert.KernelIdeal.main_arg15)) : Cert.Sage.Arr 1 1)
    ∧ Cert.Sage.AllReal ((m ((c.tc : Thread Cert.KernelIdeal.nD Cert.KernelIdeal.τ).loc Cert.KernelIdeal.main_arg16)) : Cert.Sage.Vec1 1) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨g16, e16⟩ := IntOp.andi_eq_one.1 h0
  obtain ⟨g15, e15⟩ := IntOp.andi_eq_one.1 g16
  obtain ⟨g14, e14⟩ := IntOp.andi_eq_one.1 g15
  obtain ⟨g13, e13⟩ := IntOp.andi_eq_one.1 g14
  obtain ⟨g12, e12⟩ := IntOp.andi_eq_one.1 g13
  obtain ⟨g11, e11⟩ := IntOp.andi_eq_one.1 g12
  obtain ⟨g10, e10⟩ := IntOp.andi_eq_one.1 g11
  obtain ⟨g9, e9⟩ := IntOp.andi_eq_one.1 g10
  obtain ⟨g8, e8⟩ := IntOp.andi_eq_one.1 g9
  obtain ⟨g7, e7⟩ := IntOp.andi_eq_one.1 g8
  obtain ⟨g6, e6⟩ := IntOp.andi_eq_one.1 g7
  obtain ⟨g5, e5⟩ := IntOp.andi_eq_one.1 g6
  obtain ⟨g4, e4⟩ := IntOp.andi_eq_one.1 g5
  obtain ⟨g3, e3⟩ := IntOp.andi_eq_one.1 g4
  obtain ⟨e0, e2⟩ := IntOp.andi_eq_one.1 g3
  exact ⟨allReal_of_check _ _ _ _ _ _ e0,
    allReal_of_check _ _ _ _ _ _ e2,
    allReal_of_check _ _ _ _ _ _ e3,
    allReal_of_check _ _ _ _ _ _ e4,
    allReal_of_check _ _ _ _ _ _ e5,
    allReal_of_check _ _ _ _ _ _ e6,
    allReal_of_check _ _ _ _ _ _ e7,
    allReal_of_check _ _ _ _ _ _ e8,
    allReal_of_check _ _ _ _ _ _ e9,
    allReal_of_check _ _ _ _ _ _ e10,
    allReal_of_check _ _ _ _ _ _ e11,
    allReal_of_check _ _ _ _ _ _ e12,
    allReal_of_check _ _ _ _ _ _ e13,
    allReal_of_check _ _ _ _ _ _ e14,
    allReal_of_check _ _ _ _ _ _ e15,
    allReal_of_check _ _ _ _ _ _ e16⟩

end Cert.KernelIdeal.FiniteInputs
-- ==== Proof.lean ====
/-
  The certificate of a three-layer mean-aggregation graph network against its reference, at the idealized
  instance (floats as extended reals, every operation exact).

  The kernel computes each layer's dense half A·Wl + X·Wr + b in blocks of 5000 rows, accumulates per column the
  sum and the sum of squares over all 100000 rows across the grid, forms from them a scale and a shift row on the
  host, and applies x·scale + shift clamped at zero block by block; the neighbour aggregation A (gather by source,
  accumulating scatter by destination, times 1 / max(count, 1)) is host code; the last layer is fused with a 1×1
  linear head and the logistic function. The reference divides the summed neighbour rows by max(count, 1), adds the
  bias before the second product, and normalises by the centred form (x − μ)·(var + ε)^(−1/2)·g + β with the
  variance as the mean of the squared deviations.

  The two agree on finite inputs: every intermediate entry is then a real number (sums, products and quotients by
  nonzero reals of reals), on reals the mean of the squared deviations is the mean of the squares minus the squared
  mean (the divisor being the number of rows), that variance is nonnegative so the inverse square root of
  variance + ε is a real, and the rest is the distributive law. The division by max(count, 1) against the product
  with its reciprocal needs only that max(count, 1) is not zero.

  The three frames: the two kernels' are the generated frame certificates; the reference's is its generated run
  with the result dropped. The ideal pass recorded no rewrite, so the preservation claim is trivial.
-/
import proofs.«109389_j1769526526168_1_alg».proof.Defs
import proofs.«109389_j1769526526168_1_alg».proof.Proof.Gen.Kernel
import proofs.«109389_j1769526526168_1_alg».proof.Proof.Gen.Kernel.Skeleton
import proofs.«109389_j1769526526168_1_alg».proof.Proof.Gen.Kernel.Launch
import proofs.«109389_j1769526526168_1_alg».proof.Proof.Gen.Kernel.Points
import proofs.«109389_j1769526526168_1_alg».proof.Proof.Gen.Kernel.Frame
import proofs.«109389_j1769526526168_1_alg».proof.Proof.Gen.KernelIdeal
import proofs.«109389_j1769526526168_1_alg».proof.Proof.Gen.KernelIdeal.Skeleton
import proofs.«109389_j1769526526168_1_alg».proof.Proof.Gen.KernelIdeal.Launch
import proofs.«109389_j1769526526168_1_alg».proof.Proof.Gen.KernelIdeal.Points
import proofs.«109389_j1769526526168_1_alg».proof.Proof.Gen.KernelIdeal.Frame
import proofs.«109389_j1769526526168_1_alg».proof.Proof.Gen.ReferenceIdeal
import proofs.«109389_j1769526526168_1_alg».proof.Proof.Gen.ReferenceIdeal.Run
import proofs.«109389_j1769526526168_1_alg».proof.Proof.Gen.Pre_finite_inputs
import proofs.«109389_j1769526526168_1_alg».proof.Proof.KernelRun
import proofs.«109389_j1769526526168_1_alg».proof.Proof.KernelChain
import proofs.«109389_j1769526526168_1_alg».proof.Proof.RefNet
import proofs.«109389_j1769526526168_1_alg».proof.Proof.NetBridge
import proofs.«109389_j1769526526168_1_alg».proof.Proof.FiniteInputs
import Idealize.ShloMosaic.Adequacy
import Idealize.ShloMosaic.Init

noncomputable section

namespace Cert.Proof

open Idealize.ShloMosaic Idealize.SL.Sem

/-- The two kernels' frames are the generated frame certificates. -/
theorem frame_k [Cert.Kernel.Facts] [Cert.Pre_finite_inputs.Facts] : Cert.frame_Kernel :=
  fun m ρ _ => Cert.Kernel.Gen.frame m ρ
theorem frame_ki [Cert.KernelIdeal.Facts] [Cert.Pre_finite_inputs.Facts] : Cert.frame_KernelIdeal :=
  fun m ρ _ => Cert.KernelIdeal.Gen.frame m ρ

/-- The reference's frame is its generated run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on the arguments, finite, both idealized programs end with the network of the
    kernel's launch contents in their result buffers. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, (θ_run Cert.KernelIdeal.defs _ _).mono
    (fun r h c => ⟨(h c).1.trans (Cert.KernelIdeal.Chain.result m ρ c), (h c).2⟩)
    (Cert.KernelIdeal.RunValue.run_value (F := Ideal) m ρ), ?_⟩
  refine (θ_run Cert.ReferenceIdeal.defs _ _).mono (fun r h c => ⟨(h c).1.trans ?_, (h c).2⟩)
    (Cert.ReferenceIdeal.RefNet.run_net m' ρ')
  obtain ⟨a0, a1, a2, a3, a4, a5, a6, a7, a8, a9, a10, a11, a12, a13, a14, a15, a16⟩ := hagree c
  obtain ⟨r0, r2, r3, r4, r5, r6, r7, r8, r9, r10, r11, r12, r13, r14, r15, r16⟩ :=
    Cert.KernelIdeal.FiniteInputs.args_real m hpre c
  rw [a0, a1, a2, a3, a4, a5, a6, a7, a8, a9, a10, a11, a12, a13, a14, a15, a16]
  exact (Cert.NetBridge.kernel_eq_ref _ _ _ _ _ _ _ _ _ _ _ _ _ _ _ _ _ r0 r2 r4 r3 r5 r7 r6 r11 r12 r13 r14).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
